-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024x1024 : Shape := ⟨2, ![1024, 1024]⟩
abbrev S2x8x129 : Shape := ⟨3, ![2, 8, 129]⟩
abbrev S2x8 : Shape := ⟨2, ![2, 8]⟩
abbrev S2x8x8 : Shape := ⟨3, ![2, 8, 8]⟩
abbrev S2x1x8 : Shape := ⟨3, ![2, 1, 8]⟩
abbrev S2x1 : Shape := ⟨2, ![2, 1]⟩
abbrev S3x5x64x64 : Shape := ⟨4, ![3, 5, 64, 64]⟩
abbrev S3x64 : Shape := ⟨2, ![3, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x8x129 : S_.BroadcastsInDim S2x8x129 (![] : Fin 0 → Fin S2x8x129.rank)
  reducesTo_S2x8x129_S_d0_1_2 : S2x8x129.ReducesTo [0, 1, 2] S_
  bcast_S_S2x8 : S_.BroadcastsInDim S2x8 (![] : Fin 0 → Fin S2x8.rank)
  reducesTo_S2x8_S_d0_1 : S2x8.ReducesTo [0, 1] S_
  bcast_S_S2x8x8 : S_.BroadcastsInDim S2x8x8 (![] : Fin 0 → Fin S2x8x8.rank)
  reducesTo_S2x8x8_S_d0_1_2 : S2x8x8.ReducesTo [0, 1, 2] S_
  bcast_S_S2x1x8 : S_.BroadcastsInDim S2x1x8 (![] : Fin 0 → Fin S2x1x8.rank)
  reducesTo_S2x1x8_S_d0_1_2 : S2x1x8.ReducesTo [0, 1, 2] S_
  bcast_S_S2x1 : S_.BroadcastsInDim S2x1 (![] : Fin 0 → Fin S2x1.rank)
  reducesTo_S2x1_S_d0_1 : S2x1.ReducesTo [0, 1] S_
  bcast_S_S3x5x64x64 : S_.BroadcastsInDim S3x5x64x64 (![] : Fin 0 → Fin S3x5x64x64.rank)
  reducesTo_S3x5x64x64_S_d0_1_2_3 : S3x5x64x64.ReducesTo [0, 1, 2, 3] S_
  bcast_S_S3x64 : S_.BroadcastsInDim S3x64 (![] : Fin 0 → Fin S3x64.rank)
  reducesTo_S3x64_S_d0_1 : S3x64.ReducesTo [0, 1] S_

variable [Facts]

def fn_part3 {F : FTy → Type} [FloatOps F] (main_arg11 : FVec F S3x5x64x64 .f32) (main_arg12 : FVec F S3x64 .f32) (main_v48 : IVec S_ 1) (main_v49 : FVec F S2x1 .f32) (main_v50 : FVec F S2x1 .f32) : IVec S_ 1 :=
  let main_v51 : IVec S2x1 1 := cmpf .olt main_v49 main_v50
  let main_c_19 : IVec S_ 1 := constantI S_ 1 1#1
  let main_v52 : IVec S_ 1 := (fun x v => Host.reduce IntOp.andi x v reducesTo_S2x1_S_d0_1 h_S_) main_v51 main_c_19
  let main_v53 : IVec S_ 1 := andi main_v48 main_v52
  let main_v54 : FVec F S3x5x64x64 .f32 := Host.absf main_arg11
  let main_cst_20 : FVec F S_ .f32 := constant S_ .f32 0x7F800000#32
  let main_v55 : FVec F S3x5x64x64 .f32 := broadcastInDim S3x5x64x64 ![] bcast_S_S3x5x64x64 main_cst_20
  let main_v56 : IVec S3x5x64x64 1 := cmpf .olt main_v54 main_v55
  let main_c_21 : IVec S_ 1 := constantI S_ 1 1#1
  let main_v57 : IVec S_ 1 := (fun x v => Host.reduce IntOp.andi x v reducesTo_S3x5x64x64_S_d0_1_2_3 h_S_) main_v56 main_c_21
  let main_v58 : IVec S_ 1 := andi main_v53 main_v57
  let main_v59 : FVec F S3x64 .f32 := Host.absf main_arg12
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  main_v63

def fn_part2 {F : FTy → Type} [FloatOps F] (main_arg7 : FVec F S2x8x8 .f32) (main_arg8 : FVec F S2x8 .f32) (main_arg9 : FVec F S2x1x8 .f32) (main_arg10 : FVec F S2x1 .f32) (main_arg11 : FVec F S3x5x64x64 .f32) (main_arg12 : FVec F S3x64 .f32) (main_v33 : IVec S_ 1) : IVec S_ 1 :=
  let main_v34 : FVec F S2x8x8 .f32 := Host.absf main_arg7
  let main_cst_12 : FVec F S_ .f32 := constant S_ .f32 0x7F800000#32
  let main_v35 : FVec F S2x8x8 .f32 := broadcastInDim S2x8x8 ![] bcast_S_S2x8x8 main_cst_12
  let main_v36 : IVec S2x8x8 1 := cmpf .olt main_v34 main_v35
  let main_c_13 : IVec S_ 1 := constantI S_ 1 1#1
  let main_v37 : IVec S_ 1 := (fun x v => Host.reduce IntOp.andi x v reducesTo_S2x8x8_S_d0_1_2 h_S_) main_v36 main_c_13
  let main_v38 : IVec S_ 1 := andi main_v33 main_v37
  let main_v39 : FVec F S2x8 .f32 := Host.absf main_arg8
  let main_cst_14 : FVec F S_ .f32 := constant S_ .f32 0x7F800000#32
  let main_v40 : FVec F S2x8 .f32 := broadcastInDim S2x8 ![] bcast_S_S2x8 main_cst_14
  let main_v41 : IVec S2x8 1 := cmpf .olt main_v39 main_v40
  let main_c_15 : IVec S_ 1 := constantI S_ 1 1#1
  let main_v42 : IVec S_ 1 := (fun x v => Host.reduce IntOp.andi x v reducesTo_S2x8_S_d0_1 h_S_) main_v41 main_c_15
  let main_v43 : IVec S_ 1 := andi main_v38 main_v42
  let main_v44 : FVec F S2x1x8 .f32 := Host.absf main_arg9
  let main_cst_16 : FVec F S_ .f32 := constant S_ .f32 0x7F800000#32
  let main_v45 : FVec F S2x1x8 .f32 := broadcastInDim S2x1x8 ![] bcast_S_S2x1x8 main_cst_16
  let main_v46 : IVec S2x1x8 1 := cmpf .olt main_v44 main_v45
  let main_c_17 : IVec S_ 1 := constantI S_ 1 1#1
  let main_v47 : IVec S_ 1 := (fun x v => Host.reduce IntOp.andi x v reducesTo_S2x1x8_S_d0_1_2 h_S_) main_v46 main_c_17
  let main_v48 : IVec S_ 1 := andi main_v43 main_v47
  let main_v49 : FVec F S2x1 .f32 := Host.absf main_arg10
  let main_cst_18 : FVec F S_ .f32 := constant S_ .f32 0x7F800000#32
  let main_v50 : FVec F S2x1 .f32 := broadcastInDim S2x1 ![] bcast_S_S2x1 main_cst_18
  fn_part3 (F := F) main_arg11 main_arg12 main_v48 main_v49 main_v50

def fn_part1 {F : FTy → Type} [FloatOps F] (main_arg4 : FVec F S1024x64 .f32) (main_arg5 : FVec F S2x8x129 .f32) (main_arg6 : FVec F S2x8 .f32) (main_arg7 : FVec F S2x8x8 .f32) (main_arg8 : FVec F S2x8 .f32) (main_arg9 : FVec F S2x1x8 .f32) (main_arg10 : FVec F S2x1 .f32) (main_arg11 : FVec F S3x5x64x64 .f32) (main_arg12 : FVec F S3x64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S2x8x129 .f32 := Host.absf main_arg5
  let main_cst_8 : FVec F S_ .f32 := constant S_ .f32 0x7F800000#32
  let main_v25 : FVec F S2x8x129 .f32 := broadcastInDim S2x8x129 ![] bcast_S_S2x8x129 main_cst_8
  let main_v26 : IVec S2x8x129 1 := cmpf .olt main_v24 main_v25
  let main_c_9 : IVec S_ 1 := constantI S_ 1 1#1
  let main_v27 : IVec S_ 1 := (fun x v => Host.reduce IntOp.andi x v reducesTo_S2x8x129_S_d0_1_2 h_S_) main_v26 main_c_9
  let main_v28 : IVec S_ 1 := andi main_v23 main_v27
  let main_v29 : FVec F S2x8 .f32 := Host.absf main_arg6
  let main_cst_10 : FVec F S_ .f32 := constant S_ .f32 0x7F800000#32
  let main_v30 : FVec F S2x8 .f32 := broadcastInDim S2x8 ![] bcast_S_S2x8 main_cst_10
  let main_v31 : IVec S2x8 1 := cmpf .olt main_v29 main_v30
  let main_c_11 : IVec S_ 1 := constantI S_ 1 1#1
  let main_v32 : IVec S_ 1 := (fun x v => Host.reduce IntOp.andi x v reducesTo_S2x8_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x64 .f32) (main_arg1 : FVec F S1024x1024 .f32) (main_arg2 : FVec F S1024x1024 .f32) (main_arg3 : FVec F S1024x1024 .f32) (main_arg4 : FVec F S1024x64 .f32) (main_arg5 : FVec F S2x8x129 .f32) (main_arg6 : FVec F S2x8 .f32) (main_arg7 : FVec F S2x8x8 .f32) (main_arg8 : FVec F S2x8 .f32) (main_arg9 : FVec F S2x1x8 .f32) (main_arg10 : FVec F S2x1 .f32) (main_arg11 : FVec F S3x5x64x64 .f32) (main_arg12 : FVec F S3x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S1024x64 : Shape := ⟨2, ![1024, 64]⟩
abbrev S1024x1024 : Shape := ⟨2, ![1024, 1024]⟩
abbrev S2x8x129 : Shape := ⟨3, ![2, 8, 129]⟩
abbrev S2x8 : Shape := ⟨2, ![2, 8]⟩
abbrev S2x8x8 : Shape := ⟨3, ![2, 8, 8]⟩
abbrev S2x1x8 : Shape := ⟨3, ![2, 1, 8]⟩
abbrev S2x1 : Shape := ⟨2, ![2, 1]⟩
abbrev S3x5x64x64 : Shape := ⟨4, ![3, 5, 64, 64]⟩
abbrev S3x64 : Shape := ⟨2, ![3, 64]⟩
abbrev S1x8x129 : Shape := ⟨3, ![1, 8, 129]⟩
abbrev S8x129 : Shape := ⟨2, ![8, 129]⟩
abbrev S1x8 : Shape := ⟨2, ![1, 8]⟩
abbrev S8 : Shape := ⟨1, ![8]⟩
abbrev S1x8x8 : Shape := ⟨3, ![1, 8, 8]⟩
abbrev S8x8 : Shape := ⟨2, ![8, 8]⟩
abbrev S1x1x8 : Shape := ⟨3, ![1, 1, 8]⟩
abbrev S1x1 : Shape := ⟨2, ![1, 1]⟩
abbrev S1 : Shape := ⟨1, ![1]⟩
abbrev S128x1024 : Shape := ⟨2, ![128, 1024]⟩
abbrev S128x64 : Shape := ⟨2, ![128, 64]⟩
abbrev S8x1 : Shape := ⟨2, ![8, 1]⟩
abbrev S8x64 : Shape := ⟨2, ![8, 64]⟩
abbrev S64x8 : Shape := ⟨2, ![64, 8]⟩
abbrev S128x8 : Shape := ⟨2, ![128, 8]⟩
abbrev S1024x8 : Shape := ⟨2, ![1024, 8]⟩
abbrev S128x1 : Shape := ⟨2, ![128, 1]⟩
abbrev S128 : Shape := ⟨1, ![128]⟩
abbrev S1024x1 : Shape := ⟨2, ![1024, 1]⟩
abbrev S1024 : Shape := ⟨1, ![1024]⟩
abbrev S1x1024 : Shape := ⟨2, ![1, 1024]⟩
abbrev S1x5x64x64 : Shape := ⟨4, ![1, 5, 64, 64]⟩
abbrev S5x64x64 : Shape := ⟨3, ![5, 64, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩

abbrev nBuf : Space → Nat
  | .hbm => 40
  | .vmem => 33
  | .smem => 0
  | _ => 0

abbrev bufTy : (tb : Table) → Fin (tcTables nBuf tb) → BufTy
  | .hbm, ⟨0, _⟩ => ⟨S1024x64, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x64, .f32⟩
  | .hbm, ⟨5, _⟩ => ⟨S2x8x129, .f32⟩
  | .hbm, ⟨6, _⟩ => ⟨S2x8, .f32⟩
  | .hbm, ⟨7, _⟩ => ⟨S2x8x8, .f32⟩
  | .hbm, ⟨8, _⟩ => ⟨S2x8, .f32⟩
  | .hbm, ⟨9, _⟩ => ⟨S2x1x8, .f32⟩
  | .hbm, ⟨10, _⟩ => ⟨S2x1, .f32⟩
  | .hbm, ⟨11, _⟩ => ⟨S3x5x64x64, .f32⟩
  | .hbm, ⟨12, _⟩ => ⟨S3x64, .f32⟩
  | .hbm, ⟨13, _⟩ => ⟨S1x8x129, .f32⟩
  | .hbm, ⟨14, _⟩ => ⟨S8x129, .f32⟩
  | .hbm, ⟨15, _⟩ => ⟨S1x8, .f32⟩
  | .hbm, ⟨16, _⟩ => ⟨S8, .f32⟩
  | .hbm, ⟨17, _⟩ => ⟨S1x8x8, .f32⟩
  | .hbm, ⟨18, _⟩ => ⟨S8x8, .f32⟩
  | .hbm, ⟨19, _⟩ => ⟨S1x8, .f32⟩
  | .hbm, ⟨20, _⟩ => ⟨S8, .f32⟩
  | .hbm, ⟨21, _⟩ => ⟨S1x1x8, .f32⟩
  | .hbm, ⟨22, _⟩ => ⟨S1x8, .f32⟩
  | .hbm, ⟨23, _⟩ => ⟨S1x1, .f32⟩
  | .hbm, ⟨24, _⟩ => ⟨S1, .f32⟩
  | .hbm, ⟨25, _⟩ => ⟨S1024x1024, .f32⟩
  | .hbm, ⟨26, _⟩ => ⟨S1x8x129, .f32⟩
  | .hbm, ⟨27, _⟩ => ⟨S8x129, .f32⟩
  | .hbm, ⟨28, _⟩ => ⟨S1x8, .f32⟩
  | .hbm, ⟨29, _⟩ => ⟨S8, .f32⟩
  | .hbm, ⟨30, _⟩ => ⟨S1x8x8, .f32⟩
  | .hbm, ⟨31, _⟩ => ⟨S8x8, .f32⟩
  | .hbm, ⟨32, _⟩ => ⟨S1x8, .f32⟩
  | .hbm, ⟨33, _⟩ => ⟨S8, .f32⟩
  | .hbm, ⟨34, _⟩ => ⟨S1x1x8, .f32⟩
  | .hbm, ⟨35, _⟩ => ⟨S1x8, .f32⟩
  | .hbm, ⟨36, _⟩ => ⟨S1x1, .f32⟩
  | .hbm, ⟨37, _⟩ => ⟨S1, .f32⟩
  | .hbm, ⟨38, _⟩ => ⟨S1024x1024, .f32⟩
  | .hbm, ⟨39, _⟩ => ⟨S1024x64, .f32⟩
  | .local _ .vmem, ⟨0, _⟩ => ⟨S128x1024, .f32⟩
  | .local _ .vmem, ⟨1, _⟩ => ⟨S128x1024, .f32⟩
  | .local _ .vmem, ⟨2, _⟩ => ⟨S128x64, .f32⟩
  | .local _ .vmem, ⟨3, _⟩ => ⟨S128x64, .f32⟩
  | .local _ .vmem, ⟨4, _⟩ => ⟨S1024x64, .f32⟩
  | .local _ .vmem, ⟨5, _⟩ => ⟨S8x129, .f32⟩
  | .local _ .vmem, ⟨6, _⟩ => ⟨S8, .f32⟩
  | .local _ .vmem, ⟨7, _⟩ => ⟨S8x8, .f32⟩
  | .local _ .vmem, ⟨8, _⟩ => ⟨S8, .f32⟩
  | .local _ .vmem, ⟨9, _⟩ => ⟨S1x8, .f32⟩
  | .local _ .vmem, ⟨10, _⟩ => ⟨S1, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x64, .f32⟩
  | .local _ .vmem, ⟨16, _⟩ => ⟨S128x64, .f32⟩
  | .local _ .vmem, ⟨17, _⟩ => ⟨S1024x64, .f32⟩
  | .local _ .vmem, ⟨18, _⟩ => ⟨S8x129, .f32⟩
  | .local _ .vmem, ⟨19, _⟩ => ⟨S8, .f32⟩
  | .local _ .vmem, ⟨20, _⟩ => ⟨S8x8, .f32⟩
  | .local _ .vmem, ⟨21, _⟩ => ⟨S8, .f32⟩
  | .local _ .vmem, ⟨22, _⟩ => ⟨S1x8, .f32⟩
  | .local _ .vmem, ⟨23, _⟩ => ⟨S1, .f32⟩
  | .local _ .vmem, ⟨24, _⟩ => ⟨S128x1024, .f32⟩
  | .local _ .vmem, ⟨25, _⟩ => ⟨S128x1024, .f32⟩
  | .local _ .vmem, ⟨26, _⟩ => ⟨S1024x1024, .f32⟩
  | .local _ .vmem, ⟨27, _⟩ => ⟨S1024x1024, .f32⟩
  | .local _ .vmem, ⟨28, _⟩ => ⟨S1024x64, .f32⟩
  | .local _ .vmem, ⟨29, _⟩ => ⟨S1024x1024, .f32⟩
  | .local _ .vmem, ⟨30, _⟩ => ⟨S3x5x64x64, .f32⟩
  | .local _ .vmem, ⟨31, _⟩ => ⟨S3x64, .f32⟩
  | .local _ .vmem, ⟨32, _⟩ => ⟨S1024x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x129 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x129 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x5x64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x8x129_S1x8x129_0_0_0 : S2x8x129.Slices ![0, 0, 0] S1x8x129
  shapeCasts_S1x8x129_S8x129 : S1x8x129.ShapeCasts S8x129
  slices_S2x8_S1x8_0_0 : S2x8.Slices ![0, 0] S1x8
  shapeCasts_S1x8_S8 : S1x8.ShapeCasts S8
  slices_S2x8x8_S1x8x8_0_0_0 : S2x8x8.Slices ![0, 0, 0] S1x8x8
  shapeCasts_S1x8x8_S8x8 : S1x8x8.ShapeCasts S8x8
  slices_S2x1x8_S1x1x8_0_0_0 : S2x1x8.Slices ![0, 0, 0] S1x1x8
  shapeCasts_S1x1x8_S1x8 : S1x1x8.ShapeCasts S1x8
  slices_S2x1_S1x1_0_0 : S2x1.Slices ![0, 0] S1x1
  shapeCasts_S1x1_S1 : S1x1.ShapeCasts S1
  inb_S128x1024_S128x1024_0_0 : ∀ a, (![0, 0] : Fin 2 → Nat) a + S128x1024.size a ≤ S128x1024.size a
  h_S128x1024 : 0 < S128x1024.numel
  inb_S128x64_S128x64_0_0 : ∀ a, (![0, 0] : Fin 2 → Nat) a + S128x64.size a ≤ S128x64.size a
  h_S128x64 : 0 < S128x64.numel
  inb_S1024x64_S1024x64_0_0 : ∀ a, (![0, 0] : Fin 2 → Nat) a + S1024x64.size a ≤ S1024x64.size a
  h_S1024x64 : 0 < S1024x64.numel
  inb_S8x129_S8x129_0_0 : ∀ a, (![0, 0] : Fin 2 → Nat) a + S8x129.size a ≤ S8x129.size a
  h_S8x129 : 0 < S8x129.numel
  shapeCasts_S8x129_S8x129 : S8x129.ShapeCasts S8x129
  inb_S8_S8_0 : ∀ a, (![0] : Fin 1 → Nat) a + S8.size a ≤ S8.size a
  h_S8 : 0 < S8.numel
  shapeCasts_S8_S8 : S8.ShapeCasts S8
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1_S1_0 : ∀ a, (![0] : Fin 1 → Nat) a + S1.size a ≤ S1.size a
  h_S1 : 0 < S1.numel
  shapeCasts_S1_S1 : S1.ShapeCasts S1
  slices_S8x129_o0_0_S8x1 : S8x129.Slices ![0, 0] S8x1
  shapeCasts_S8x1_S8 : S8x1.ShapeCasts S8
  slices_S8x129_o0_1_S8x64 : S8x129.Slices ![0, 1] S8x64
  slices_S8x129_o0_65_S8x64 : S8x129.Slices ![0, 65] S8x64
  transposes_S8x64_p1_0_S64x8 : S8x64.Transposes [1, 0] S64x8
  slices_S8_o0_S1 : S8.Slices ![0] S1
  inpos_S1_p0 : ∀ a, (![0] : Fin 1 → Nat) a < S1.size a
  slices_S128x8_o0_0_S128x1 : S128x8.Slices ![0, 0] S128x1
  shapeCasts_S128x1_S128 : S128x1.ShapeCasts S128
  shapeCasts_S128_S128x1 : S128.ShapeCasts S128x1
  broadcasts_S128x1_S128x1024 : S128x1.Broadcasts S128x1024
  slices_S1024x8_o0_0_S1024x1 : S1024x8.Slices ![0, 0] S1024x1
  shapeCasts_S1024x1_S1024 : S1024x1.ShapeCasts S1024
  shapeCasts_S1024_S1x1024 : S1024.ShapeCasts S1x1024
  broadcasts_S1x1024_S128x1024 : S1x1024.Broadcasts S128x1024
  slices_S8_o1_S1 : S8.Slices ![1] S1
  slices_S128x8_o0_1_S128x1 : S128x8.Slices ![0, 1] S128x1
  slices_S1024x8_o0_1_S1024x1 : S1024x8.Slices ![0, 1] S1024x1
  slices_S8_o2_S1 : S8.Slices ![2] S1
  slices_S128x8_o0_2_S128x1 : S128x8.Slices ![0, 2] S128x1
  slices_S1024x8_o0_2_S1024x1 : S1024x8.Slices ![0, 2] S1024x1
  slices_S8_o3_S1 : S8.Slices ![3] S1
  slices_S128x8_o0_3_S128x1 : S128x8.Slices ![0, 3] S128x1
  slices_S1024x8_o0_3_S1024x1 : S1024x8.Slices ![0, 3] S1024x1
  slices_S8_o4_S1 : S8.Slices ![4] S1
  slices_S128x8_o0_4_S128x1 : S128x8.Slices ![0, 4] S128x1
  slices_S1024x8_o0_4_S1024x1 : S1024x8.Slices ![0, 4] S1024x1
  slices_S8_o5_S1 : S8.Slices ![5] S1
  slices_S128x8_o0_5_S128x1 : S128x8.Slices ![0, 5] S128x1
  slices_S1024x8_o0_5_S1024x1 : S1024x8.Slices ![0, 5] S1024x1
  slices_S8_o6_S1 : S8.Slices ![6] S1
  slices_S128x8_o0_6_S128x1 : S128x8.Slices ![0, 6] S128x1
  slices_S1024x8_o0_6_S1024x1 : S1024x8.Slices ![0, 6] S1024x1
  slices_S8_o7_S1 : S8.Slices ![7] S1
  slices_S128x8_o0_7_S128x1 : S128x8.Slices ![0, 7] S128x1
  slices_S1024x8_o0_7_S1024x1 : S1024x8.Slices ![0, 7] S1024x1
  slices_S8x8_o0_0_S1x1 : S8x8.Slices ![0, 0] S1x1
  inpos_S1x1_p0_0 : ∀ a, (![0, 0] : Fin 2 → Nat) a < S1x1.size a
  slices_S8x8_o0_1_S1x1 : S8x8.Slices ![0, 1] S1x1
  slices_S8x8_o0_2_S1x1 : S8x8.Slices ![0, 2] S1x1
  slices_S8x8_o0_3_S1x1 : S8x8.Slices ![0, 3] S1x1
  slices_S8x8_o0_4_S1x1 : S8x8.Slices ![0, 4] S1x1
  slices_S8x8_o0_5_S1x1 : S8x8.Slices ![0, 5] S1x1
  slices_S8x8_o0_6_S1x1 : S8x8.Slices ![0, 6] S1x1
  slices_S8x8_o0_7_S1x1 : S8x8.Slices ![0, 7] S1x1
  slices_S8x8_o1_0_S1x1 : S8x8.Slices ![1, 0] S1x1
  slices_S8x8_o1_1_S1x1 : S8x8.Slices ![1, 1] S1x1
  slices_S8x8_o1_2_S1x1 : S8x8.Slices ![1, 2] S1x1
  slices_S8x8_o1_3_S1x1 : S8x8.Slices ![1, 3] S1x1
  slices_S8x8_o1_4_S1x1 : S8x8.Slices ![1, 4] S1x1
  slices_S8x8_o1_5_S1x1 : S8x8.Slices ![1, 5] S1x1
  slices_S8x8_o1_6_S1x1 : S8x8.Slices ![1, 6] S1x1
  slices_S8x8_o1_7_S1x1 : S8x8.Slices ![1, 7] S1x1
  slices_S8x8_o2_0_S1x1 : S8x8.Slices ![2, 0] S1x1
  slices_S8x8_o2_1_S1x1 : S8x8.Slices ![2, 1] S1x1
  slices_S8x8_o2_2_S1x1 : S8x8.Slices ![2, 2] S1x1
  slices_S8x8_o2_3_S1x1 : S8x8.Slices ![2, 3] S1x1
  slices_S8x8_o2_4_S1x1 : S8x8.Slices ![2, 4] S1x1
  slices_S8x8_o2_5_S1x1 : S8x8.Slices ![2, 5] S1x1
  slices_S8x8_o2_6_S1x1 : S8x8.Slices ![2, 6] S1x1
  slices_S8x8_o2_7_S1x1 : S8x8.Slices ![2, 7] S1x1
  slices_S8x8_o3_0_S1x1 : S8x8.Slices ![3, 0] S1x1
  slices_S8x8_o3_1_S1x1 : S8x8.Slices ![3, 1] S1x1
  slices_S8x8_o3_2_S1x1 : S8x8.Slices ![3, 2] S1x1
  slices_S8x8_o3_3_S1x1 : S8x8.Slices ![3, 3] S1x1
  slices_S8x8_o3_4_S1x1 : S8x8.Slices ![3, 4] S1x1
  slices_S8x8_o3_5_S1x1 : S8x8.Slices ![3, 5] S1x1
  slices_S8x8_o3_6_S1x1 : S8x8.Slices ![3, 6] S1x1
  slices_S8x8_o3_7_S1x1 : S8x8.Slices ![3, 7] S1x1
  slices_S8x8_o4_0_S1x1 : S8x8.Slices ![4, 0] S1x1
  slices_S8x8_o4_1_S1x1 : S8x8.Slices ![4, 1] S1x1
  slices_S8x8_o4_2_S1x1 : S8x8.Slices ![4, 2] S1x1
  slices_S8x8_o4_3_S1x1 : S8x8.Slices ![4, 3] S1x1
  slices_S8x8_o4_4_S1x1 : S8x8.Slices ![4, 4] S1x1
  slices_S8x8_o4_5_S1x1 : S8x8.Slices ![4, 5] S1x1
  slices_S8x8_o4_6_S1x1 : S8x8.Slices ![4, 6] S1x1
  slices_S8x8_o4_7_S1x1 : S8x8.Slices ![4, 7] S1x1
  slices_S8x8_o5_0_S1x1 : S8x8.Slices ![5, 0] S1x1
  slices_S8x8_o5_1_S1x1 : S8x8.Slices ![5, 1] S1x1
  slices_S8x8_o5_2_S1x1 : S8x8.Slices ![5, 2] S1x1
  slices_S8x8_o5_3_S1x1 : S8x8.Slices ![5, 3] S1x1
  slices_S8x8_o5_4_S1x1 : S8x8.Slices ![5, 4] S1x1
  slices_S8x8_o5_5_S1x1 : S8x8.Slices ![5, 5] S1x1
  slices_S8x8_o5_6_S1x1 : S8x8.Slices ![5, 6] S1x1
  slices_S8x8_o5_7_S1x1 : S8x8.Slices ![5, 7] S1x1
  slices_S8x8_o6_0_S1x1 : S8x8.Slices ![6, 0] S1x1
  slices_S8x8_o6_1_S1x1 : S8x8.Slices ![6, 1] S1x1
  slices_S8x8_o6_2_S1x1 : S8x8.Slices ![6, 2] S1x1
  slices_S8x8_o6_3_S1x1 : S8x8.Slices ![6, 3] S1x1
  slices_S8x8_o6_4_S1x1 : S8x8.Slices ![6, 4] S1x1
  slices_S8x8_o6_5_S1x1 : S8x8.Slices ![6, 5] S1x1
  slices_S8x8_o6_6_S1x1 : S8x8.Slices ![6, 6] S1x1
  slices_S8x8_o6_7_S1x1 : S8x8.Slices ![6, 7] S1x1
  slices_S8x8_o7_0_S1x1 : S8x8.Slices ![7, 0] S1x1
  slices_S8x8_o7_1_S1x1 : S8x8.Slices ![7, 1] S1x1
  slices_S8x8_o7_2_S1x1 : S8x8.Slices ![7, 2] S1x1
  slices_S8x8_o7_3_S1x1 : S8x8.Slices ![7, 3] S1x1
  slices_S8x8_o7_4_S1x1 : S8x8.Slices ![7, 4] S1x1
  slices_S8x8_o7_5_S1x1 : S8x8.Slices ![7, 5] S1x1
  slices_S8x8_o7_6_S1x1 : S8x8.Slices ![7, 6] S1x1
  slices_S8x8_o7_7_S1x1 : S8x8.Slices ![7, 7] S1x1
  slices_S1x8_o0_0_S1x1 : S1x8.Slices ![0, 0] S1x1
  slices_S1x8_o0_1_S1x1 : S1x8.Slices ![0, 1] S1x1
  slices_S1x8_o0_2_S1x1 : S1x8.Slices ![0, 2] S1x1
  slices_S1x8_o0_3_S1x1 : S1x8.Slices ![0, 3] S1x1
  slices_S1x8_o0_4_S1x1 : S1x8.Slices ![0, 4] S1x1
  slices_S1x8_o0_5_S1x1 : S1x8.Slices ![0, 5] S1x1
  slices_S1x8_o0_6_S1x1 : S1x8.Slices ![0, 6] S1x1
  slices_S1x8_o0_7_S1x1 : S1x8.Slices ![0, 7] S1x1
  slices_S2x8x129_S1x8x129_1_0_0 : S2x8x129.Slices ![1, 0, 0] S1x8x129
  slices_S2x8_S1x8_1_0 : S2x8.Slices ![1, 0] S1x8
  slices_S2x8x8_S1x8x8_1_0_0 : S2x8x8.Slices ![1, 0, 0] S1x8x8
  slices_S2x1x8_S1x1x8_1_0_0 : S2x1x8.Slices ![1, 0, 0] S1x1x8
  slices_S2x1_S1x1_1_0 : S2x1.Slices ![1, 0] S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3x5x64x64_S3x5x64x64_0_0_0_0 : ∀ a, (![0, 0, 0, 0] : Fin 4 → Nat) a + S3x5x64x64.size a ≤ S3x5x64x64.size a
  h_S3x5x64x64 : 0 < S3x5x64x64.numel
  inb_S3x64_S3x64_0_0 : ∀ a, (![0, 0] : Fin 2 → Nat) a + S3x64.size a ≤ S3x64.size a
  h_S3x64 : 0 < S3x64.numel
  slices_S3x5x64x64_o0_0_0_0_S1x5x64x64 : S3x5x64x64.Slices ![0, 0, 0, 0] S1x5x64x64
  shapeCasts_S1x5x64x64_S5x64x64 : S1x5x64x64.ShapeCasts S5x64x64
  slices_S3x64_o0_0_S1x64 : S3x64.Slices ![0, 0] S1x64
  shapeCasts_S1x64_S64 : S1x64.ShapeCasts S64
  slices_S5x64x64_o0_0_0_S1x64x64 : S5x64x64.Slices ![0, 0, 0] S1x64x64
  shapeCasts_S1x64x64_S64x64 : S1x64x64.ShapeCasts S64x64
  slices_S5x64x64_o1_0_0_S1x64x64 : S5x64x64.Slices ![1, 0, 0] S1x64x64
  slices_S5x64x64_o2_0_0_S1x64x64 : S5x64x64.Slices ![2, 0, 0] S1x64x64
  slices_S5x64x64_o3_0_0_S1x64x64 : S5x64x64.Slices ![3, 0, 0] S1x64x64
  slices_S5x64x64_o4_0_0_S1x64x64 : S5x64x64.Slices ![4, 0, 0] S1x64x64
  shapeCasts_S64_S1x64 : S64.ShapeCasts S1x64
  broadcasts_S1x64_S1024x64 : S1x64.Broadcasts S1024x64
  slices_S3x5x64x64_o1_0_0_0_S1x5x64x64 : S3x5x64x64.Slices ![1, 0, 0, 0] S1x5x64x64
  slices_S3x64_o1_0_S1x64 : S3x64.Slices ![1, 0] S1x64
  slices_S3x5x64x64_o2_0_0_0_S1x5x64x64 : S3x5x64x64.Slices ![2, 0, 0, 0] S1x5x64x64
  slices_S3x64_o2_0_S1x64 : S3x64.Slices ![2, 0] S1x64
  reduces_S1024x1024_S1024 : S1024x1024.Reduces [0] S1024
  shapeCasts_S1024_S1024x1 : S1024.ShapeCasts S1024x1
  broadcasts_S1024x1_S1024x64 : S1024x1.Broadcasts S1024x64
  dot_S128x64_S64x8_S128x8_1_0_0_1_n_n_wf : DotDims.WF S128x64 S64x8 S128x8 [1] [0] [0] [1] [] []
  dot_S1024x64_S64x8_S1024x8_1_0_0_1_n_n_wf : DotDims.WF S1024x64 S64x8 S1024x8 [1] [0] [0] [1] [] []
  dot_S1024x1024_S1024x64_S1024x64_1_0_0_1_n_n_wf : DotDims.WF S1024x1024 S1024x64 S1024x64 [1] [0] [0] [1] [] []
  dot_S1024x1024_S1024x64_S1024x64_0_0_1_1_n_n_wf : DotDims.WF S1024x1024 S1024x64 S1024x64 [0] [0] [1] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S1024x1024.size a
  hwx0_0 : ∀ i : grid0.Coords, EltTy.bits .f32 = 32 ∨ (Rect.block (s := S1024x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x129.size a ≤ S8x129.size a
  hwx0_3 : ∀ i : grid0.Coords, EltTy.bits .f32 = 32 ∨ (Rect.block (s := S8x129) S8x129.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .f32 = 32 ∨ (Rect.block (s := S8x8) S8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S1024x1024.size a
  hwx0_9 : ∀ i : grid0.Coords, EltTy.bits .f32 = 32 ∨ (Rect.block (s := S1024x1024) S128x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S1024x1024.size a
  hwx1_0 : ∀ i : grid1.Coords, EltTy.bits .f32 = 32 ∨ (Rect.block (s := S1024x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S1024x64.size a
  hwx1_1 : ∀ i : grid1.Coords, EltTy.bits .f32 = 32 ∨ (Rect.block (s := S1024x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .f32 = 32 ∨ (Rect.block (s := S1024x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x129.size a ≤ S8x129.size a
  hwx1_3 : ∀ i : grid1.Coords, EltTy.bits .f32 = 32 ∨ (Rect.block (s := S8x129) S8x129.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8.size a ≤ S8.size a
  hwx1_4 : ∀ i : grid1.Coords, EltTy.bits .f32 = 32 ∨ (Rect.block (s := S8) S8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x8.size a ≤ S8x8.size a
  hwx1_5 : ∀ i : grid1.Coords, EltTy.bits .f32 = 32 ∨ (Rect.block (s := S8x8) S8x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8.size a ≤ S8.size a
  hwx1_6 : ∀ i : grid1.Coords, EltTy.bits .f32 = 32 ∨ (Rect.block (s := S8) S8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8.size a ≤ S1x8.size a
  hwx1_7 : ∀ i : grid1.Coords, EltTy.bits .f32 = 32 ∨ (Rect.block (s := S1x8) S1x8.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x1024.size a ≤ S1024x1024.size a
  hwx1_9 : ∀ i : grid1.Coords, EltTy.bits .f32 = 32 ∨ (Rect.block (s := S1024x1024) S128x1024.size (cc1_transform_9 i) (hinb1_9 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S1024x1024.size a
  hwx2_0 : ∀ i : grid2.Coords, EltTy.bits .f32 = 32 ∨ (Rect.block (s := S1024x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S1024x64.size a
  hwx2_2 : ∀ i : grid2.Coords, EltTy.bits .f32 = 32 ∨ (Rect.block (s := S1024x64) S1024x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .f32 = 32 ∨ (Rect.block (s := S1024x1024) S1024x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x5x64x64.size a ≤ S3x5x64x64.size a
  hwx2_4 : ∀ i : grid2.Coords, EltTy.bits .f32 = 32 ∨ (Rect.block (s := S3x5x64x64) S3x5x64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x64.size a ≤ S3x64.size a
  hwx2_5 : ∀ i : grid2.Coords, EltTy.bits .f32 = 32 ∨ (Rect.block (s := S3x64) S3x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x64.size a ≤ S1024x64.size a
  hwx2_6 : ∀ i : grid2.Coords, EltTy.bits .f32 = 32 ∨ (Rect.block (s := S1024x64) S1024x64.size (cc2_transform_6 i) (hinb2_6 i)).WholeWords (EltTy.packing .f32)

variable [Facts₀]

def dot_S128x64_S64x8_S128x8_1_0_0_1_n_n : DotDims S128x64 S64x8 S128x8 where
  lhsContracting := [1]
  rhsContracting := [0]
  lhsNonContracting := [0]
  rhsNonContracting := [1]
  lhsBatch := []
  rhsBatch := []
  wf := dot_S128x64_S64x8_S128x8_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x64_S1024x64_0_0_1_1_n_n : DotDims S1024x1024 S1024x64 S1024x64 where
  lhsContracting := [0]
  rhsContracting := [0]
  lhsNonContracting := [1]
  rhsNonContracting := [1]
  lhsBatch := []
  rhsBatch := []
  wf := dot_S1024x1024_S1024x64_S1024x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x129.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S8x129.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S8x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S128x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v12) S1024x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1024x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S3x5x64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S3x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S1024x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1024x64 : Shape := ⟨2, ![1024, 64]⟩
abbrev S1024x1024 : Shape := ⟨2, ![1024, 1024]⟩
abbrev S2x8x129 : Shape := ⟨3, ![2, 8, 129]⟩
abbrev S2x8 : Shape := ⟨2, ![2, 8]⟩
abbrev S2x8x8 : Shape := ⟨3, ![2, 8, 8]⟩
abbrev S2x1x8 : Shape := ⟨3, ![2, 1, 8]⟩
abbrev S2x1 : Shape := ⟨2, ![2, 1]⟩
abbrev S3x5x64x64 : Shape := ⟨4, ![3, 5, 64, 64]⟩
abbrev S3x64 : Shape := ⟨2, ![3, 64]⟩
abbrev S1x8x129 : Shape := ⟨3, ![1, 8, 129]⟩
abbrev S8x129 : Shape := ⟨2, ![8, 129]⟩
abbrev S1x8 : Shape := ⟨2, ![1, 8]⟩
abbrev S8 : Shape := ⟨1, ![8]⟩
abbrev S1x8x8 : Shape := ⟨3, ![1, 8, 8]⟩
abbrev S8x8 : Shape := ⟨2, ![8, 8]⟩
abbrev S1x1x8 : Shape := ⟨3, ![1, 1, 8]⟩
abbrev S1x1 : Shape := ⟨2, ![1, 1]⟩
abbrev S1 : Shape := ⟨1, ![1]⟩
abbrev S8x1 : Shape := ⟨2, ![8, 1]⟩
abbrev S8x64 : Shape := ⟨2, ![8, 64]⟩
abbrev S64x8 : Shape := ⟨2, ![64, 8]⟩
abbrev S1024x8 : Shape := ⟨2, ![1024, 8]⟩
abbrev S1024x1024x1 : Shape := ⟨3, ![1024, 1024, 1]⟩
abbrev S1024x1024x8 : Shape := ⟨3, ![1024, 1024, 8]⟩
abbrev S1024x1x8 : Shape := ⟨3, ![1024, 1, 8]⟩
abbrev S1x1024x8 : Shape := ⟨3, ![1, 1024, 8]⟩
abbrev S_ : Shape := ⟨0, ![]⟩
abbrev S1x1x1 : Shape := ⟨3, ![1, 1, 1]⟩
abbrev S1x5x64x64 : Shape := ⟨4, ![1, 5, 64, 64]⟩
abbrev S5x64x64 : Shape := ⟨3, ![5, 64, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1024 : Shape := ⟨1, ![1024]⟩
abbrev S1024x1 : Shape := ⟨2, ![1024, 1]⟩

abbrev nBuf : Space → Nat
  | .hbm => 221
  | .vmem => 0
  | .smem => 0
  | _ => 0

abbrev hbmTy0_0 (i : Nat) : BufTy := match i % 128 with
  | 0 => ⟨S1024x64, .f32⟩
  | 1 => ⟨S1024x1024, .f32⟩
  | 2 => ⟨S1024x1024, .f32⟩
  | 3 => ⟨S1024x1024, .f32⟩
  | 4 => ⟨S1024x64, .f32⟩
  | 5 => ⟨S2x8x129, .f32⟩
  | 6 => ⟨S2x8, .f32⟩
  | 7 => ⟨S2x8x8, .f32⟩
  | 8 => ⟨S2x8, .f32⟩
  | 9 => ⟨S2x1x8, .f32⟩
  | 10 => ⟨S2x1, .f32⟩
  | 11 => ⟨S3x5x64x64, .f32⟩
  | 12 => ⟨S3x64, .f32⟩
  | 13 => ⟨S1x8x129, .f32⟩
  | 14 => ⟨S8x129, .f32⟩
  | 15 => ⟨S1x8, .f32⟩
  | 16 => ⟨S8, .f32⟩
  | 17 => ⟨S1x8x8, .f32⟩
  | 18 => ⟨S8x8, .f32⟩
  | 19 => ⟨S1x8, .f32⟩
  | 20 => ⟨S8, .f32⟩
  | 21 => ⟨S1x1x8, .f32⟩
  | 22 => ⟨S1x8, .f32⟩
  | 23 => ⟨S1x1, .f32⟩
  | 24 => ⟨S1, .f32⟩
  | 25 => ⟨S8x1, .f32⟩
  | 26 => ⟨S8, .f32⟩
  | 27 => ⟨S8x64, .f32⟩
  | 28 => ⟨S8x64, .f32⟩
  | 29 => ⟨S64x8, .f32⟩
  | 30 => ⟨S1024x8, .f32⟩
  | 31 => ⟨S64x8, .f32⟩
  | 32 => ⟨S1024x8, .f32⟩
  | 33 => ⟨S1024x1024x1, .f32⟩
  | 34 => ⟨S1x1x8, .f32⟩
  | 35 => ⟨S1024x1024x8, .f32⟩
  | 36 => ⟨S1024x1024x8, .f32⟩
  | 37 => ⟨S1024x1024x8, .f32⟩
  | 38 => ⟨S1024x1x8, .f32⟩
  | 39 => ⟨S1024x1024x8, .f32⟩
  | 40 => ⟨S1024x1024x8, .f32⟩
  | 41 => ⟨S1x1024x8, .f32⟩
  | 42 => ⟨S1024x1024x8, .f32⟩
  | 43 => ⟨S1024x1024x8, .f32⟩
  | 44 => ⟨S1x1x8, .f32⟩
  | 45 => ⟨S1024x1024x8, .f32⟩
  | 46 => ⟨S1024x1024x8, .f32⟩
  | 47 => ⟨S_, .f32⟩
  | 48 => ⟨S1024x1024x8, .f32⟩
  | 49 => ⟨S1024x1024x8, .f32⟩
  | 50 => ⟨S1024x1024x8, .f32⟩
  | 51 => ⟨S1x1x8, .f32⟩
  | 52 => ⟨S1024x1024x8, .f32⟩
  | 53 => ⟨S1024x1024x8, .f32⟩
  | 54 => ⟨S_, .f32⟩
  | 55 => ⟨S1024x1024x8, .f32⟩
  | 56 => ⟨S1024x1024x8, .f32⟩
  | 57 => ⟨S1024x1024x1, .f32⟩
  | 58 => ⟨S1x1x1, .f32⟩
  | 59 => ⟨S1024x1024x1, .f32⟩
  | 60 => ⟨S1024x1024x1, .f32⟩
  | 61 => ⟨S1024x1024, .f32⟩
  | 62 => ⟨S1x8x129, .f32⟩
  | 63 => ⟨S8x129, .f32⟩
  | 64 => ⟨S1x8, .f32⟩
  | 65 => ⟨S8, .f32⟩
  | 66 => ⟨S1x8x8, .f32⟩
  | 67 => ⟨S8x8, .f32⟩
  | 68 => ⟨S1x8, .f32⟩
  | 69 => ⟨S8, .f32⟩
  | 70 => ⟨S1x1x8, .f32⟩
  | 71 => ⟨S1x8, .f32⟩
  | 72 => ⟨S1x1, .f32⟩
  | 73 => ⟨S1, .f32⟩
  | 74 => ⟨S8x1, .f32⟩
  | 75 => ⟨S8, .f32⟩
  | 76 => ⟨S8x64, .f32⟩
  | 77 => ⟨S8x64, .f32⟩
  | 78 => ⟨S64x8, .f32⟩
  | 79 => ⟨S1024x8, .f32⟩
  | 80 => ⟨S64x8, .f32⟩
  | 81 => ⟨S1024x8, .f32⟩
  | 82 => ⟨S1024x1024x1, .f32⟩
  | 83 => ⟨S1x1x8, .f32⟩
  | 84 => ⟨S1024x1024x8, .f32⟩
  | 85 => ⟨S1024x1024x8, .f32⟩
  | 86 => ⟨S1024x1024x8, .f32⟩
  | 87 => ⟨S1024x1x8, .f32⟩
  | 88 => ⟨S1024x1024x8, .f32⟩
  | 89 => ⟨S1024x1024x8, .f32⟩
  | 90 => ⟨S1x1024x8, .f32⟩
  | 91 => ⟨S1024x1024x8, .f32⟩
  | 92 => ⟨S1024x1024x8, .f32⟩
  | 93 => ⟨S1x1x8, .f32⟩
  | 94 => ⟨S1024x1024x8, .f32⟩
  | 95 => ⟨S1024x1024x8, .f32⟩
  | 96 => ⟨S_, .f32⟩
  | 97 => ⟨S1024x1024x8, .f32⟩
  | 98 => ⟨S1024x1024x8, .f32⟩
  | 99 => ⟨S1024x1024x8, .f32⟩
  | 100 => ⟨S1x1x8, .f32⟩
  | 101 => ⟨S1024x1024x8, .f32⟩
  | 102 => ⟨S1024x1024x8, .f32⟩
  | 103 => ⟨S_, .f32⟩
  | 104 => ⟨S1024x1024x8, .f32⟩
  | 105 => ⟨S1024x1024x8, .f32⟩
  | 106 => ⟨S1024x1024x1, .f32⟩
  | 107 => ⟨S1x1x1, .f32⟩
  | 108 => ⟨S1024x1024x1, .f32⟩
  | 109 => ⟨S1024x1024x1, .f32⟩
  | 110 => ⟨S1024x1024, .f32⟩
  | 111 => ⟨S1x5x64x64, .f32⟩
  | 112 => ⟨S5x64x64, .f32⟩
  | 113 => ⟨S1x64, .f32⟩
  | 114 => ⟨S64, .f32⟩
  | 115 => ⟨S1024x64, .f32⟩
  | 116 => ⟨S1x64x64, .f32⟩
  | 117 => ⟨S64x64, .f32⟩
  | 118 => ⟨S1024x64, .f32⟩
  | 119 => ⟨S1024x1024, .f32⟩
  | 120 => ⟨S1024x64, .f32⟩
  | 121 => ⟨S1x64x64, .f32⟩
  | 122 => ⟨S64x64, .f32⟩
  | 123 => ⟨S1024x64, .f32⟩
  | 124 => ⟨S1024x64, .f32⟩
  | 125 => ⟨S1024x64, .f32⟩
  | 126 => ⟨S1x64x64, .f32⟩
  | 127 => ⟨S64x64, .f32⟩
  | _ => ⟨S1024x64, .f32⟩

abbrev hbmTy0_1 (i : Nat) : BufTy := match i % 128 with
  | 0 => ⟨S1024x64, .f32⟩
  | 1 => ⟨S1024x64, .f32⟩
  | 2 => ⟨S1024x1024, .f32⟩
  | 3 => ⟨S1024x64, .f32⟩
  | 4 => ⟨S1x64x64, .f32⟩
  | 5 => ⟨S64x64, .f32⟩
  | 6 => ⟨S1024x64, .f32⟩
  | 7 => ⟨S1024x64, .f32⟩
  | 8 => ⟨S1x64x64, .f32⟩
  | 9 => ⟨S64x64, .f32⟩
  | 10 => ⟨S1024x64, .f32⟩
  | 11 => ⟨S1024x64, .f32⟩
  | 12 => ⟨S1x64, .f32⟩
  | 13 => ⟨S1024x64, .f32⟩
  | 14 => ⟨S1024x64, .f32⟩
  | 15 => ⟨S_, .f32⟩
  | 16 => ⟨S1024x64, .f32⟩
  | 17 => ⟨S1024x64, .f32⟩
  | 18 => ⟨S1x5x64x64, .f32⟩
  | 19 => ⟨S5x64x64, .f32⟩
  | 20 => ⟨S1x64, .f32⟩
  | 21 => ⟨S64, .f32⟩
  | 22 => ⟨S1024x64, .f32⟩
  | 23 => ⟨S1x64x64, .f32⟩
  | 24 => ⟨S64x64, .f32⟩
  | 25 => ⟨S1024x64, .f32⟩
  | 26 => ⟨S1024x1024, .f32⟩
  | 27 => ⟨S1024x64, .f32⟩
  | 28 => ⟨S1x64x64, .f32⟩
  | 29 => ⟨S64x64, .f32⟩
  | 30 => ⟨S1024x64, .f32⟩
  | 31 => ⟨S1024x64, .f32⟩
  | 32 => ⟨S1024x64, .f32⟩
  | 33 => ⟨S1x64x64, .f32⟩
  | 34 => ⟨S64x64, .f32⟩
  | 35 => ⟨S1024x64, .f32⟩
  | 36 => ⟨S1024x64, .f32⟩
  | 37 => ⟨S1024x1024, .f32⟩
  | 38 => ⟨S1024x64, .f32⟩
  | 39 => ⟨S1x64x64, .f32⟩
  | 40 => ⟨S64x64, .f32⟩
  | 41 => ⟨S1024x64, .f32⟩
  | 42 => ⟨S1024x64, .f32⟩
  | 43 => ⟨S1x64x64, .f32⟩
  | 44 => ⟨S64x64, .f32⟩
  | 45 => ⟨S1024x64, .f32⟩
  | 46 => ⟨S1024x64, .f32⟩
  | 47 => ⟨S1x64, .f32⟩
  | 48 => ⟨S1024x64, .f32⟩
  | 49 => ⟨S1024x64, .f32⟩
  | 50 => ⟨S_, .f32⟩
  | 51 => ⟨S1024x64, .f32⟩
  | 52 => ⟨S1024x64, .f32⟩
  | 53 => ⟨S1x5x64x64, .f32⟩
  | 54 => ⟨S5x64x64, .f32⟩
  | 55 => ⟨S1x64, .f32⟩
  | 56 => ⟨S64, .f32⟩
  | 57 => ⟨S1024x64, .f32⟩
  | 58 => ⟨S1x64x64, .f32⟩
  | 59 => ⟨S64x64, .f32⟩
  | 60 => ⟨S1024x64, .f32⟩
  | 61 => ⟨S1024x1024, .f32⟩
  | 62 => ⟨S1024x64, .f32⟩
  | 63 => ⟨S1x64x64, .f32⟩
  | 64 => ⟨S64x64, .f32⟩
  | 65 => ⟨S1024x64, .f32⟩
  | 66 => ⟨S1024x64, .f32⟩
  | 67 => ⟨S1024x64, .f32⟩
  | 68 => ⟨S1x64x64, .f32⟩
  | 69 => ⟨S64x64, .f32⟩
  | 70 => ⟨S1024x64, .f32⟩
  | 71 => ⟨S1024x64, .f32⟩
  | 72 => ⟨S1024x1024, .f32⟩
  | 73 => ⟨S1024x64, .f32⟩
  | 74 => ⟨S1x64x64, .f32⟩
  | 75 => ⟨S64x64, .f32⟩
  | 76 => ⟨S1024x64, .f32⟩
  | 77 => ⟨S1024x64, .f32⟩
  | 78 => ⟨S1x64x64, .f32⟩
  | 79 => ⟨S64x64, .f32⟩
  | 80 => ⟨S1024x64, .f32⟩
  | 81 => ⟨S1024x64, .f32⟩
  | 82 => ⟨S1x64, .f32⟩
  | 83 => ⟨S1024x64, .f32⟩
  | 84 => ⟨S1024x64, .f32⟩
  | 85 => ⟨S_, .f32⟩
  | 86 => ⟨S1024, .f32⟩
  | 87 => ⟨S_, .f32⟩
  | 88 => ⟨S1024, .f32⟩
  | 89 => ⟨S1024, .f32⟩
  | 90 => ⟨S1024x1, .f32⟩
  | 91 => ⟨S1024x64, .f32⟩
  | 92 => ⟨S1024x64, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_cst : Ref sig .tc := ⟨.hbm, 47, rfl⟩
abbrev main_call0_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_call2_cst : Ref sig .tc := ⟨.hbm, 96, rfl⟩
abbrev main_call2_v0 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_call3_cst : Ref sig .tc := ⟨.hbm, 103, rfl⟩
abbrev main_call3_v0 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_call4_cst : Ref sig .tc := ⟨.hbm, 143, rfl⟩
abbrev main_call4_v0 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_call5_cst : Ref sig .tc := ⟨.hbm, 178, rfl⟩
abbrev main_call5_v0 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_cst : Ref sig .tc := ⟨.hbm, 213, rfl⟩
abbrev main_v188 : Ref sig .tc := ⟨.hbm, 214, rfl⟩
abbrev main_cst_0 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩

abbrev nD : Nat := 1
abbrev τ : Topo := Topo.v7x

variable {F : FTy → Type} [FloatOps F]

class Facts₀ : Prop where
  slices_S2x8x129_S1x8x129_0_0_0 : S2x8x129.Slices ![0, 0, 0] S1x8x129
  shapeCasts_S1x8x129_S8x129 : S1x8x129.ShapeCasts S8x129
  slices_S2x8_S1x8_0_0 : S2x8.Slices ![0, 0] S1x8
  shapeCasts_S1x8_S8 : S1x8.ShapeCasts S8
  slices_S2x8x8_S1x8x8_0_0_0 : S2x8x8.Slices ![0, 0, 0] S1x8x8
  shapeCasts_S1x8x8_S8x8 : S1x8x8.ShapeCasts S8x8
  slices_S2x1x8_S1x1x8_0_0_0 : S2x1x8.Slices ![0, 0, 0] S1x1x8
  shapeCasts_S1x1x8_S1x8 : S1x1x8.ShapeCasts S1x8
  slices_S2x1_S1x1_0_0 : S2x1.Slices ![0, 0] S1x1
  shapeCasts_S1x1_S1 : S1x1.ShapeCasts S1
  slices_S8x129_S8x1_0_0 : S8x129.Slices ![0, 0] S8x1
  shapeCasts_S8x1_S8 : S8x1.ShapeCasts S8
  slices_S8x129_S8x64_0_1 : S8x129.Slices ![0, 1] S8x64
  slices_S8x129_S8x64_0_65 : S8x129.Slices ![0, 65] S8x64
  transposes_S8x64_S64x8_1_0 : S8x64.Transposes [1, 0] S64x8
  bcast_S1024x1024_S1024x1024x1_0_1 : S1024x1024.BroadcastsInDim S1024x1024x1 (![0, 1] : Fin 2 → Fin S1024x1024x1.rank)
  bcast_S8_S1x1x8_2 : S8.BroadcastsInDim S1x1x8 (![2] : Fin 1 → Fin S1x1x8.rank)
  bcast_S1024x1024x1_S1024x1024x8_0_1_2 : S1024x1024x1.BroadcastsInDim S1024x1024x8 (![0, 1, 2] : Fin 3 → Fin S1024x1024x8.rank)
  bcast_S1x1x8_S1024x1024x8_0_1_2 : S1x1x8.BroadcastsInDim S1024x1024x8 (![0, 1, 2] : Fin 3 → Fin S1024x1024x8.rank)
  bcast_S1024x8_S1024x1x8_0_2 : S1024x8.BroadcastsInDim S1024x1x8 (![0, 2] : Fin 2 → Fin S1024x1x8.rank)
  bcast_S1024x1x8_S1024x1024x8_0_1_2 : S1024x1x8.BroadcastsInDim S1024x1024x8 (![0, 1, 2] : Fin 3 → Fin S1024x1024x8.rank)
  bcast_S1024x8_S1x1024x8_1_2 : S1024x8.BroadcastsInDim S1x1024x8 (![1, 2] : Fin 2 → Fin S1x1024x8.rank)
  bcast_S1x1024x8_S1024x1024x8_0_1_2 : S1x1024x8.BroadcastsInDim S1024x1024x8 (![0, 1, 2] : Fin 3 → Fin S1024x1024x8.rank)
  bcast_S_S1024x1024x8 : S_.BroadcastsInDim S1024x1024x8 (![] : Fin 0 → Fin S1024x1024x8.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  shapeCasts_S1024x1024x1_S1024x1024 : S1024x1024x1.ShapeCasts S1024x1024
  slices_S2x8x129_S1x8x129_1_0_0 : S2x8x129.Slices ![1, 0, 0] S1x8x129
  slices_S2x8_S1x8_1_0 : S2x8.Slices ![1, 0] S1x8
  slices_S2x8x8_S1x8x8_1_0_0 : S2x8x8.Slices ![1, 0, 0] S1x8x8
  slices_S2x1x8_S1x1x8_1_0_0 : S2x1x8.Slices ![1, 0, 0] S1x1x8
  slices_S2x1_S1x1_1_0 : S2x1.Slices ![1, 0] S1x1
  slices_S3x5x64x64_S1x5x64x64_0_0_0_0 : S3x5x64x64.Slices ![0, 0, 0, 0] S1x5x64x64
  shapeCasts_S1x5x64x64_S5x64x64 : S1x5x64x64.ShapeCasts S5x64x64
  slices_S3x64_S1x64_0_0 : S3x64.Slices ![0, 0] S1x64
  shapeCasts_S1x64_S64 : S1x64.ShapeCasts S64
  slices_S5x64x64_S1x64x64_0_0_0 : S5x64x64.Slices ![0, 0, 0] S1x64x64
  shapeCasts_S1x64x64_S64x64 : S1x64x64.ShapeCasts S64x64
  transposes_S1024x1024_S1024x1024_1_0 : S1024x1024.Transposes [1, 0] S1024x1024
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  slices_S3x5x64x64_S1x5x64x64_1_0_0_0 : S3x5x64x64.Slices ![1, 0, 0, 0] S1x5x64x64
  slices_S3x64_S1x64_1_0 : S3x64.Slices ![1, 0] S1x64
  slices_S3x5x64x64_S1x5x64x64_2_0_0_0 : S3x5x64x64.Slices ![2, 0, 0, 0] S1x5x64x64
  slices_S3x64_S1x64_2_0 : S3x64.Slices ![2, 0] S1x64
  reducesTo_S1024x1024_S1024_d0 : S1024x1024.ReducesTo [0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  dot_S1024x64_S64x8_S1024x8_1_0_0_1_n_n_wf : DotDims.WF S1024x64 S64x8 S1024x8 [1] [0] [0] [1] [] []
  dot_S1024x1024x8_S8x8_S1024x1024x8_2_1_01_0_n_n_wf : DotDims.WF S1024x1024x8 S8x8 S1024x1024x8 [2] [1] [0, 1] [0] [] []
  dot_S1024x1024x8_S1x8_S1024x1024x1_2_1_01_0_n_n_wf : DotDims.WF S1024x1024x8 S1x8 S1024x1024x1 [2] [1] [0, 1] [0] [] []
  dot_S1024x1024_S1024x64_S1024x64_1_0_0_1_n_n_wf : DotDims.WF S1024x1024 S1024x64 S1024x64 [1] [0] [0] [1] [] []
  dot_S1024x64_S64x64_S1024x64_1_0_0_1_n_n_wf : DotDims.WF S1024x64 S64x64 S1024x64 [1] [0] [0] [1] [] []

variable [Facts₀]

def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x1024x8_S8x8_S1024x1024x8_2_1_01_0_n_n : DotDims S1024x1024x8 S8x8 S1024x1024x8 where
  lhsContracting := [2]
  rhsContracting := [1]
  lhsNonContracting := [0, 1]
  rhsNonContracting := [0]
  lhsBatch := []
  rhsBatch := []
  wf := dot_S1024x1024x8_S8x8_S1024x1024x8_2_1_01_0_n_n_wf
def dot_S1024x1024x8_S1x8_S1024x1024x1_2_1_01_0_n_n : DotDims S1024x1024x8 S1x8 S1024x1024x1 where
  lhsContracting := [2]
  rhsContracting := [1]
  lhsNonContracting := [0, 1]
  rhsNonContracting := [0]
  lhsBatch := []
  rhsBatch := []
  wf := dot_S1024x1024x8_S1x8_S1024x1024x1_2_1_01_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

class Facts : Prop extends Facts₀ where

variable [Facts]
-- ==== Proof.KRegion0.lean ====
/-
  The first pallas_call (eight grid points, one 128-row tile of adj each): the edge-wise message MLP
    out[i, j] = Σ_k relu(Σ_h relu(adj[i, j]·w_a[h] + (idx_emb w_iᵀ)[i, h] + (idx_emb w_jᵀ)[j, h] + b1[h])·W2[k, h] + b2[k])·W3[0, k] + b3[0].
  idx_emb reaches the body through two windows (the tile's rows, and the whole array), so the pipeline holds that array
  at two half shares. This module states what the body's one store puts in the output window's buffer as one function of
  the nine input blocks, proves the body's triple, and packages the pipeline's proof data and body obligation at any
  contents V the region is entered with.
-/
import proofs.«142047_j12206297055728_1_alg».proof.Proof.Gen.Kernel.Launch
import proofs.«142047_j12206297055728_1_alg».proof.Proof.Gen.Kernel.Skeleton
import proofs.«142047_j12206297055728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first pallas_call, entered at contents `V` -/

abbrev r0_t : Rect S128x1024 := Rect.unit (s := S128x1024) ![0, 0] S128x1024.size inb_S128x1024_S128x1024_0_0
abbrev r0_e : Rect S128x64 := Rect.unit (s := S128x64) ![0, 0] S128x64.size inb_S128x64_S128x64_0_0
abbrev r0_f : Rect S1024x64 := Rect.unit (s := S1024x64) ![0, 0] S1024x64.size inb_S1024x64_S1024x64_0_0
abbrev r0_w1 : Rect S8x129 := Rect.unit (s := S8x129) ![0, 0] S8x129.size inb_S8x129_S8x129_0_0
abbrev r0_h : Rect S8 := Rect.unit (s := S8) ![0] S8.size inb_S8_S8_0
abbrev r0_w2 : Rect S8x8 := Rect.unit (s := S8x8) ![0, 0] S8x8.size inb_S8x8_S8x8_0_0
abbrev r0_w3 : Rect S1x8 := Rect.unit (s := S1x8) ![0, 0] S1x8.size inb_S1x8_S1x8_0_0
abbrev r0_s : Rect S1 := Rect.unit (s := S1) ![0] S1.size inb_S1_S1_0

/-- Window `w`'s block at grid point `t`: the part of its array, as the region finds it, that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its staging buffer holds the point's block, whether the block was moved in at
    that point or is the one still there from the point before (the index map did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its staging buffer holds the point's block, whether the block was moved in at
    that point or is the one still there from the point before (the index map did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every grid point its staging buffer holds the point's block, whether the block was moved in at
    that point or is the one still there from the point before (the index map did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every grid point its staging buffer holds the point's block, whether the block was moved in at
    that point or is the one still there from the point before (the index map did not move). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every grid point its staging buffer holds the point's block, whether the block was moved in at
    that point or is the one still there from the point before (the index map did not move). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every grid point its staging buffer holds the point's block, whether the block was moved in at
    that point or is the one still there from the point before (the index map did not move). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: at every grid point its staging buffer holds the point's block, whether the block was moved in at
    that point or is the one still there from the point before (the index map did not move). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: at every grid point its staging buffer holds the point's block, whether the block was moved in at
    that point or is the one still there from the point before (the index map did not move). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8: at every grid point its staging buffer holds the point's block, whether the block was moved in at
    that point or is the one still there from the point before (the index map did not move). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The value the body stores, from the nine input blocks (a 128-row tile of the matrix, the tile's rows of idx_emb, all of
    idx_emb, and the MLP's W1, b1, W2, b2, W3, b3): the eight first-layer planes relu(tile·w_a[h] + row[:, h] + col[:, h] + b1[h]),
    the eight second-layer planes relu(Σ_h plane_h·W2[k, h] + b2[k]), and Σ_k plane2_k·W3[0, k] + b3[0], composed as the
    body's statements compose them. -/
def stored0 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : FVec F S128x1024 .f32 :=
  let v0 := View.ld x0 r0_t
  let v1 := View.ld x1 r0_e
  let v2 := View.ld x2 r0_f
  let v3 := View.ld x3 r0_w1
  let v5 := View.ld x4 r0_h
  let v7 := View.ld x5 r0_w2
  let v9 := View.ld x6 r0_h
  let v11 := View.ld x7 r0_w3
  let v13 := View.ld x8 r0_s
  let cst_15 : F .f32 := Scalar.ofBits .f32 0x00000000#32
  let v6 := k0_pay3 v5; let v8 := k0_pay4 v7; let v10 := k0_pay5 v9; let v12 := k0_pay6 v11; let v14 := k0_pay7 v13
  let v16 := k0_pay8 v3; let v20 := k0_pay9 v1 v3; let v22 := k0_pay10 v2 v3; let v40 := k0_pay11 v0 v1 v2 v3 v5
  let v42 := k0_pay12 v40 cst_15; let v62 := k0_pay13 v0 v6 v16 v20 v22; let v82 := k0_pay14 v0 v6 v16 v20 v22; let v96 := k0_pay15 v0 v16 v20 v22; let v98 := k0_pay16 v6
  let v102 := k0_pay17 v96 v98; let v122 := k0_pay18 v0 v6 v16 v20 v22; let v142 := k0_pay19 v0 v6 v16 v20 v22; let v151 := k0_pay20 v0 v16 v20; let v155 := k0_pay21 v22
  let v162 := k0_pay22 v6 v151 v155; let v182 := k0_pay23 v0 v6 v16 v20 v22; let v211 := k0_pay24 v8 v42 v62 v82 v102 v122 v142; let v213 := k0_pay25 v8
  let v227 := k0_pay26 v8 v10 v162 v182 v211 v213; let v270 := k0_pay27 v8 v10 v42 v62 v82 v102 v122 v142 v162 v182; let v271 : FVec F S128x1024 .f32 := k0_pay28 (F := F)
  let v272 := k0_pay29 v270 v271; let v317 := k0_pay30 v8 v10 v42 v62 v82 v102 v122 v142 v162 v182; let v326 := k0_pay31 v8 v42 v62; let v330 := k0_pay32 v8 v82
  let v362 := k0_pay33 v8 v10 v102 v122 v142 v162 v182 v326 v330; let v386 := k0_pay34 v8 v42 v62 v82 v102 v122; let v389 := k0_pay35 v8
  let v407 := k0_pay36 v8 v10 v142 v162 v182 v386 v389; let v446 := k0_pay37 v8 v42 v62 v82 v102 v122 v142 v162 v182; let v448 := k0_pay38 v10
  let v452 := k0_pay39 v446 v448; let v497 := k0_pay40 v8 v10 v42 v62 v82 v102 v122 v142 v162 v182; let v506 := k0_pay41 v8 v42 v62
  let v542 := k0_pay42 v8 v10 v82 v102 v122 v142 v162 v182 v506; let v561 := k0_pay43 v12 v227 v272 v317 v362; let v565 := k0_pay44 v12 v407
  k0_pay1 v12 v14 v452 v497 v542 v561 v565

/-- The output window's staging buffer after the body: the one store, over the whole buffer, of the stored value. -/
def out0_9 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : Vec F S128x1024 .f32 :=
  View.canon [⟨r0_t, stored0 x0 x1 x2 x3 x4 x5 x6 x7 x8⟩]

/-- The one store's rectangle is the whole buffer, so it covers every index. -/
theorem cover0_9 (p0 : Vec F S128x1024 .f32) (y : S128x1024.Idx) :
    ∃ pc ∈ ([⟨r0_t, p0⟩] : List (View.Piece (Elt F) S128x1024 .f32)), y ∈ pc.1.set :=
  View.cover_of_tiled [⟨r0_t, p0⟩] S128x1024.size (by rfl) y

/-! ## The body's triple -/

set_option maxHeartbeats 2000000 in
/-- On whole staging buffers, the inputs' at contents `x0 …` and the output's at anything, the body runs to its return
    leaving the inputs' as they were and the output's at `out0_9` of the inputs'. -/
theorem sound_kernel0 (c : Dev nD) (E : Set ℕ) (i : grid0.Coords) (arg1 : Memref sig .tc .vmem S128x1024 .f32) (harg1 : arg1.IsWhole) (arg2 : Memref sig .tc .vmem S128x64 .f32) (harg2 : arg2.IsWhole) (arg3 : Memref sig .tc .vmem S1024x64 .f32) (harg3 : arg3.IsWhole) (arg4 : Memref sig .tc .vmem S8x129 .f32) (harg4 : arg4.IsWhole) (arg5 : Memref sig .tc .vmem S8 .f32) (harg5 : arg5.IsWhole) (arg6 : Memref sig .tc .vmem S8x8 .f32) (harg6 : arg6.IsWhole) (arg7 : Memref sig .tc .vmem S8 .f32) (harg7 : arg7.IsWhole) (arg8 : Memref sig .tc .vmem S1x8 .f32) (harg8 : arg8.IsWhole) (arg9 : Memref sig .tc .vmem S1 .f32) (harg9 : arg9.IsWhole) (arg10 : Memref sig .tc .vmem S128x1024 .f32) (harg10 : arg10.IsWhole)
    (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ Kc ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) Kc := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of this pallas_call on core `c`: the arrays as the region finds them; after the body at point `t` each
    input's buffer still at its block and the output's at `out0_9` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays at entry and at exit: idx_emb is held through two windows, at half shares -/

/-- Each window's share of its array: the two windows on idx_emb hold a half each, every other input and the output all of it. -/
theorem share0_0 (c : Dev nD) : (dat0 V c).share 0 = fullShare := by unfold Dat.share; rw [if_neg (by decide)]; dsimp only [dat0]; rfl
theorem share0_1 (c : Dev nD) : (dat0 V c).share 1 = fullShare.left := by unfold Dat.share; rw [if_neg (by decide)]; dsimp only [dat0]; rfl
theorem share0_2 (c : Dev nD) : (dat0 V c).share 2 = fullShare.right := by unfold Dat.share; rw [if_neg (by decide)]; dsimp only [dat0]; rfl
theorem share0_3 (c : Dev nD) : (dat0 V c).share 3 = fullShare := by unfold Dat.share; rw [if_neg (by decide)]; dsimp only [dat0]; rfl
theorem share0_4 (c : Dev nD) : (dat0 V c).share 4 = fullShare := by unfold Dat.share; rw [if_neg (by decide)]; dsimp only [dat0]; rfl
theorem share0_5 (c : Dev nD) : (dat0 V c).share 5 = fullShare := by unfold Dat.share; rw [if_neg (by decide)]; dsimp only [dat0]; rfl
theorem share0_6 (c : Dev nD) : (dat0 V c).share 6 = fullShare := by unfold Dat.share; rw [if_neg (by decide)]; dsimp only [dat0]; rfl
theorem share0_7 (c : Dev nD) : (dat0 V c).share 7 = fullShare := by unfold Dat.share; rw [if_neg (by decide)]; dsimp only [dat0]; rfl
theorem share0_8 (c : Dev nD) : (dat0 V c).share 8 = fullShare := by unfold Dat.share; rw [if_neg (by decide)]; dsimp only [dat0]; rfl
theorem share0_9 (c : Dev nD) : (dat0 V c).share 9 = fullShare := by unfold Dat.share; rw [if_pos (by decide)]

/-- The buffers behind the windows' arrays, one by one: nine distinct buffers behind ten windows. -/
theorem bigSep_arrs0 {M : Type} [URA M] (Φ : Ref sig .tc → sProp M) :
    bigSep (Finset.univ.image (Pipeline.arrRef spec0)) Φ = iprop(Φ main_arg1 ∗ Φ main_arg4 ∗ Φ main_v1 ∗ Φ main_v3 ∗ Φ main_v5 ∗ Φ main_v7 ∗ Φ main_v9 ∗ Φ main_v11 ∗ Φ main_v12) :=
  bigSep_eq_bigSepL_of_eq [main_arg1, main_arg4, main_v1, main_v3, main_v5, main_v7, main_v9, main_v11, main_v12] (by decide) (by decide) Φ

/-- A window's array, held through its view at the window's share, is the buffer behind it held whole at that share. -/
theorem arr0_pt (c : Dev nD) (w : Fin cfg0.W) (q : PosShare TreeShare) (hq : (dat0 V c).share w = q)
    (g : Buf (Elt F) ((cfg0.win w).arr.view.loc (c.tc : Thread nD τ))) :
    ((cfg0.win w).arr.view.loc (c.tc : Thread nD τ) ↦[(cfg0.win w).arr.view.set]{(dat0 V c).share w} g : sProp 𝕄)
      = ((c.tc : Thread nD τ).loc (Pipeline.arrRef spec0 w) ↦{q} g) := by
  rw [(arr_whole0 w).set_eq_univ, hq]

set_option maxHeartbeats 2000000 in
/-- ENTRY: the nine distinct buffers behind the ten windows' arrays, each whole at the full share at the entry contents,
    are the pipeline's arrays at entry: idx_emb's buffer split into two halves, one per window that reads it. -/
theorem arrays_entry0 (c : Dev nD) :
    (Pipeline.arrBufs spec0 c (V c) : sProp 𝕄) ⊢ (dat0 V c).arrays ((dat0 V c).arrAt · 0) := by
  unfold Pipeline.arrBufs Dat.arrays
  rw [bigSep_W0, bigSep_arrs0]
  rw [arr0_pt V c 0 fullShare (share0_0 V c), arr0_pt V c 1 fullShare.left (share0_1 V c), arr0_pt V c 2 fullShare.right (share0_2 V c), arr0_pt V c 3 fullShare (share0_3 V c), arr0_pt V c 4 fullShare (share0_4 V c), arr0_pt V c 5 fullShare (share0_5 V c), arr0_pt V c 6 fullShare (share0_6 V c), arr0_pt V c 7 fullShare (share0_7 V c), arr0_pt V c 8 fullShare (share0_8 V c), arr0_pt V c 9 fullShare (share0_9 V c)]
  dsimp only
  iintro ⟨H0, H1, H2, H3, H4, H5, H6, H7, H8⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- EXIT: the pipeline's arrays after the last point — every input as entered, the output at what the write-backs
    left — are the nine buffers whole at any contents that agree with the entry contents but at the output's buffer,
    where they hold the written-back array; idx_emb's two halves rejoin. -/
theorem arrays_exit0 (c : Dev nD) (V' : (b : Ref sig .tc) → Buf (Elt F) ((c : Thread nD τ).loc b))
    (hout : V' main_v12 = (dat0 V c).arrAt 9 cfg0.N) (hrest : ∀ b, b ≠ main_v12 → V' b = V c b) :
    (dat0 V c).arrays ((dat0 V c).arrAt · cfg0.N) ⊢ (Pipeline.arrBufs spec0 c V' : sProp 𝕄) := by
  unfold Pipeline.arrBufs Dat.arrays
  rw [bigSep_W0, bigSep_arrs0]
  rw [arr0_pt V c 0 fullShare (share0_0 V c), arr0_pt V c 1 fullShare.left (share0_1 V c), arr0_pt V c 2 fullShare.right (share0_2 V c), arr0_pt V c 3 fullShare (share0_3 V c), arr0_pt V c 4 fullShare (share0_4 V c), arr0_pt V c 5 fullShare (share0_5 V c), arr0_pt V c 6 fullShare (share0_6 V c), arr0_pt V c 7 fullShare (share0_7 V c), arr0_pt V c 8 fullShare (share0_8 V c), arr0_pt V c 9 fullShare (share0_9 V c)]
  dsimp only
  rw [hrest main_arg1 (by decide), hrest main_arg4 (by decide), hrest main_v1 (by decide), hrest main_v3 (by decide), hrest main_v5 (by decide), hrest main_v7 (by decide), hrest main_v9 (by decide), hrest main_v11 (by decide), hout,
    (dat0 V c).arrAt_in 0 rfl cfg0.N, (dat0 V c).arrAt_in 1 rfl cfg0.N, (dat0 V c).arrAt_in 2 rfl cfg0.N, (dat0 V c).arrAt_in 3 rfl cfg0.N, (dat0 V c).arrAt_in 4 rfl cfg0.N, (dat0 V c).arrAt_in 5 rfl cfg0.N, (dat0 V c).arrAt_in 6 rfl cfg0.N, (dat0 V c).arrAt_in 7 rfl cfg0.N, (dat0 V c).arrAt_in 8 rfl cfg0.N]
  iintro ⟨G0, G1, G2, G3, G4, G5, G6, G7, G8, G9⟩
  isplitl [G0]
  · iexact G0
  isplitl [G1 G2]
  · iapply (pointsTo_share (PosShare.mem_left_op_right fullShare)).2; isplitl [G1]; · iexact G1
    iexact G2
  isplitl [G3]
  · iexact G3
  isplitl [G4]
  · iexact G4
  isplitl [G5]
  · iexact G5
  isplitl [G6]
  · iexact G6
  isplitl [G7]
  · iexact G7
  isplitl [G8]
  · iexact G8
  iexact G9

end Cert.Kernel.Hand

end
-- ==== Proof.KRegion1.lean ====
/-
  The second pallas_call (eight grid points, one 128-row tile of adj_deriv each): the edge-wise message MLP
    out[i, j] = Σ_k relu(Σ_h relu(adj_deriv[i, j]·w_a[h] + (idx_emb w_iᵀ)[i, h] + (idx_emb w_jᵀ)[j, h] + b1[h])·W2[k, h] + b2[k])·W3[0, k] + b3[0].
  idx_emb reaches the body through two windows (the tile's rows, and the whole array), so the pipeline holds that array
  at two half shares. This module states what the body's one store puts in the output window's buffer as one function of
  the nine input blocks, proves the body's triple, and packages the pipeline's proof data and body obligation at any
  contents V the region is entered with.
-/
import proofs.«142047_j12206297055728_1_alg».proof.Proof.Gen.Kernel.Launch
import proofs.«142047_j12206297055728_1_alg».proof.Proof.Gen.Kernel.Skeleton
import proofs.«142047_j12206297055728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call, entered at contents `V` -/

abbrev r1_t : Rect S128x1024 := Rect.unit (s := S128x1024) ![0, 0] S128x1024.size inb_S128x1024_S128x1024_0_0
abbrev r1_e : Rect S128x64 := Rect.unit (s := S128x64) ![0, 0] S128x64.size inb_S128x64_S128x64_0_0
abbrev r1_f : Rect S1024x64 := Rect.unit (s := S1024x64) ![0, 0] S1024x64.size inb_S1024x64_S1024x64_0_0
abbrev r1_w1 : Rect S8x129 := Rect.unit (s := S8x129) ![0, 0] S8x129.size inb_S8x129_S8x129_0_0
abbrev r1_h : Rect S8 := Rect.unit (s := S8) ![0] S8.size inb_S8_S8_0
abbrev r1_w2 : Rect S8x8 := Rect.unit (s := S8x8) ![0, 0] S8x8.size inb_S8x8_S8x8_0_0
abbrev r1_w3 : Rect S1x8 := Rect.unit (s := S1x8) ![0, 0] S1x8.size inb_S1x8_S1x8_0_0
abbrev r1_s : Rect S1 := Rect.unit (s := S1) ![0] S1.size inb_S1_S1_0

/-- Window `w`'s block at grid point `t`: the part of its array, as the region finds it, that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its staging buffer holds the point's block, whether the block was moved in at
    that point or is the one still there from the point before (the index map did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its staging buffer holds the point's block, whether the block was moved in at
    that point or is the one still there from the point before (the index map did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its staging buffer holds the point's block, whether the block was moved in at
    that point or is the one still there from the point before (the index map did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its staging buffer holds the point's block, whether the block was moved in at
    that point or is the one still there from the point before (the index map did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every grid point its staging buffer holds the point's block, whether the block was moved in at
    that point or is the one still there from the point before (the index map did not move). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: at every grid point its staging buffer holds the point's block, whether the block was moved in at
    that point or is the one still there from the point before (the index map did not move). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: at every grid point its staging buffer holds the point's block, whether the block was moved in at
    that point or is the one still there from the point before (the index map did not move). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: at every grid point its staging buffer holds the point's block, whether the block was moved in at
    that point or is the one still there from the point before (the index map did not move). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: at every grid point its staging buffer holds the point's block, whether the block was moved in at
    that point or is the one still there from the point before (the index map did not move). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The value the body stores, from the nine input blocks (a 128-row tile of the matrix, the tile's rows of idx_emb, all of
    idx_emb, and the MLP's W1, b1, W2, b2, W3, b3): the eight first-layer planes relu(tile·w_a[h] + row[:, h] + col[:, h] + b1[h]),
    the eight second-layer planes relu(Σ_h plane_h·W2[k, h] + b2[k]), and Σ_k plane2_k·W3[0, k] + b3[0], composed as the
    body's statements compose them. -/
def stored1 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : FVec F S128x1024 .f32 :=
  let v0 := View.ld x0 r1_t
  let v1 := View.ld x1 r1_e
  let v2 := View.ld x2 r1_f
  let v3 := View.ld x3 r1_w1
  let v5 := View.ld x4 r1_h
  let v7 := View.ld x5 r1_w2
  let v9 := View.ld x6 r1_h
  let v11 := View.ld x7 r1_w3
  let v13 := View.ld x8 r1_s
  let cst_15 : F .f32 := Scalar.ofBits .f32 0x00000000#32
  let v6 := k1_pay3 v5; let v8 := k1_pay4 v7; let v10 := k1_pay5 v9; let v12 := k1_pay6 v11; let v14 := k1_pay7 v13
  let v16 := k1_pay8 v3; let v20 := k1_pay9 v1 v3; let v22 := k1_pay10 v2 v3; let v40 := k1_pay11 v0 v1 v2 v3 v5
  let v42 := k1_pay12 v40 cst_15; let v62 := k1_pay13 v0 v6 v16 v20 v22; let v82 := k1_pay14 v0 v6 v16 v20 v22; let v96 := k1_pay15 v0 v16 v20 v22; let v98 := k1_pay16 v6
  let v102 := k1_pay17 v96 v98; let v122 := k1_pay18 v0 v6 v16 v20 v22; let v142 := k1_pay19 v0 v6 v16 v20 v22; let v151 := k1_pay20 v0 v16 v20; let v155 := k1_pay21 v22
  let v162 := k1_pay22 v6 v151 v155; let v182 := k1_pay23 v0 v6 v16 v20 v22; let v211 := k1_pay24 v8 v42 v62 v82 v102 v122 v142; let v213 := k1_pay25 v8
  let v227 := k1_pay26 v8 v10 v162 v182 v211 v213; let v270 := k1_pay27 v8 v10 v42 v62 v82 v102 v122 v142 v162 v182; let v271 : FVec F S128x1024 .f32 := k1_pay28 (F := F)
  let v272 := k1_pay29 v270 v271; let v317 := k1_pay30 v8 v10 v42 v62 v82 v102 v122 v142 v162 v182; let v326 := k1_pay31 v8 v42 v62; let v330 := k1_pay32 v8 v82
  let v362 := k1_pay33 v8 v10 v102 v122 v142 v162 v182 v326 v330; let v386 := k1_pay34 v8 v42 v62 v82 v102 v122; let v389 := k1_pay35 v8
  let v407 := k1_pay36 v8 v10 v142 v162 v182 v386 v389; let v446 := k1_pay37 v8 v42 v62 v82 v102 v122 v142 v162 v182; let v448 := k1_pay38 v10
  let v452 := k1_pay39 v446 v448; let v497 := k1_pay40 v8 v10 v42 v62 v82 v102 v122 v142 v162 v182; let v506 := k1_pay41 v8 v42 v62
  let v542 := k1_pay42 v8 v10 v82 v102 v122 v142 v162 v182 v506; let v561 := k1_pay43 v12 v227 v272 v317 v362; let v565 := k1_pay44 v12 v407
  k1_pay1 v12 v14 v452 v497 v542 v561 v565

/-- The output window's staging buffer after the body: the one store, over the whole buffer, of the stored value. -/
def out1_9 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : Vec F S128x1024 .f32 :=
  View.canon [⟨r1_t, stored1 x0 x1 x2 x3 x4 x5 x6 x7 x8⟩]

/-- The one store's rectangle is the whole buffer, so it covers every index. -/
theorem cover1_9 (p0 : Vec F S128x1024 .f32) (y : S128x1024.Idx) :
    ∃ pc ∈ ([⟨r1_t, p0⟩] : List (View.Piece (Elt F) S128x1024 .f32)), y ∈ pc.1.set :=
  View.cover_of_tiled [⟨r1_t, p0⟩] S128x1024.size (by rfl) y

/-! ## The body's triple -/

set_option maxHeartbeats 2000000 in
/-- On whole staging buffers, the inputs' at contents `x0 …` and the output's at anything, the body runs to its return
    leaving the inputs' as they were and the output's at `out1_9` of the inputs'. -/
theorem sound_kernel1 (c : Dev nD) (E : Set ℕ) (i : grid1.Coords) (arg1 : Memref sig .tc .vmem S128x1024 .f32) (harg1 : arg1.IsWhole) (arg2 : Memref sig .tc .vmem S128x64 .f32) (harg2 : arg2.IsWhole) (arg3 : Memref sig .tc .vmem S1024x64 .f32) (harg3 : arg3.IsWhole) (arg4 : Memref sig .tc .vmem S8x129 .f32) (harg4 : arg4.IsWhole) (arg5 : Memref sig .tc .vmem S8 .f32) (harg5 : arg5.IsWhole) (arg6 : Memref sig .tc .vmem S8x8 .f32) (harg6 : arg6.IsWhole) (arg7 : Memref sig .tc .vmem S8 .f32) (harg7 : arg7.IsWhole) (arg8 : Memref sig .tc .vmem S1x8 .f32) (harg8 : arg8.IsWhole) (arg9 : Memref sig .tc .vmem S1 .f32) (harg9 : arg9.IsWhole) (arg10 : Memref sig .tc .vmem S128x1024 .f32) (harg10 : arg10.IsWhole)
    (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ Kc ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) Kc := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of this pallas_call on core `c`: the arrays as the region finds them; after the body at point `t` each
    input's buffer still at its block and the output's at `out1_9` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays at entry and at exit: idx_emb is held through two windows, at half shares -/

/-- Each window's share of its array: the two windows on idx_emb hold a half each, every other input and the output all of it. -/
theorem share1_0 (c : Dev nD) : (dat1 V c).share 0 = fullShare := by unfold Dat.share; rw [if_neg (by decide)]; dsimp only [dat1]; rfl
theorem share1_1 (c : Dev nD) : (dat1 V c).share 1 = fullShare.left := by unfold Dat.share; rw [if_neg (by decide)]; dsimp only [dat1]; rfl
theorem share1_2 (c : Dev nD) : (dat1 V c).share 2 = fullShare.right := by unfold Dat.share; rw [if_neg (by decide)]; dsimp only [dat1]; rfl
theorem share1_3 (c : Dev nD) : (dat1 V c).share 3 = fullShare := by unfold Dat.share; rw [if_neg (by decide)]; dsimp only [dat1]; rfl
theorem share1_4 (c : Dev nD) : (dat1 V c).share 4 = fullShare := by unfold Dat.share; rw [if_neg (by decide)]; dsimp only [dat1]; rfl
theorem share1_5 (c : Dev nD) : (dat1 V c).share 5 = fullShare := by unfold Dat.share; rw [if_neg (by decide)]; dsimp only [dat1]; rfl
theorem share1_6 (c : Dev nD) : (dat1 V c).share 6 = fullShare := by unfold Dat.share; rw [if_neg (by decide)]; dsimp only [dat1]; rfl
theorem share1_7 (c : Dev nD) : (dat1 V c).share 7 = fullShare := by unfold Dat.share; rw [if_neg (by decide)]; dsimp only [dat1]; rfl
theorem share1_8 (c : Dev nD) : (dat1 V c).share 8 = fullShare := by unfold Dat.share; rw [if_neg (by decide)]; dsimp only [dat1]; rfl
theorem share1_9 (c : Dev nD) : (dat1 V c).share 9 = fullShare := by unfold Dat.share; rw [if_pos (by decide)]

/-- The buffers behind the windows' arrays, one by one: nine distinct buffers behind ten windows. -/
theorem bigSep_arrs1 {M : Type} [URA M] (Φ : Ref sig .tc → sProp M) :
    bigSep (Finset.univ.image (Pipeline.arrRef spec1)) Φ = iprop(Φ main_arg2 ∗ Φ main_arg4 ∗ Φ main_v14 ∗ Φ main_v16 ∗ Φ main_v18 ∗ Φ main_v20 ∗ Φ main_v22 ∗ Φ main_v24 ∗ Φ main_v25) :=
  bigSep_eq_bigSepL_of_eq [main_arg2, main_arg4, main_v14, main_v16, main_v18, main_v20, main_v22, main_v24, main_v25] (by decide) (by decide) Φ

/-- A window's array, held through its view at the window's share, is the buffer behind it held whole at that share. -/
theorem arr1_pt (c : Dev nD) (w : Fin cfg1.W) (q : PosShare TreeShare) (hq : (dat1 V c).share w = q)
    (g : Buf (Elt F) ((cfg1.win w).arr.view.loc (c.tc : Thread nD τ))) :
    ((cfg1.win w).arr.view.loc (c.tc : Thread nD τ) ↦[(cfg1.win w).arr.view.set]{(dat1 V c).share w} g : sProp 𝕄)
      = ((c.tc : Thread nD τ).loc (Pipeline.arrRef spec1 w) ↦{q} g) := by
  rw [(arr_whole1 w).set_eq_univ, hq]

set_option maxHeartbeats 2000000 in
/-- ENTRY: the nine distinct buffers behind the ten windows' arrays, each whole at the full share at the entry contents,
    are the pipeline's arrays at entry: idx_emb's buffer split into two halves, one per window that reads it. -/
theorem arrays_entry1 (c : Dev nD) :
    (Pipeline.arrBufs spec1 c (V c) : sProp 𝕄) ⊢ (dat1 V c).arrays ((dat1 V c).arrAt · 0) := by
  unfold Pipeline.arrBufs Dat.arrays
  rw [bigSep_W1, bigSep_arrs1]
  rw [arr1_pt V c 0 fullShare (share1_0 V c), arr1_pt V c 1 fullShare.left (share1_1 V c), arr1_pt V c 2 fullShare.right (share1_2 V c), arr1_pt V c 3 fullShare (share1_3 V c), arr1_pt V c 4 fullShare (share1_4 V c), arr1_pt V c 5 fullShare (share1_5 V c), arr1_pt V c 6 fullShare (share1_6 V c), arr1_pt V c 7 fullShare (share1_7 V c), arr1_pt V c 8 fullShare (share1_8 V c), arr1_pt V c 9 fullShare (share1_9 V c)]
  dsimp only
  iintro ⟨H0, H1, H2, H3, H4, H5, H6, H7, H8⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- EXIT: the pipeline's arrays after the last point — every input as entered, the output at what the write-backs
    left — are the nine buffers whole at any contents that agree with the entry contents but at the output's buffer,
    where they hold the written-back array; idx_emb's two halves rejoin. -/
theorem arrays_exit1 (c : Dev nD) (V' : (b : Ref sig .tc) → Buf (Elt F) ((c : Thread nD τ).loc b))
    (hout : V' main_v25 = (dat1 V c).arrAt 9 cfg1.N) (hrest : ∀ b, b ≠ main_v25 → V' b = V c b) :
    (dat1 V c).arrays ((dat1 V c).arrAt · cfg1.N) ⊢ (Pipeline.arrBufs spec1 c V' : sProp 𝕄) := by
  unfold Pipeline.arrBufs Dat.arrays
  rw [bigSep_W1, bigSep_arrs1]
  rw [arr1_pt V c 0 fullShare (share1_0 V c), arr1_pt V c 1 fullShare.left (share1_1 V c), arr1_pt V c 2 fullShare.right (share1_2 V c), arr1_pt V c 3 fullShare (share1_3 V c), arr1_pt V c 4 fullShare (share1_4 V c), arr1_pt V c 5 fullShare (share1_5 V c), arr1_pt V c 6 fullShare (share1_6 V c), arr1_pt V c 7 fullShare (share1_7 V c), arr1_pt V c 8 fullShare (share1_8 V c), arr1_pt V c 9 fullShare (share1_9 V c)]
  dsimp only
  rw [hrest main_arg2 (by decide), hrest main_arg4 (by decide), hrest main_v14 (by decide), hrest main_v16 (by decide), hrest main_v18 (by decide), hrest main_v20 (by decide), hrest main_v22 (by decide), hrest main_v24 (by decide), hout,
    (dat1 V c).arrAt_in 0 rfl cfg1.N, (dat1 V c).arrAt_in 1 rfl cfg1.N, (dat1 V c).arrAt_in 2 rfl cfg1.N, (dat1 V c).arrAt_in 3 rfl cfg1.N, (dat1 V c).arrAt_in 4 rfl cfg1.N, (dat1 V c).arrAt_in 5 rfl cfg1.N, (dat1 V c).arrAt_in 6 rfl cfg1.N, (dat1 V c).arrAt_in 7 rfl cfg1.N, (dat1 V c).arrAt_in 8 rfl cfg1.N]
  iintro ⟨G0, G1, G2, G3, G4, G5, G6, G7, G8, G9⟩
  isplitl [G0]
  · iexact G0
  isplitl [G1 G2]
  · iapply (pointsTo_share (PosShare.mem_left_op_right fullShare)).2; isplitl [G1]; · iexact G1
    iexact G2
  isplitl [G3]
  · iexact G3
  isplitl [G4]
  · iexact G4
  isplitl [G5]
  · iexact G5
  isplitl [G6]
  · iexact G6
  isplitl [G7]
  · iexact G7
  isplitl [G8]
  · iexact G8
  iexact G9

end Cert.Kernel.Hand

end
-- ==== Proof.KRegion2.lean ====
/-
  The third pallas_call (one grid point): three graph layers over the two message matrices a, ad and the
  features x, then the column means of t_grad as row scales. With every operand resident,
    x ← relu?( (a x) W₀ + (aᵀ x) W₁ + (ad x) W₂ + (adᵀ x) W₃ + x W₄ + b )   (three times, no relu the last time),
    out[i, j] = (Σ_r t_grad[r, i] / 1024) · x[i, j].
  This module states what the body's one store puts in the output window's buffer, as one function of the six input
  blocks, proves the body's triple, and packages the pipeline's proof data and body obligation at any contents V the
  region is entered with.
-/
import proofs.«142047_j12206297055728_1_alg».proof.Proof.Gen.Kernel.Launch
import proofs.«142047_j12206297055728_1_alg».proof.Proof.Gen.Kernel.Skeleton
import proofs.«142047_j12206297055728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call, entered at contents `V` -/

abbrev r2_nn : Rect S1024x1024 := Rect.unit (s := S1024x1024) ![0, 0] S1024x1024.size inb_S1024x1024_S1024x1024_0_0
abbrev r2_nd : Rect S1024x64 := Rect.unit (s := S1024x64) ![0, 0] S1024x64.size inb_S1024x64_S1024x64_0_0
abbrev r2_w : Rect S3x5x64x64 := Rect.unit (s := S3x5x64x64) ![0, 0, 0, 0] S3x5x64x64.size inb_S3x5x64x64_S3x5x64x64_0_0_0_0
abbrev r2_b : Rect S3x64 := Rect.unit (s := S3x64) ![0, 0] S3x64.size inb_S3x64_S3x64_0_0

/-- Window `w`'s block at grid point `t`: the part of its array, as the region finds it, that the point's index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its staging buffer holds the point's block, whether the block was moved in at
    that point or is the one still there from the point before (the index map did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its staging buffer holds the point's block, whether the block was moved in at
    that point or is the one still there from the point before (the index map did not move). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its staging buffer holds the point's block, whether the block was moved in at
    that point or is the one still there from the point before (the index map did not move). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point its staging buffer holds the point's block, whether the block was moved in at
    that point or is the one still there from the point before (the index map did not move). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point its staging buffer holds the point's block, whether the block was moved in at
    that point or is the one still there from the point before (the index map did not move). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every grid point its staging buffer holds the point's block, whether the block was moved in at
    that point or is the one still there from the point before (the index map did not move). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body stores -/

/-- The value the body stores, from the six input blocks (a, ad, x, t_grad, the layer weights, the layer biases): the
    first layer's pre-activation and bias row, then the second layer, the third layer's operands, and the final scaling. -/
def stored2 (x0 x1 : Vec F S1024x1024 .f32) (x2 : Vec F S1024x64 .f32) (x3 : Vec F S1024x1024 .f32) (x4 : Vec F S3x5x64x64 .f32) (x5 : Vec F S3x64 .f32) : FVec F S1024x64 .f32 :=
  let v0 := View.ld x0 r2_nn
  let v2 := View.ld x1 r2_nn
  let v4 := View.ld x2 r2_nd
  let v5 := View.ld x3 r2_nn
  let v6 := View.ld x4 r2_w
  let v7 := View.ld x5 r2_b
  let v1 := k2_pay2 v0
  let v3 := k2_pay3 v2
  let v34 := k2_pay4 v0 v2 v4 v6
  let v35 := k2_pay5 v7
  k2_pay1 v5 (k2_pay6 v1 v3 v6 v7 v34 v35) (k2_pay7 v6) (k2_pay8 v7) (k2_pay9 v1 v3 v6 v7 v34 v35) (k2_pay10 v1 v3 v6 v7 v34 v35)
    (k2_pay11 v1 v3 v6 v7 v34 v35) (k2_pay12 v1 v3 v6 v7 v34 v35) (k2_pay13 v6)

/-- The output window's staging buffer after the body: the one store, over the whole buffer, of the stored value. -/
def out2_6 (x0 : Vec F S1024x1024 .f32) (x1 : Vec F S1024x1024 .f32) (x2 : Vec F S1024x64 .f32) (x3 : Vec F S1024x1024 .f32) (x4 : Vec F S3x5x64x64 .f32) (x5 : Vec F S3x64 .f32) : Vec F S1024x64 .f32 :=
  View.canon [⟨r2_nd, stored2 x0 x1 x2 x3 x4 x5⟩]

/-- The one store's rectangle is the whole buffer, so it covers every index. -/
theorem cover2_6 (p0 : Vec F S1024x64 .f32) (y : S1024x64.Idx) :
    ∃ pc ∈ ([⟨r2_nd, p0⟩] : List (View.Piece (Elt F) S1024x64 .f32)), y ∈ pc.1.set :=
  View.cover_of_tiled [⟨r2_nd, p0⟩] S1024x64.size (by rfl) y

/-! ## The body's triple -/

set_option maxHeartbeats 2000000 in
/-- On whole staging buffers, the inputs' at contents `x0 …` and the output's at anything, the body runs to its return
    leaving the inputs' as they were and the output's at `out2_6` of the inputs'. -/
theorem sound_kernel2 (c : Dev nD) (E : Set ℕ) (i : grid2.Coords) (arg1 : Memref sig .tc .vmem S1024x1024 .f32) (harg1 : arg1.IsWhole) (arg2 : Memref sig .tc .vmem S1024x1024 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S3x5x64x64 .f32) (harg5 : arg5.IsWhole) (arg6 : Memref sig .tc .vmem S3x64 .f32) (harg6 : arg6.IsWhole) (arg7 : Memref sig .tc .vmem S1024x64 .f32) (harg7 : arg7.IsWhole)
    (x0 : Vec F S1024x1024 .f32) (x1 : Vec F S1024x1024 .f32) (x2 : Vec F S1024x64 .f32) (x3 : Vec F S1024x1024 .f32) (x4 : Vec F S3x5x64x64 .f32) (x5 : Vec F S3x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ Kc ⟨⟩))
      ⊢ wp frame (wpE (defs₀ (F := F)) Variants.none c none) E (cc2_kernel i arg1 harg1 arg2 harg2 arg3 harg3 arg4 harg4 arg5 harg5 arg6 harg6 arg7 harg7) Kc := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this pallas_call on core `c`: the arrays as the region finds them; after the body at point `t` each
    input's buffer still at its block and the output's at `out2_6` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program: @main is twelve host operations (slicing the first MLP's parameters out of the stacked arrays), the
  first pallas_call, twelve more host operations (the second MLP's parameters), the second pallas_call, the third. The
  contents of the unscoped buffers are followed from the launch through these five segments: a host stretch applies its
  operations; a pallas_call changes only its output array, which ends at what the pipeline's write-backs leave. Every
  weakly fair execution terminates with every unscoped buffer at the last of these contents; hence the arguments end as
  launched (no segment writes one), and the result array ends at the third call's written-back output.
-/
import proofs.«142047_j12206297055728_1_alg».proof.Proof.Gen.Kernel.Launch
import proofs.«142047_j12206297055728_1_alg».proof.Proof.Gen.Kernel.Skeleton
import proofs.«142047_j12206297055728_1_alg».proof.Proof.Gen.Kernel.Points
import proofs.«142047_j12206297055728_1_alg».proof.Proof.KRegion0
import proofs.«142047_j12206297055728_1_alg».proof.Proof.KRegion1
import proofs.«142047_j12206297055728_1_alg».proof.Proof.KRegion2
import proofs.«142047_j12206297055728_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first twelve host operations. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the first pallas_call: its output array at what the write-backs leave, every other buffer as entered. -/
def W2 (c : Dev nD) : Valuation τ sig (Elt F) :=
  Function.update (W1 m ρ c) (Proc.devRef .tc main_v12) ((dat0 (E1 m ρ) c).arrAt 9 cfg0.N)
theorem W2_out (c : Dev nD) : W2 m ρ c (Proc.devRef .tc main_v12) = (dat0 (E1 m ρ) c).arrAt 9 cfg0.N := by
  unfold W2; exact Function.update_self ..
theorem W2_of_ne (c : Dev nD) (b : Ref sig .tc) (hb : b ≠ main_v12) : W2 m ρ c (Proc.devRef .tc b) = W1 m ρ c (Proc.devRef .tc b) := by
  unfold W2; exact Function.update_of_ne (StableHlo.devRef_ne_of_ne hb) ..
abbrev E2 : (c : Dev nD) → (b : Ref sig .tc) → Buf (Elt F) ((c : Thread nD τ).loc b) := fun c b => W2 m ρ c b
/-- After the second twelve host operations. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- After the second pallas_call. -/
def W4 (c : Dev nD) : Valuation τ sig (Elt F) :=
  Function.update (W3 m ρ c) (Proc.devRef .tc main_v25) ((dat1 (E3 m ρ) c).arrAt 9 cfg1.N)
theorem W4_out (c : Dev nD) : W4 m ρ c (Proc.devRef .tc main_v25) = (dat1 (E3 m ρ) c).arrAt 9 cfg1.N := by
  unfold W4; exact Function.update_self ..
theorem W4_of_ne (c : Dev nD) (b : Ref sig .tc) (hb : b ≠ main_v25) : W4 m ρ c (Proc.devRef .tc b) = W3 m ρ c (Proc.devRef .tc b) := by
  unfold W4; exact Function.update_of_ne (StableHlo.devRef_ne_of_ne hb) ..
abbrev E4 : (c : Dev nD) → (b : Ref sig .tc) → Buf (Elt F) ((c : Thread nD τ).loc b) := fun c b => W4 m ρ c b
/-- After the third pallas_call. -/
def W5 (c : Dev nD) : Valuation τ sig (Elt F) :=
  Function.update (W4 m ρ c) (Proc.devRef .tc main_v26) ((dat2 (E4 m ρ) c).arrAt 6 cfg2.N)
theorem W5_out (c : Dev nD) : W5 m ρ c (Proc.devRef .tc main_v26) = (dat2 (E4 m ρ) c).arrAt 6 cfg2.N := by
  unfold W5; exact Function.update_self ..
theorem W5_of_ne (c : Dev nD) (b : Ref sig .tc) (hb : b ≠ main_v26) : W5 m ρ c (Proc.devRef .tc b) = W4 m ρ c (Proc.devRef .tc b) := by
  unfold W5; exact Function.update_of_ne (StableHlo.devRef_ne_of_ne hb) ..
abbrev E5 : (c : Dev nD) → (b : Ref sig .tc) → Buf (Elt F) ((c : Thread nD τ).loc b) := fun c b => W5 m ρ c b

/-- A buffer no host operation writes and no pallas_call has as its output ends as launched. -/
theorem W5_kept (c : Dev nD) (r : Ref sig .tc) (h0 : r ∉ hostOps0_W) (h1 : r ∉ hostOps1_W)
    (h2 : r ≠ main_v12) (h4 : r ≠ main_v25) (h5 : r ≠ main_v26) :
    W5 m ρ c (Proc.devRef .tc r) = m ((c : Thread nD τ).loc r) :=
  calc W5 m ρ c (Proc.devRef .tc r)
    _ = W4 m ρ c (Proc.devRef .tc r) := W5_of_ne m ρ c r h5
    _ = W3 m ρ c (Proc.devRef .tc r) := W4_of_ne m ρ c r h4
    _ = W2 m ρ c (Proc.devRef .tc r) := StableHlo.after_of_writes_sub hostOps1 _ hostOps1_writes h1
    _ = W1 m ρ c (Proc.devRef .tc r) := W2_of_ne m ρ c r h2
    _ = W0 m ρ c (Proc.devRef .tc r) := StableHlo.after_of_writes_sub hostOps0 _ hostOps0_writes h0
    _ = m ((c : Thread nD τ).loc r) := rfl

/-- The third call's arrays after its one point, and every other buffer, against the contents after it. -/
theorem hF2 (c : Dev nD) : ∀ w : Fin cfg2.W, (dat2 (E4 m ρ) c).arrAt w cfg2.N = E5 m ρ c (Pipeline.arrRef spec2 w) := fun w =>
  match w with
  | ⟨0, _⟩ => ((dat2 (E4 m ρ) c).arrAt_in 0 rfl _).trans ((A_eq2 (E4 m ρ) c 0).trans (W5_of_ne m ρ c main_v12 (by decide)).symm)
  | ⟨1, _⟩ => ((dat2 (E4 m ρ) c).arrAt_in 1 rfl _).trans ((A_eq2 (E4 m ρ) c 1).trans (W5_of_ne m ρ c main_v25 (by decide)).symm)
  | ⟨2, _⟩ => ((dat2 (E4 m ρ) c).arrAt_in 2 rfl _).trans ((A_eq2 (E4 m ρ) c 2).trans (W5_of_ne m ρ c main_arg0 (by decide)).symm)
  | ⟨3, _⟩ => ((dat2 (E4 m ρ) c).arrAt_in 3 rfl _).trans ((A_eq2 (E4 m ρ) c 3).trans (W5_of_ne m ρ c main_arg3 (by decide)).symm)
  | ⟨4, _⟩ => ((dat2 (E4 m ρ) c).arrAt_in 4 rfl _).trans ((A_eq2 (E4 m ρ) c 4).trans (W5_of_ne m ρ c main_arg11 (by decide)).symm)
  | ⟨5, _⟩ => ((dat2 (E4 m ρ) c).arrAt_in 5 rfl _).trans ((A_eq2 (E4 m ρ) c 5).trans (W5_of_ne m ρ c main_arg12 (by decide)).symm)
  | ⟨6, _⟩ => (W5_out m ρ c).symm
theorem hrest2 (c : Dev nD) : ∀ b, b ∉ Finset.univ.image (Pipeline.arrRef spec2) → E5 m ρ c b = E4 m ρ c b :=
  fun b hb => W5_of_ne m ρ c b fun e => hb (e ▸ Finset.mem_image.mpr ⟨6, Finset.mem_univ _, rfl⟩)

/-! ## The proof data family and the thread state -/

/-- Every pallas_call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E4 m ρ) c
abbrev Vn : Variants := Variants.none
/-- No core owes another anything: no level is assigned. -/
abbrev Lv0 : GSem nD τ sig → Finset Unit := fun _ => ∅
abbrev lv0 : GSem nD τ sig → Unit → ℕ := fun _ _ => 0
/-- What rides beside the buffers through every segment: the core's generator register at some state and its `owes`, at nothing. -/
abbrev Rst (c : Dev nD) : sProp 𝕄 := iprop((∃ r, prngReg c r) ∗ ∃ W, owes (c : Thread nD τ) (0 : CellTallies nD τ sig Unit) W)
/-- A host stretch as a segment over the unscoped buffers from contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the `owes`. -/
abbrev Tlast (c : Dev nD) : sProp 𝕄 := iprop(StableHlo.held (c : Thread nD τ) (Pipeline.ucRefs τ sig) (W5 m ρ c) ∗ ∃ r, prngReg c r)

/-! ## The pallas_calls as segments -/

-- a library lemma stated over the pinned configuration unifies with the printed one only when unification may unfold
-- plain definitions in a metavariable's type
set_option backward.isDefEq.respectTransparency.types false in
/-- The first pallas_call as a segment: entered with every unscoped buffer at `W1`, left with them at `W2`. Its nine
    array buffers are split out of the unscoped buffers at entry (idx_emb's into two halves) and put back at exit; the
    generator register passes through the body's invariant; nothing is owed; the kernel has no semaphore of its own. -/
def reg0 : Pipeline.RegionSeg (pcfgs (F := F)) adm (pdats m ρ) () defs₀ Vn Lv0 lv0 0 where
  win := winFacts₀0
  block_pos := block_pos0
  stage_whole := stage_whole0
  K := PEmpty
  osem k := k.elim
  ho := Pipeline.OwnSemFacts.none _
  hbody c := (body_obligation0 (E1 m ρ) c).loose
  hwaits := Pipeline.hwaits_of_owed_zero _ _ _ _ Lv0 lv0 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0) ∗ Pipeline.unscopedRest spec0 c (E1 m ρ c)) := by
      rw [← Pipeline.unscopedBufs_held c (W1 m ρ c), Pipeline.unscopedBufs_split₀ cfgs 0 winFacts₀0.arr_unscoped c (E1 m ρ c)]
      exact sep_mono (arrays_entry0 (E1 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (E1 m ρ c))
        ⊢ (StableHlo.held (c : Thread nD τ) (Pipeline.ucRefs τ sig) (W2 m ρ c) : sProp 𝕄) := by
      rw [← Pipeline.unscopedBufs_held c (W2 m ρ c), Pipeline.unscopedBufs_split₀ cfgs 0 winFacts₀0.arr_unscoped c (E2 m ρ c)]
      refine sep_mono (arrays_exit0 (E1 m ρ) c (E2 m ρ c) (W2_out m ρ c) (fun b hb => W2_of_ne m ρ c b hb)) (Entails.of_eq ?_)
      unfold Pipeline.unscopedRest
      exact bigSep_congr fun b hb => by
        rw [show E2 m ρ c b = E1 m ρ c b from W2_of_ne m ρ c b fun e =>
          (Finset.mem_sdiff.mp hb).2 (e ▸ Finset.mem_image.mpr ⟨9, Finset.mem_univ _, rfl⟩)]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered with every unscoped buffer at `W3`, left with them at `W4`. Its nine
    array buffers are split out of the unscoped buffers at entry (idx_emb's into two halves) and put back at exit; the
    generator register passes through the body's invariant; nothing is owed; the kernel has no semaphore of its own. -/
def reg1 : Pipeline.RegionSeg (pcfgs (F := F)) adm (pdats m ρ) () defs₀ Vn Lv0 lv0 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ Lv0 lv0 1 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0) ∗ Pipeline.unscopedRest spec1 c (E3 m ρ c)) := by
      rw [← Pipeline.unscopedBufs_held c (W3 m ρ c), Pipeline.unscopedBufs_split₀ cfgs 1 winFacts₀1.arr_unscoped c (E3 m ρ c)]
      exact sep_mono (arrays_entry1 (E3 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E3 m ρ c))
        ⊢ (StableHlo.held (c : Thread nD τ) (Pipeline.ucRefs τ sig) (W4 m ρ c) : sProp 𝕄) := by
      rw [← Pipeline.unscopedBufs_held c (W4 m ρ c), Pipeline.unscopedBufs_split₀ cfgs 1 winFacts₀1.arr_unscoped c (E4 m ρ c)]
      refine sep_mono (arrays_exit1 (E3 m ρ) c (E4 m ρ c) (W4_out m ρ c) (fun b hb => W4_of_ne m ρ c b hb)) (Entails.of_eq ?_)
      unfold Pipeline.unscopedRest
      exact bigSep_congr fun b hb => by
        rw [show E4 m ρ c b = E3 m ρ c b from W4_of_ne m ρ c b fun e =>
          (Finset.mem_sdiff.mp hb).2 (e ▸ Finset.mem_image.mpr ⟨9, Finset.mem_univ _, rfl⟩)]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third pallas_call as a segment: its seven arrays are distinct buffers, split out of the unscoped buffers at entry and
    put back at the contents after it at exit. -/
def reg2 : Pipeline.RegionSeg (pcfgs (F := F)) adm (pdats m ρ) () defs₀ Vn Lv0 lv0 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ Lv0 lv0 2 fun _ _ => rfl
  pre c := iprop(StableHlo.held (c : Thread nD τ) (Pipeline.ucRefs τ sig) (W4 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) adm (pdats m ρ) () defs₀ Vn Lv0 lv0) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- @main is the run of the segments. -/
theorem main_run (c : Dev nD) : main (F := F) c = Pipeline.Seg.run (mainSegs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main terminates, nothing faulting, and in
    every final state each core's unscoped buffers hold the contents after the last segment. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ Vn Lv0 lv0 m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tlast m ρ)
    (hch := ⟨fun _ => .rfl, fun _ => .rfl, fun _ => .rfl, fun _ => .rfl, fun _ => .rfl, fun _ => .rfl⟩)
    (hinit := by
      refine Pipeline.initEach Lv0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_kept m ρ c main_arg0 (by decide) (by decide) (by decide) (by decide) (by decide)),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide)),
     (h c _ (mem_uc main_arg4 (by decide))).trans (W5_kept m ρ c main_arg4 (by decide) (by decide) (by decide) (by decide) (by decide)),
     (h c _ (mem_uc main_arg5 (by decide))).trans (W5_kept m ρ c main_arg5 (by decide) (by decide) (by decide) (by decide) (by decide)),
     (h c _ (mem_uc main_arg6 (by decide))).trans (W5_kept m ρ c main_arg6 (by decide) (by decide) (by decide) (by decide) (by decide)),
     (h c _ (mem_uc main_arg7 (by decide))).trans (W5_kept m ρ c main_arg7 (by decide) (by decide) (by decide) (by decide) (by decide)),
     (h c _ (mem_uc main_arg8 (by decide))).trans (W5_kept m ρ c main_arg8 (by decide) (by decide) (by decide) (by decide) (by decide)),
     (h c _ (mem_uc main_arg9 (by decide))).trans (W5_kept m ρ c main_arg9 (by decide) (by decide) (by decide) (by decide) (by decide)),
     (h c _ (mem_uc main_arg10 (by decide))).trans (W5_kept m ρ c main_arg10 (by decide) (by decide) (by decide) (by decide) (by decide)),
     (h c _ (mem_uc main_arg11 (by decide))).trans (W5_kept m ρ c main_arg11 (by decide) (by decide) (by decide) (by decide) (by decide)),
     (h c _ (mem_uc main_arg12 (by decide))).trans (W5_kept m ρ c main_arg12 (by decide) (by decide) (by decide) (by decide) (by decide))⟩)
    (run_all m ρ)

/-- THE RESULT: the result array ends at the third pallas_call's output array after its write-back, and every argument array
    ends holding its launch contents. -/
theorem result_run : θ_run defs (onTc (τ := τ) (main (F := F))) ⟨m, fun _ => 0, ρ⟩ (fun r => ∀ c : Dev nD,
      r.2.mem ((c.tc : Thread nD τ).loc main_v26) = (dat2 (E4 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v26 (by decide))).trans (W5_out m ρ c),
     (h c _ (mem_uc main_arg0 (by decide))).trans (W5_kept m ρ c main_arg0 (by decide) (by decide) (by decide) (by decide) (by decide)),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide)),
     (h c _ (mem_uc main_arg4 (by decide))).trans (W5_kept m ρ c main_arg4 (by decide) (by decide) (by decide) (by decide) (by decide)),
     (h c _ (mem_uc main_arg5 (by decide))).trans (W5_kept m ρ c main_arg5 (by decide) (by decide) (by decide) (by decide) (by decide)),
     (h c _ (mem_uc main_arg6 (by decide))).trans (W5_kept m ρ c main_arg6 (by decide) (by decide) (by decide) (by decide) (by decide)),
     (h c _ (mem_uc main_arg7 (by decide))).trans (W5_kept m ρ c main_arg7 (by decide) (by decide) (by decide) (by decide) (by decide)),
     (h c _ (mem_uc main_arg8 (by decide))).trans (W5_kept m ρ c main_arg8 (by decide) (by decide) (by decide) (by decide) (by decide)),
     (h c _ (mem_uc main_arg9 (by decide))).trans (W5_kept m ρ c main_arg9 (by decide) (by decide) (by decide) (by decide) (by decide)),
     (h c _ (mem_uc main_arg10 (by decide))).trans (W5_kept m ρ c main_arg10 (by decide) (by decide) (by decide) (by decide) (by decide)),
     (h c _ (mem_uc main_arg11 (by decide))).trans (W5_kept m ρ c main_arg11 (by decide) (by decide) (by decide) (by decide) (by decide)),
     (h c _ (mem_uc main_arg12 (by decide))).trans (W5_kept m ρ c main_arg12 (by decide) (by decide) (by decide) (by decide) (by decide))⟩)
    (run_all m ρ)

end Cert.Kernel.Hand

end
-- ==== Proof.KIRegion0.lean ====
/-
  The first pallas_call (eight grid points, one 128-row tile of adj each): the edge-wise message MLP
    out[i, j] = Σ_k relu(Σ_h relu(adj[i, j]·w_a[h] + (idx_emb w_iᵀ)[i, h] + (idx_emb w_jᵀ)[j, h] + b1[h])·W2[k, h] + b2[k])·W3[0, k] + b3[0].
  idx_emb reaches the body through two windows (the tile's rows, and the whole array), so the pipeline holds that array
  at two half shares. This module states what the body's one store puts in the output window's buffer as one function of
  the nine input blocks, proves the body's triple, and packages the pipeline's proof data and body obligation at any
  contents V the region is entered with.
-/
import proofs.«142047_j12206297055728_1_alg».proof.Proof.Gen.KernelIdeal.Launch
import proofs.«142047_j12206297055728_1_alg».proof.Proof.Gen.KernelIdeal.Skeleton
import proofs.«142047_j12206297055728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first pallas_call, entered at contents `V` -/

abbrev r0_t : Rect S128x1024 := Rect.unit (s := S128x1024) ![0, 0] S128x1024.size inb_S128x1024_S128x1024_0_0
abbrev r0_e : Rect S128x64 := Rect.unit (s := S128x64) ![0, 0] S128x64.size inb_S128x64_S128x64_0_0
abbrev r0_f : Rect S1024x64 := Rect.unit (s := S1024x64) ![0, 0] S1024x64.size inb_S1024x64_S1024x64_0_0
abbrev r0_w1 : Rect S8x129 := Rect.unit (s := S8x129) ![0, 0] S8x129.size inb_S8x129_S8x129_0_0
abbrev r0_h : Rect S8 := Rect.unit (s := S8) ![0] S8.size inb_S8_S8_0
abbrev r0_w2 : Rect S8x8 := Rect.unit (s := S8x8) ![0, 0] S8x8.size inb_S8x8_S8x8_0_0
abbrev r0_w3 : Rect S1x8 := Rect.unit (s := S1x8) ![0, 0] S1x8.size inb_S1x8_S1x8_0_0
abbrev r0_s : Rect S1 := Rect.unit (s := S1) ![0] S1.size inb_S1_S1_0

/-- Window `w`'s block at grid point `t`: the part of its array, as the region finds it, that the point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: at every grid point its staging buffer holds the point's block, whether the block was moved in at
    that point or is the one still there from the point before (the index map did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: at every grid point its staging buffer holds the point's block, whether the block was moved in at
    that point or is the one still there from the point before (the index map did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: at every grid point its staging buffer holds the point's block, whether the block was moved in at
    that point or is the one still there from the point before (the index map did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: at every grid point its staging buffer holds the point's block, whether the block was moved in at
    that point or is the one still there from the point before (the index map did not move). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: at every grid point its staging buffer holds the point's block, whether the block was moved in at
    that point or is the one still there from the point before (the index map did not move). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: at every grid point its staging buffer holds the point's block, whether the block was moved in at
    that point or is the one still there from the point before (the index map did not move). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: at every grid point its staging buffer holds the point's block, whether the block was moved in at
    that point or is the one still there from the point before (the index map did not move). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: at every grid point its staging buffer holds the point's block, whether the block was moved in at
    that point or is the one still there from the point before (the index map did not move). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8: at every grid point its staging buffer holds the point's block, whether the block was moved in at
    that point or is the one still there from the point before (the index map did not move). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The value the body stores, from the nine input blocks (a 128-row tile of the matrix, the tile's rows of idx_emb, all of
    idx_emb, and the MLP's W1, b1, W2, b2, W3, b3): the eight first-layer planes relu(tile·w_a[h] + row[:, h] + col[:, h] + b1[h]),
    the eight second-layer planes relu(Σ_h plane_h·W2[k, h] + b2[k]), and Σ_k plane2_k·W3[0, k] + b3[0], composed as the
    body's statements compose them. -/
def stored0 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : FVec F S128x1024 .f32 :=
  let v0 := View.ld x0 r0_t
  let v1 := View.ld x1 r0_e
  let v2 := View.ld x2 r0_f
  let v3 := View.ld x3 r0_w1
  let v5 := View.ld x4 r0_h
  let v7 := View.ld x5 r0_w2
  let v9 := View.ld x6 r0_h
  let v11 := View.ld x7 r0_w3
  let v13 := View.ld x8 r0_s
  let cst_15 : F .f32 := Scalar.ofBits .f32 0x00000000#32
  let v6 := k0_pay3 v5; let v8 := k0_pay4 v7; let v10 := k0_pay5 v9; let v12 := k0_pay6 v11; let v14 := k0_pay7 v13
  let v16 := k0_pay8 v3; let v20 := k0_pay9 v1 v3; let v22 := k0_pay10 v2 v3; let v40 := k0_pay11 v0 v1 v2 v3 v5
  let v42 := k0_pay12 v40 cst_15; let v62 := k0_pay13 v0 v6 v16 v20 v22; let v82 := k0_pay14 v0 v6 v16 v20 v22; let v96 := k0_pay15 v0 v16 v20 v22; let v98 := k0_pay16 v6
  let v102 := k0_pay17 v96 v98; let v122 := k0_pay18 v0 v6 v16 v20 v22; let v142 := k0_pay19 v0 v6 v16 v20 v22; let v151 := k0_pay20 v0 v16 v20; let v155 := k0_pay21 v22
  let v162 := k0_pay22 v6 v151 v155; let v182 := k0_pay23 v0 v6 v16 v20 v22; let v211 := k0_pay24 v8 v42 v62 v82 v102 v122 v142; let v213 := k0_pay25 v8
  let v227 := k0_pay26 v8 v10 v162 v182 v211 v213; let v270 := k0_pay27 v8 v10 v42 v62 v82 v102 v122 v142 v162 v182; let v271 : FVec F S128x1024 .f32 := k0_pay28 (F := F)
  let v272 := k0_pay29 v270 v271; let v317 := k0_pay30 v8 v10 v42 v62 v82 v102 v122 v142 v162 v182; let v326 := k0_pay31 v8 v42 v62; let v330 := k0_pay32 v8 v82
  let v362 := k0_pay33 v8 v10 v102 v122 v142 v162 v182 v326 v330; let v386 := k0_pay34 v8 v42 v62 v82 v102 v122; let v389 := k0_pay35 v8
  let v407 := k0_pay36 v8 v10 v142 v162 v182 v386 v389; let v446 := k0_pay37 v8 v42 v62 v82 v102 v122 v142 v162 v182; let v448 := k0_pay38 v10
  let v452 := k0_pay39 v446 v448; let v497 := k0_pay40 v8 v10 v42 v62 v82 v102 v122 v142 v162 v182; let v506 := k0_pay41 v8 v42 v62
  let v542 := k0_pay42 v8 v10 v82 v102 v122 v142 v162 v182 v506; let v561 := k0_pay43 v12 v227 v272 v317 v362; let v565 := k0_pay44 v12 v407
  k0_pay1 v12 v14 v452 v497 v542 v561 v565

/-- The output window's staging buffer after the body: the one store, over the whole buffer, of the stored value. -/
def out0_9 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : Vec F S128x1024 .f32 :=
  View.canon [⟨r0_t, stored0 x0 x1 x2 x3 x4 x5 x6 x7 x8⟩]

/-- The one store's rectangle is the whole buffer, so it covers every index. -/
theorem cover0_9 (p0 : Vec F S128x1024 .f32) (y : S128x1024.Idx) :
    ∃ pc ∈ ([⟨r0_t, p0⟩] : List (View.Piece (Elt F) S128x1024 .f32)), y ∈ pc.1.set :=
  View.cover_of_tiled [⟨r0_t, p0⟩] S128x1024.size (by rfl) y

/-! ## The body's triple -/

set_option maxHeartbeats 2000000 in
/-- On whole staging buffers, the inputs' at contents `x0 …` and the output's at anything, the body runs to its return
    leaving the inputs' as they were and the output's at `out0_9` of the inputs'. -/
theorem sound_kernel0 (c : Dev nD) (E : Set ℕ) (i : grid0.Coords) (arg1 : Memref sig .tc .vmem S128x1024 .f32) (harg1 : arg1.IsWhole) (arg2 : Memref sig .tc .vmem S128x64 .f32) (harg2 : arg2.IsWhole) (arg3 : Memref sig .tc .vmem S1024x64 .f32) (harg3 : arg3.IsWhole) (arg4 : Memref sig .tc .vmem S8x129 .f32) (harg4 : arg4.IsWhole) (arg5 : Memref sig .tc .vmem S8 .f32) (harg5 : arg5.IsWhole) (arg6 : Memref sig .tc .vmem S8x8 .f32) (harg6 : arg6.IsWhole) (arg7 : Memref sig .tc .vmem S8 .f32) (harg7 : arg7.IsWhole) (arg8 : Memref sig .tc .vmem S1x8 .f32) (harg8 : arg8.IsWhole) (arg9 : Memref sig .tc .vmem S1 .f32) (harg9 : arg9.IsWhole) (arg10 : Memref sig .tc .vmem S128x1024 .f32) (harg10 : arg10.IsWhole)
    (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ Kc ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) Kc := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of this pallas_call on core `c`: the arrays as the region finds them; after the body at point `t` each
    input's buffer still at its block and the output's at `out0_9` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays at entry and at exit: idx_emb is held through two windows, at half shares -/

/-- Each window's share of its array: the two windows on idx_emb hold a half each, every other input and the output all of it. -/
theorem share0_0 (c : Dev nD) : (dat0 V c).share 0 = fullShare := by unfold Dat.share; rw [if_neg (by decide)]; dsimp only [dat0]; rfl
theorem share0_1 (c : Dev nD) : (dat0 V c).share 1 = fullShare.left := by unfold Dat.share; rw [if_neg (by decide)]; dsimp only [dat0]; rfl
theorem share0_2 (c : Dev nD) : (dat0 V c).share 2 = fullShare.right := by unfold Dat.share; rw [if_neg (by decide)]; dsimp only [dat0]; rfl
theorem share0_3 (c : Dev nD) : (dat0 V c).share 3 = fullShare := by unfold Dat.share; rw [if_neg (by decide)]; dsimp only [dat0]; rfl
theorem share0_4 (c : Dev nD) : (dat0 V c).share 4 = fullShare := by unfold Dat.share; rw [if_neg (by decide)]; dsimp only [dat0]; rfl
theorem share0_5 (c : Dev nD) : (dat0 V c).share 5 = fullShare := by unfold Dat.share; rw [if_neg (by decide)]; dsimp only [dat0]; rfl
theorem share0_6 (c : Dev nD) : (dat0 V c).share 6 = fullShare := by unfold Dat.share; rw [if_neg (by decide)]; dsimp only [dat0]; rfl
theorem share0_7 (c : Dev nD) : (dat0 V c).share 7 = fullShare := by unfold Dat.share; rw [if_neg (by decide)]; dsimp only [dat0]; rfl
theorem share0_8 (c : Dev nD) : (dat0 V c).share 8 = fullShare := by unfold Dat.share; rw [if_neg (by decide)]; dsimp only [dat0]; rfl
theorem share0_9 (c : Dev nD) : (dat0 V c).share 9 = fullShare := by unfold Dat.share; rw [if_pos (by decide)]

/-- The buffers behind the windows' arrays, one by one: nine distinct buffers behind ten windows. -/
theorem bigSep_arrs0 {M : Type} [URA M] (Φ : Ref sig .tc → sProp M) :
    bigSep (Finset.univ.image (Pipeline.arrRef spec0)) Φ = iprop(Φ main_arg1 ∗ Φ main_arg4 ∗ Φ main_v1 ∗ Φ main_v3 ∗ Φ main_v5 ∗ Φ main_v7 ∗ Φ main_v9 ∗ Φ main_v11 ∗ Φ main_v12) :=
  bigSep_eq_bigSepL_of_eq [main_arg1, main_arg4, main_v1, main_v3, main_v5, main_v7, main_v9, main_v11, main_v12] (by decide) (by decide) Φ

/-- A window's array, held through its view at the window's share, is the buffer behind it held whole at that share. -/
theorem arr0_pt (c : Dev nD) (w : Fin cfg0.W) (q : PosShare TreeShare) (hq : (dat0 V c).share w = q)
    (g : Buf (Elt F) ((cfg0.win w).arr.view.loc (c.tc : Thread nD τ))) :
    ((cfg0.win w).arr.view.loc (c.tc : Thread nD τ) ↦[(cfg0.win w).arr.view.set]{(dat0 V c).share w} g : sProp 𝕄)
      = ((c.tc : Thread nD τ).loc (Pipeline.arrRef spec0 w) ↦{q} g) := by
  rw [(arr_whole0 w).set_eq_univ, hq]

set_option maxHeartbeats 2000000 in
/-- ENTRY: the nine distinct buffers behind the ten windows' arrays, each whole at the full share at the entry contents,
    are the pipeline's arrays at entry: idx_emb's buffer split into two halves, one per window that reads it. -/
theorem arrays_entry0 (c : Dev nD) :
    (Pipeline.arrBufs spec0 c (V c) : sProp 𝕄) ⊢ (dat0 V c).arrays ((dat0 V c).arrAt · 0) := by
  unfold Pipeline.arrBufs Dat.arrays
  rw [bigSep_W0, bigSep_arrs0]
  rw [arr0_pt V c 0 fullShare (share0_0 V c), arr0_pt V c 1 fullShare.left (share0_1 V c), arr0_pt V c 2 fullShare.right (share0_2 V c), arr0_pt V c 3 fullShare (share0_3 V c), arr0_pt V c 4 fullShare (share0_4 V c), arr0_pt V c 5 fullShare (share0_5 V c), arr0_pt V c 6 fullShare (share0_6 V c), arr0_pt V c 7 fullShare (share0_7 V c), arr0_pt V c 8 fullShare (share0_8 V c), arr0_pt V c 9 fullShare (share0_9 V c)]
  dsimp only
  iintro ⟨H0, H1, H2, H3, H4, H5, H6, H7, H8⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- EXIT: the pipeline's arrays after the last point — every input as entered, the output at what the write-backs
    left — are the nine buffers whole at any contents that agree with the entry contents but at the output's buffer,
    where they hold the written-back array; idx_emb's two halves rejoin. -/
theorem arrays_exit0 (c : Dev nD) (V' : (b : Ref sig .tc) → Buf (Elt F) ((c : Thread nD τ).loc b))
    (hout : V' main_v12 = (dat0 V c).arrAt 9 cfg0.N) (hrest : ∀ b, b ≠ main_v12 → V' b = V c b) :
    (dat0 V c).arrays ((dat0 V c).arrAt · cfg0.N) ⊢ (Pipeline.arrBufs spec0 c V' : sProp 𝕄) := by
  unfold Pipeline.arrBufs Dat.arrays
  rw [bigSep_W0, bigSep_arrs0]
  rw [arr0_pt V c 0 fullShare (share0_0 V c), arr0_pt V c 1 fullShare.left (share0_1 V c), arr0_pt V c 2 fullShare.right (share0_2 V c), arr0_pt V c 3 fullShare (share0_3 V c), arr0_pt V c 4 fullShare (share0_4 V c), arr0_pt V c 5 fullShare (share0_5 V c), arr0_pt V c 6 fullShare (share0_6 V c), arr0_pt V c 7 fullShare (share0_7 V c), arr0_pt V c 8 fullShare (share0_8 V c), arr0_pt V c 9 fullShare (share0_9 V c)]
  dsimp only
  rw [hrest main_arg1 (by decide), hrest main_arg4 (by decide), hrest main_v1 (by decide), hrest main_v3 (by decide), hrest main_v5 (by decide), hrest main_v7 (by decide), hrest main_v9 (by decide), hrest main_v11 (by decide), hout,
    (dat0 V c).arrAt_in 0 rfl cfg0.N, (dat0 V c).arrAt_in 1 rfl cfg0.N, (dat0 V c).arrAt_in 2 rfl cfg0.N, (dat0 V c).arrAt_in 3 rfl cfg0.N, (dat0 V c).arrAt_in 4 rfl cfg0.N, (dat0 V c).arrAt_in 5 rfl cfg0.N, (dat0 V c).arrAt_in 6 rfl cfg0.N, (dat0 V c).arrAt_in 7 rfl cfg0.N, (dat0 V c).arrAt_in 8 rfl cfg0.N]
  iintro ⟨G0, G1, G2, G3, G4, G5, G6, G7, G8, G9⟩
  isplitl [G0]
  · iexact G0
  isplitl [G1 G2]
  · iapply (pointsTo_share (PosShare.mem_left_op_right fullShare)).2; isplitl [G1]; · iexact G1
    iexact G2
  isplitl [G3]
  · iexact G3
  isplitl [G4]
  · iexact G4
  isplitl [G5]
  · iexact G5
  isplitl [G6]
  · iexact G6
  isplitl [G7]
  · iexact G7
  isplitl [G8]
  · iexact G8
  iexact G9

end Cert.KernelIdeal.Hand

end
-- ==== Proof.KIRegion1.lean ====
/-
  The second pallas_call (eight grid points, one 128-row tile of adj_deriv each): the edge-wise message MLP
    out[i, j] = Σ_k relu(Σ_h relu(adj_deriv[i, j]·w_a[h] + (idx_emb w_iᵀ)[i, h] + (idx_emb w_jᵀ)[j, h] + b1[h])·W2[k, h] + b2[k])·W3[0, k] + b3[0].
  idx_emb reaches the body through two windows (the tile's rows, and the whole array), so the pipeline holds that array
  at two half shares. This module states what the body's one store puts in the output window's buffer as one function of
  the nine input blocks, proves the body's triple, and packages the pipeline's proof data and body obligation at any
  contents V the region is entered with.
-/
import proofs.«142047_j12206297055728_1_alg».proof.Proof.Gen.KernelIdeal.Launch
import proofs.«142047_j12206297055728_1_alg».proof.Proof.Gen.KernelIdeal.Skeleton
import proofs.«142047_j12206297055728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call, entered at contents `V` -/

abbrev r1_t : Rect S128x1024 := Rect.unit (s := S128x1024) ![0, 0] S128x1024.size inb_S128x1024_S128x1024_0_0
abbrev r1_e : Rect S128x64 := Rect.unit (s := S128x64) ![0, 0] S128x64.size inb_S128x64_S128x64_0_0
abbrev r1_f : Rect S1024x64 := Rect.unit (s := S1024x64) ![0, 0] S1024x64.size inb_S1024x64_S1024x64_0_0
abbrev r1_w1 : Rect S8x129 := Rect.unit (s := S8x129) ![0, 0] S8x129.size inb_S8x129_S8x129_0_0
abbrev r1_h : Rect S8 := Rect.unit (s := S8) ![0] S8.size inb_S8_S8_0
abbrev r1_w2 : Rect S8x8 := Rect.unit (s := S8x8) ![0, 0] S8x8.size inb_S8x8_S8x8_0_0
abbrev r1_w3 : Rect S1x8 := Rect.unit (s := S1x8) ![0, 0] S1x8.size inb_S1x8_S1x8_0_0
abbrev r1_s : Rect S1 := Rect.unit (s := S1) ![0] S1.size inb_S1_S1_0

/-- Window `w`'s block at grid point `t`: the part of its array, as the region finds it, that the point's index map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: at every grid point its staging buffer holds the point's block, whether the block was moved in at
    that point or is the one still there from the point before (the index map did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: at every grid point its staging buffer holds the point's block, whether the block was moved in at
    that point or is the one still there from the point before (the index map did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: at every grid point its staging buffer holds the point's block, whether the block was moved in at
    that point or is the one still there from the point before (the index map did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: at every grid point its staging buffer holds the point's block, whether the block was moved in at
    that point or is the one still there from the point before (the index map did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: at every grid point its staging buffer holds the point's block, whether the block was moved in at
    that point or is the one still there from the point before (the index map did not move). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: at every grid point its staging buffer holds the point's block, whether the block was moved in at
    that point or is the one still there from the point before (the index map did not move). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: at every grid point its staging buffer holds the point's block, whether the block was moved in at
    that point or is the one still there from the point before (the index map did not move). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: at every grid point its staging buffer holds the point's block, whether the block was moved in at
    that point or is the one still there from the point before (the index map did not move). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: at every grid point its staging buffer holds the point's block, whether the block was moved in at
    that point or is the one still there from the point before (the index map did not move). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The value the body stores, from the nine input blocks (a 128-row tile of the matrix, the tile's rows of idx_emb, all of
    idx_emb, and the MLP's W1, b1, W2, b2, W3, b3): the eight first-layer planes relu(tile·w_a[h] + row[:, h] + col[:, h] + b1[h]),
    the eight second-layer planes relu(Σ_h plane_h·W2[k, h] + b2[k]), and Σ_k plane2_k·W3[0, k] + b3[0], composed as the
    body's statements compose them. -/
def stored1 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : FVec F S128x1024 .f32 :=
  let v0 := View.ld x0 r1_t
  let v1 := View.ld x1 r1_e
  let v2 := View.ld x2 r1_f
  let v3 := View.ld x3 r1_w1
  let v5 := View.ld x4 r1_h
  let v7 := View.ld x5 r1_w2
  let v9 := View.ld x6 r1_h
  let v11 := View.ld x7 r1_w3
  let v13 := View.ld x8 r1_s
  let cst_15 : F .f32 := Scalar.ofBits .f32 0x00000000#32
  let v6 := k1_pay3 v5; let v8 := k1_pay4 v7; let v10 := k1_pay5 v9; let v12 := k1_pay6 v11; let v14 := k1_pay7 v13
  let v16 := k1_pay8 v3; let v20 := k1_pay9 v1 v3; let v22 := k1_pay10 v2 v3; let v40 := k1_pay11 v0 v1 v2 v3 v5
  let v42 := k1_pay12 v40 cst_15; let v62 := k1_pay13 v0 v6 v16 v20 v22; let v82 := k1_pay14 v0 v6 v16 v20 v22; let v96 := k1_pay15 v0 v16 v20 v22; let v98 := k1_pay16 v6
  let v102 := k1_pay17 v96 v98; let v122 := k1_pay18 v0 v6 v16 v20 v22; let v142 := k1_pay19 v0 v6 v16 v20 v22; let v151 := k1_pay20 v0 v16 v20; let v155 := k1_pay21 v22
  let v162 := k1_pay22 v6 v151 v155; let v182 := k1_pay23 v0 v6 v16 v20 v22; let v211 := k1_pay24 v8 v42 v62 v82 v102 v122 v142; let v213 := k1_pay25 v8
  let v227 := k1_pay26 v8 v10 v162 v182 v211 v213; let v270 := k1_pay27 v8 v10 v42 v62 v82 v102 v122 v142 v162 v182; let v271 : FVec F S128x1024 .f32 := k1_pay28 (F := F)
  let v272 := k1_pay29 v270 v271; let v317 := k1_pay30 v8 v10 v42 v62 v82 v102 v122 v142 v162 v182; let v326 := k1_pay31 v8 v42 v62; let v330 := k1_pay32 v8 v82
  let v362 := k1_pay33 v8 v10 v102 v122 v142 v162 v182 v326 v330; let v386 := k1_pay34 v8 v42 v62 v82 v102 v122; let v389 := k1_pay35 v8
  let v407 := k1_pay36 v8 v10 v142 v162 v182 v386 v389; let v446 := k1_pay37 v8 v42 v62 v82 v102 v122 v142 v162 v182; let v448 := k1_pay38 v10
  let v452 := k1_pay39 v446 v448; let v497 := k1_pay40 v8 v10 v42 v62 v82 v102 v122 v142 v162 v182; let v506 := k1_pay41 v8 v42 v62
  let v542 := k1_pay42 v8 v10 v82 v102 v122 v142 v162 v182 v506; let v561 := k1_pay43 v12 v227 v272 v317 v362; let v565 := k1_pay44 v12 v407
  k1_pay1 v12 v14 v452 v497 v542 v561 v565

/-- The output window's staging buffer after the body: the one store, over the whole buffer, of the stored value. -/
def out1_9 (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) : Vec F S128x1024 .f32 :=
  View.canon [⟨r1_t, stored1 x0 x1 x2 x3 x4 x5 x6 x7 x8⟩]

/-- The one store's rectangle is the whole buffer, so it covers every index. -/
theorem cover1_9 (p0 : Vec F S128x1024 .f32) (y : S128x1024.Idx) :
    ∃ pc ∈ ([⟨r1_t, p0⟩] : List (View.Piece (Elt F) S128x1024 .f32)), y ∈ pc.1.set :=
  View.cover_of_tiled [⟨r1_t, p0⟩] S128x1024.size (by rfl) y

/-! ## The body's triple -/

set_option maxHeartbeats 2000000 in
/-- On whole staging buffers, the inputs' at contents `x0 …` and the output's at anything, the body runs to its return
    leaving the inputs' as they were and the output's at `out1_9` of the inputs'. -/
theorem sound_kernel1 (c : Dev nD) (E : Set ℕ) (i : grid1.Coords) (arg1 : Memref sig .tc .vmem S128x1024 .f32) (harg1 : arg1.IsWhole) (arg2 : Memref sig .tc .vmem S128x64 .f32) (harg2 : arg2.IsWhole) (arg3 : Memref sig .tc .vmem S1024x64 .f32) (harg3 : arg3.IsWhole) (arg4 : Memref sig .tc .vmem S8x129 .f32) (harg4 : arg4.IsWhole) (arg5 : Memref sig .tc .vmem S8 .f32) (harg5 : arg5.IsWhole) (arg6 : Memref sig .tc .vmem S8x8 .f32) (harg6 : arg6.IsWhole) (arg7 : Memref sig .tc .vmem S8 .f32) (harg7 : arg7.IsWhole) (arg8 : Memref sig .tc .vmem S1x8 .f32) (harg8 : arg8.IsWhole) (arg9 : Memref sig .tc .vmem S1 .f32) (harg9 : arg9.IsWhole) (arg10 : Memref sig .tc .vmem S128x1024 .f32) (harg10 : arg10.IsWhole)
    (x0 : Vec F S128x1024 .f32) (x1 : Vec F S128x64 .f32) (x2 : Vec F S1024x64 .f32) (x3 : Vec F S8x129 .f32) (x4 : Vec F S8 .f32) (x5 : Vec F S8x8 .f32) (x6 : Vec F S8 .f32) (x7 : Vec F S1x8 .f32) (x8 : Vec F S1 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ Kc ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) Kc := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of this pallas_call on core `c`: the arrays as the region finds them; after the body at point `t` each
    input's buffer still at its block and the output's at `out1_9` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays at entry and at exit: idx_emb is held through two windows, at half shares -/

/-- Each window's share of its array: the two windows on idx_emb hold a half each, every other input and the output all of it. -/
theorem share1_0 (c : Dev nD) : (dat1 V c).share 0 = fullShare := by unfold Dat.share; rw [if_neg (by decide)]; dsimp only [dat1]; rfl
theorem share1_1 (c : Dev nD) : (dat1 V c).share 1 = fullShare.left := by unfold Dat.share; rw [if_neg (by decide)]; dsimp only [dat1]; rfl
theorem share1_2 (c : Dev nD) : (dat1 V c).share 2 = fullShare.right := by unfold Dat.share; rw [if_neg (by decide)]; dsimp only [dat1]; rfl
theorem share1_3 (c : Dev nD) : (dat1 V c).share 3 = fullShare := by unfold Dat.share; rw [if_neg (by decide)]; dsimp only [dat1]; rfl
theorem share1_4 (c : Dev nD) : (dat1 V c).share 4 = fullShare := by unfold Dat.share; rw [if_neg (by decide)]; dsimp only [dat1]; rfl
theorem share1_5 (c : Dev nD) : (dat1 V c).share 5 = fullShare := by unfold Dat.share; rw [if_neg (by decide)]; dsimp only [dat1]; rfl
theorem share1_6 (c : Dev nD) : (dat1 V c).share 6 = fullShare := by unfold Dat.share; rw [if_neg (by decide)]; dsimp only [dat1]; rfl
theorem share1_7 (c : Dev nD) : (dat1 V c).share 7 = fullShare := by unfold Dat.share; rw [if_neg (by decide)]; dsimp only [dat1]; rfl
theorem share1_8 (c : Dev nD) : (dat1 V c).share 8 = fullShare := by unfold Dat.share; rw [if_neg (by decide)]; dsimp only [dat1]; rfl
theorem share1_9 (c : Dev nD) : (dat1 V c).share 9 = fullShare := by unfold Dat.share; rw [if_pos (by decide)]

/-- The buffers behind the windows' arrays, one by one: nine distinct buffers behind ten windows. -/
theorem bigSep_arrs1 {M : Type} [URA M] (Φ : Ref sig .tc → sProp M) :
    bigSep (Finset.univ.image (Pipeline.arrRef spec1)) Φ = iprop(Φ main_arg2 ∗ Φ main_arg4 ∗ Φ main_v14 ∗ Φ main_v16 ∗ Φ main_v18 ∗ Φ main_v20 ∗ Φ main_v22 ∗ Φ main_v24 ∗ Φ main_v25) :=
  bigSep_eq_bigSepL_of_eq [main_arg2, main_arg4, main_v14, main_v16, main_v18, main_v20, main_v22, main_v24, main_v25] (by decide) (by decide) Φ

/-- A window's array, held through its view at the window's share, is the buffer behind it held whole at that share. -/
theorem arr1_pt (c : Dev nD) (w : Fin cfg1.W) (q : PosShare TreeShare) (hq : (dat1 V c).share w = q)
    (g : Buf (Elt F) ((cfg1.win w).arr.view.loc (c.tc : Thread nD τ))) :
    ((cfg1.win w).arr.view.loc (c.tc : Thread nD τ) ↦[(cfg1.win w).arr.view.set]{(dat1 V c).share w} g : sProp 𝕄)
      = ((c.tc : Thread nD τ).loc (Pipeline.arrRef spec1 w) ↦{q} g) := by
  rw [(arr_whole1 w).set_eq_univ, hq]

set_option maxHeartbeats 2000000 in
/-- ENTRY: the nine distinct buffers behind the ten windows' arrays, each whole at the full share at the entry contents,
    are the pipeline's arrays at entry: idx_emb's buffer split into two halves, one per window that reads it. -/
theorem arrays_entry1 (c : Dev nD) :
    (Pipeline.arrBufs spec1 c (V c) : sProp 𝕄) ⊢ (dat1 V c).arrays ((dat1 V c).arrAt · 0) := by
  unfold Pipeline.arrBufs Dat.arrays
  rw [bigSep_W1, bigSep_arrs1]
  rw [arr1_pt V c 0 fullShare (share1_0 V c), arr1_pt V c 1 fullShare.left (share1_1 V c), arr1_pt V c 2 fullShare.right (share1_2 V c), arr1_pt V c 3 fullShare (share1_3 V c), arr1_pt V c 4 fullShare (share1_4 V c), arr1_pt V c 5 fullShare (share1_5 V c), arr1_pt V c 6 fullShare (share1_6 V c), arr1_pt V c 7 fullShare (share1_7 V c), arr1_pt V c 8 fullShare (share1_8 V c), arr1_pt V c 9 fullShare (share1_9 V c)]
  dsimp only
  iintro ⟨H0, H1, H2, H3, H4, H5, H6, H7, H8⟩
  ihave Hs := (pointsTo_share (PosShare.mem_left_op_right fullShare)).1 $$ H1
  icases Hs with ⟨Hl, Hr⟩
  isplitl [H0]; · iexact H0
  isplitl [Hl]; · iexact Hl
  isplitl [Hr]; · iexact Hr
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- EXIT: the pipeline's arrays after the last point — every input as entered, the output at what the write-backs
    left — are the nine buffers whole at any contents that agree with the entry contents but at the output's buffer,
    where they hold the written-back array; idx_emb's two halves rejoin. -/
theorem arrays_exit1 (c : Dev nD) (V' : (b : Ref sig .tc) → Buf (Elt F) ((c : Thread nD τ).loc b))
    (hout : V' main_v25 = (dat1 V c).arrAt 9 cfg1.N) (hrest : ∀ b, b ≠ main_v25 → V' b = V c b) :
    (dat1 V c).arrays ((dat1 V c).arrAt · cfg1.N) ⊢ (Pipeline.arrBufs spec1 c V' : sProp 𝕄) := by
  unfold Pipeline.arrBufs Dat.arrays
  rw [bigSep_W1, bigSep_arrs1]
  rw [arr1_pt V c 0 fullShare (share1_0 V c), arr1_pt V c 1 fullShare.left (share1_1 V c), arr1_pt V c 2 fullShare.right (share1_2 V c), arr1_pt V c 3 fullShare (share1_3 V c), arr1_pt V c 4 fullShare (share1_4 V c), arr1_pt V c 5 fullShare (share1_5 V c), arr1_pt V c 6 fullShare (share1_6 V c), arr1_pt V c 7 fullShare (share1_7 V c), arr1_pt V c 8 fullShare (share1_8 V c), arr1_pt V c 9 fullShare (share1_9 V c)]
  dsimp only
  rw [hrest main_arg2 (by decide), hrest main_arg4 (by decide), hrest main_v14 (by decide), hrest main_v16 (by decide), hrest main_v18 (by decide), hrest main_v20 (by decide), hrest main_v22 (by decide), hrest main_v24 (by decide), hout,
    (dat1 V c).arrAt_in 0 rfl cfg1.N, (dat1 V c).arrAt_in 1 rfl cfg1.N, (dat1 V c).arrAt_in 2 rfl cfg1.N, (dat1 V c).arrAt_in 3 rfl cfg1.N, (dat1 V c).arrAt_in 4 rfl cfg1.N, (dat1 V c).arrAt_in 5 rfl cfg1.N, (dat1 V c).arrAt_in 6 rfl cfg1.N, (dat1 V c).arrAt_in 7 rfl cfg1.N, (dat1 V c).arrAt_in 8 rfl cfg1.N]
  iintro ⟨G0, G1, G2, G3, G4, G5, G6, G7, G8, G9⟩
  isplitl [G0]
  · iexact G0
  isplitl [G1 G2]
  · iapply (pointsTo_share (PosShare.mem_left_op_right fullShare)).2; isplitl [G1]; · iexact G1
    iexact G2
  isplitl [G3]
  · iexact G3
  isplitl [G4]
  · iexact G4
  isplitl [G5]
  · iexact G5
  isplitl [G6]
  · iexact G6
  isplitl [G7]
  · iexact G7
  isplitl [G8]
  · iexact G8
  iexact G9

end Cert.KernelIdeal.Hand

end
-- ==== Proof.KIRegion2.lean ====
/-
  The third pallas_call (one grid point): three graph layers over the two message matrices a, ad and the
  features x, then the column means of t_grad as row scales. With every operand resident,
    x ← relu?( (a x) W₀ + (aᵀ x) W₁ + (ad x) W₂ + (adᵀ x) W₃ + x W₄ + b )   (three times, no relu the last time),
    out[i, j] = (Σ_r t_grad[r, i] / 1024) · x[i, j].
  This module states what the body's one store puts in the output window's buffer, as one function of the six input
  blocks, proves the body's triple, and packages the pipeline's proof data and body obligation at any contents V the
  region is entered with.
-/
import proofs.«142047_j12206297055728_1_alg».proof.Proof.Gen.KernelIdeal.Launch
import proofs.«142047_j12206297055728_1_alg».proof.Proof.Gen.KernelIdeal.Skeleton
import proofs.«142047_j12206297055728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call, entered at contents `V` -/

abbrev r2_nn : Rect S1024x1024 := Rect.unit (s := S1024x1024) ![0, 0] S1024x1024.size inb_S1024x1024_S1024x1024_0_0
abbrev r2_nd : Rect S1024x64 := Rect.unit (s := S1024x64) ![0, 0] S1024x64.size inb_S1024x64_S1024x64_0_0
abbrev r2_w : Rect S3x5x64x64 := Rect.unit (s := S3x5x64x64) ![0, 0, 0, 0] S3x5x64x64.size inb_S3x5x64x64_S3x5x64x64_0_0_0_0
abbrev r2_b : Rect S3x64 := Rect.unit (s := S3x64) ![0, 0] S3x64.size inb_S3x64_S3x64_0_0

/-- Window `w`'s block at grid point `t`: the part of its array, as the region finds it, that the point's index map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point its staging buffer holds the point's block, whether the block was moved in at
    that point or is the one still there from the point before (the index map did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point its staging buffer holds the point's block, whether the block was moved in at
    that point or is the one still there from the point before (the index map did not move). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point its staging buffer holds the point's block, whether the block was moved in at
    that point or is the one still there from the point before (the index map did not move). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point its staging buffer holds the point's block, whether the block was moved in at
    that point or is the one still there from the point before (the index map did not move). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point its staging buffer holds the point's block, whether the block was moved in at
    that point or is the one still there from the point before (the index map did not move). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every grid point its staging buffer holds the point's block, whether the block was moved in at
    that point or is the one still there from the point before (the index map did not move). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body stores -/

/-- The value the body stores, from the six input blocks (a, ad, x, t_grad, the layer weights, the layer biases): the
    first layer's pre-activation and bias row, then the second layer, the third layer's operands, and the final scaling. -/
def stored2 (x0 x1 : Vec F S1024x1024 .f32) (x2 : Vec F S1024x64 .f32) (x3 : Vec F S1024x1024 .f32) (x4 : Vec F S3x5x64x64 .f32) (x5 : Vec F S3x64 .f32) : FVec F S1024x64 .f32 :=
  let v0 := View.ld x0 r2_nn
  let v2 := View.ld x1 r2_nn
  let v4 := View.ld x2 r2_nd
  let v5 := View.ld x3 r2_nn
  let v6 := View.ld x4 r2_w
  let v7 := View.ld x5 r2_b
  let v1 := k2_pay2 v0
  let v3 := k2_pay3 v2
  let v34 := k2_pay4 v0 v2 v4 v6
  let v35 := k2_pay5 v7
  k2_pay1 v5 (k2_pay6 v1 v3 v6 v7 v34 v35) (k2_pay7 v6) (k2_pay8 v7) (k2_pay9 v1 v3 v6 v7 v34 v35) (k2_pay10 v1 v3 v6 v7 v34 v35)
    (k2_pay11 v1 v3 v6 v7 v34 v35) (k2_pay12 v1 v3 v6 v7 v34 v35) (k2_pay13 v6)

/-- The output window's staging buffer after the body: the one store, over the whole buffer, of the stored value. -/
def out2_6 (x0 : Vec F S1024x1024 .f32) (x1 : Vec F S1024x1024 .f32) (x2 : Vec F S1024x64 .f32) (x3 : Vec F S1024x1024 .f32) (x4 : Vec F S3x5x64x64 .f32) (x5 : Vec F S3x64 .f32) : Vec F S1024x64 .f32 :=
  View.canon [⟨r2_nd, stored2 x0 x1 x2 x3 x4 x5⟩]

/-- The one store's rectangle is the whole buffer, so it covers every index. -/
theorem cover2_6 (p0 : Vec F S1024x64 .f32) (y : S1024x64.Idx) :
    ∃ pc ∈ ([⟨r2_nd, p0⟩] : List (View.Piece (Elt F) S1024x64 .f32)), y ∈ pc.1.set :=
  View.cover_of_tiled [⟨r2_nd, p0⟩] S1024x64.size (by rfl) y

/-! ## The body's triple -/

set_option maxHeartbeats 2000000 in
/-- On whole staging buffers, the inputs' at contents `x0 …` and the output's at anything, the body runs to its return
    leaving the inputs' as they were and the output's at `out2_6` of the inputs'. -/
theorem sound_kernel2 (c : Dev nD) (E : Set ℕ) (i : grid2.Coords) (arg1 : Memref sig .tc .vmem S1024x1024 .f32) (harg1 : arg1.IsWhole) (arg2 : Memref sig .tc .vmem S1024x1024 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S3x5x64x64 .f32) (harg5 : arg5.IsWhole) (arg6 : Memref sig .tc .vmem S3x64 .f32) (harg6 : arg6.IsWhole) (arg7 : Memref sig .tc .vmem S1024x64 .f32) (harg7 : arg7.IsWhole)
    (x0 : Vec F S1024x1024 .f32) (x1 : Vec F S1024x1024 .f32) (x2 : Vec F S1024x64 .f32) (x3 : Vec F S1024x1024 .f32) (x4 : Vec F S3x5x64x64 .f32) (x5 : Vec F S3x64 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ Kc ⟨⟩))
      ⊢ wp frame (wpE (defs₀ (F := F)) Variants.none c none) E (cc2_kernel i arg1 harg1 arg2 harg2 arg3 harg3 arg4 harg4 arg5 harg5 arg6 harg6 arg7 harg7) Kc := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of this pallas_call on core `c`: the arrays as the region finds them; after the body at point `t` each
    input's buffer still at its block and the output's at `out2_6` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The whole program: @main is twelve host operations (slicing the first MLP's parameters out of the stacked arrays), the
  first pallas_call, twelve more host operations (the second MLP's parameters), the second pallas_call, the third. The
  contents of the unscoped buffers are followed from the launch through these five segments: a host stretch applies its
  operations; a pallas_call changes only its output array, which ends at what the pipeline's write-backs leave. Every
  weakly fair execution terminates with every unscoped buffer at the last of these contents; hence the arguments end as
  launched (no segment writes one), and the result array ends at the third call's written-back output.
-/
import proofs.«142047_j12206297055728_1_alg».proof.Proof.Gen.KernelIdeal.Launch
import proofs.«142047_j12206297055728_1_alg».proof.Proof.Gen.KernelIdeal.Skeleton
import proofs.«142047_j12206297055728_1_alg».proof.Proof.Gen.KernelIdeal.Points
import proofs.«142047_j12206297055728_1_alg».proof.Proof.KIRegion0
import proofs.«142047_j12206297055728_1_alg».proof.Proof.KIRegion1
import proofs.«142047_j12206297055728_1_alg».proof.Proof.KIRegion2
import proofs.«142047_j12206297055728_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first twelve host operations. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the first pallas_call: its output array at what the write-backs leave, every other buffer as entered. -/
def W2 (c : Dev nD) : Valuation τ sig (Elt F) :=
  Function.update (W1 m ρ c) (Proc.devRef .tc main_v12) ((dat0 (E1 m ρ) c).arrAt 9 cfg0.N)
theorem W2_out (c : Dev nD) : W2 m ρ c (Proc.devRef .tc main_v12) = (dat0 (E1 m ρ) c).arrAt 9 cfg0.N := by
  unfold W2; exact Function.update_self ..
theorem W2_of_ne (c : Dev nD) (b : Ref sig .tc) (hb : b ≠ main_v12) : W2 m ρ c (Proc.devRef .tc b) = W1 m ρ c (Proc.devRef .tc b) := by
  unfold W2; exact Function.update_of_ne (StableHlo.devRef_ne_of_ne hb) ..
abbrev E2 : (c : Dev nD) → (b : Ref sig .tc) → Buf (Elt F) ((c : Thread nD τ).loc b) := fun c b => W2 m ρ c b
/-- After the second twelve host operations. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- After the second pallas_call. -/
def W4 (c : Dev nD) : Valuation τ sig (Elt F) :=
  Function.update (W3 m ρ c) (Proc.devRef .tc main_v25) ((dat1 (E3 m ρ) c).arrAt 9 cfg1.N)
theorem W4_out (c : Dev nD) : W4 m ρ c (Proc.devRef .tc main_v25) = (dat1 (E3 m ρ) c).arrAt 9 cfg1.N := by
  unfold W4; exact Function.update_self ..
theorem W4_of_ne (c : Dev nD) (b : Ref sig .tc) (hb : b ≠ main_v25) : W4 m ρ c (Proc.devRef .tc b) = W3 m ρ c (Proc.devRef .tc b) := by
  unfold W4; exact Function.update_of_ne (StableHlo.devRef_ne_of_ne hb) ..
abbrev E4 : (c : Dev nD) → (b : Ref sig .tc) → Buf (Elt F) ((c : Thread nD τ).loc b) := fun c b => W4 m ρ c b
/-- After the third pallas_call. -/
def W5 (c : Dev nD) : Valuation τ sig (Elt F) :=
  Function.update (W4 m ρ c) (Proc.devRef .tc main_v26) ((dat2 (E4 m ρ) c).arrAt 6 cfg2.N)
theorem W5_out (c : Dev nD) : W5 m ρ c (Proc.devRef .tc main_v26) = (dat2 (E4 m ρ) c).arrAt 6 cfg2.N := by
  unfold W5; exact Function.update_self ..
theorem W5_of_ne (c : Dev nD) (b : Ref sig .tc) (hb : b ≠ main_v26) : W5 m ρ c (Proc.devRef .tc b) = W4 m ρ c (Proc.devRef .tc b) := by
  unfold W5; exact Function.update_of_ne (StableHlo.devRef_ne_of_ne hb) ..
abbrev E5 : (c : Dev nD) → (b : Ref sig .tc) → Buf (Elt F) ((c : Thread nD τ).loc b) := fun c b => W5 m ρ c b

/-- A buffer no host operation writes and no pallas_call has as its output ends as launched. -/
theorem W5_kept (c : Dev nD) (r : Ref sig .tc) (h0 : r ∉ hostOps0_W) (h1 : r ∉ hostOps1_W)
    (h2 : r ≠ main_v12) (h4 : r ≠ main_v25) (h5 : r ≠ main_v26) :
    W5 m ρ c (Proc.devRef .tc r) = m ((c : Thread nD τ).loc r) :=
  calc W5 m ρ c (Proc.devRef .tc r)
    _ = W4 m ρ c (Proc.devRef .tc r) := W5_of_ne m ρ c r h5
    _ = W3 m ρ c (Proc.devRef .tc r) := W4_of_ne m ρ c r h4
    _ = W2 m ρ c (Proc.devRef .tc r) := StableHlo.after_of_writes_sub hostOps1 _ hostOps1_writes h1
    _ = W1 m ρ c (Proc.devRef .tc r) := W2_of_ne m ρ c r h2
    _ = W0 m ρ c (Proc.devRef .tc r) := StableHlo.after_of_writes_sub hostOps0 _ hostOps0_writes h0
    _ = m ((c : Thread nD τ).loc r) := rfl

/-- The third call's arrays after its one point, and every other buffer, against the contents after it. -/
theorem hF2 (c : Dev nD) : ∀ w : Fin cfg2.W, (dat2 (E4 m ρ) c).arrAt w cfg2.N = E5 m ρ c (Pipeline.arrRef spec2 w) := fun w =>
  match w with
  | ⟨0, _⟩ => ((dat2 (E4 m ρ) c).arrAt_in 0 rfl _).trans ((A_eq2 (E4 m ρ) c 0).trans (W5_of_ne m ρ c main_v12 (by decide)).symm)
  | ⟨1, _⟩ => ((dat2 (E4 m ρ) c).arrAt_in 1 rfl _).trans ((A_eq2 (E4 m ρ) c 1).trans (W5_of_ne m ρ c main_v25 (by decide)).symm)
  | ⟨2, _⟩ => ((dat2 (E4 m ρ) c).arrAt_in 2 rfl _).trans ((A_eq2 (E4 m ρ) c 2).trans (W5_of_ne m ρ c main_arg0 (by decide)).symm)
  | ⟨3, _⟩ => ((dat2 (E4 m ρ) c).arrAt_in 3 rfl _).trans ((A_eq2 (E4 m ρ) c 3).trans (W5_of_ne m ρ c main_arg3 (by decide)).symm)
  | ⟨4, _⟩ => ((dat2 (E4 m ρ) c).arrAt_in 4 rfl _).trans ((A_eq2 (E4 m ρ) c 4).trans (W5_of_ne m ρ c main_arg11 (by decide)).symm)
  | ⟨5, _⟩ => ((dat2 (E4 m ρ) c).arrAt_in 5 rfl _).trans ((A_eq2 (E4 m ρ) c 5).trans (W5_of_ne m ρ c main_arg12 (by decide)).symm)
  | ⟨6, _⟩ => (W5_out m ρ c).symm
theorem hrest2 (c : Dev nD) : ∀ b, b ∉ Finset.univ.image (Pipeline.arrRef spec2) → E5 m ρ c b = E4 m ρ c b :=
  fun b hb => W5_of_ne m ρ c b fun e => hb (e ▸ Finset.mem_image.mpr ⟨6, Finset.mem_univ _, rfl⟩)

/-! ## The proof data family and the thread state -/

/-- Every pallas_call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E4 m ρ) c
abbrev Vn : Variants := Variants.none
/-- No core owes another anything: no level is assigned. -/
abbrev Lv0 : GSem nD τ sig → Finset Unit := fun _ => ∅
abbrev lv0 : GSem nD τ sig → Unit → ℕ := fun _ _ => 0
/-- What rides beside the buffers through every segment: the core's generator register at some state and its `owes`, at nothing. -/
abbrev Rst (c : Dev nD) : sProp 𝕄 := iprop((∃ r, prngReg c r) ∗ ∃ W, owes (c : Thread nD τ) (0 : CellTallies nD τ sig Unit) W)
/-- A host stretch as a segment over the unscoped buffers from contents `W`, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the `owes`. -/
abbrev Tlast (c : Dev nD) : sProp 𝕄 := iprop(StableHlo.held (c : Thread nD τ) (Pipeline.ucRefs τ sig) (W5 m ρ c) ∗ ∃ r, prngReg c r)

/-! ## The pallas_calls as segments -/

-- a library lemma stated over the pinned configuration unifies with the printed one only when unification may unfold
-- plain definitions in a metavariable's type
set_option backward.isDefEq.respectTransparency.types false in
/-- The first pallas_call as a segment: entered with every unscoped buffer at `W1`, left with them at `W2`. Its nine
    array buffers are split out of the unscoped buffers at entry (idx_emb's into two halves) and put back at exit; the
    generator register passes through the body's invariant; nothing is owed; the kernel has no semaphore of its own. -/
def reg0 : Pipeline.RegionSeg (pcfgs (F := F)) adm (pdats m ρ) () defs₀ Vn Lv0 lv0 0 where
  win := winFacts₀0
  block_pos := block_pos0
  stage_whole := stage_whole0
  K := PEmpty
  osem k := k.elim
  ho := Pipeline.OwnSemFacts.none _
  hbody c := (body_obligation0 (E1 m ρ) c).loose
  hwaits := Pipeline.hwaits_of_owed_zero _ _ _ _ Lv0 lv0 0 fun _ _ => rfl
  pre c := iprop(StableHlo.held (c : Thread nD τ) (Pipeline.ucRefs τ sig) (W1 m ρ c) ∗ Rst c)
  post c := iprop(StableHlo.held (c : Thread nD τ) (Pipeline.ucRefs τ sig) (W2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0) ∗ Pipeline.unscopedRest spec0 c (E1 m ρ c)) := by
      rw [← Pipeline.unscopedBufs_held c (W1 m ρ c), Pipeline.unscopedBufs_split₀ cfgs 0 winFacts₀0.arr_unscoped c (E1 m ρ c)]
      exact sep_mono (arrays_entry0 (E1 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (E1 m ρ c))
        ⊢ (StableHlo.held (c : Thread nD τ) (Pipeline.ucRefs τ sig) (W2 m ρ c) : sProp 𝕄) := by
      rw [← Pipeline.unscopedBufs_held c (W2 m ρ c), Pipeline.unscopedBufs_split₀ cfgs 0 winFacts₀0.arr_unscoped c (E2 m ρ c)]
      refine sep_mono (arrays_exit0 (E1 m ρ) c (E2 m ρ c) (W2_out m ρ c) (fun b hb => W2_of_ne m ρ c b hb)) (Entails.of_eq ?_)
      unfold Pipeline.unscopedRest
      exact bigSep_congr fun b hb => by
        rw [show E2 m ρ c b = E1 m ρ c b from W2_of_ne m ρ c b fun e =>
          (Finset.mem_sdiff.mp hb).2 (e ▸ Finset.mem_image.mpr ⟨9, Finset.mem_univ _, rfl⟩)]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered with every unscoped buffer at `W3`, left with them at `W4`. Its nine
    array buffers are split out of the unscoped buffers at entry (idx_emb's into two halves) and put back at exit; the
    generator register passes through the body's invariant; nothing is owed; the kernel has no semaphore of its own. -/
def reg1 : Pipeline.RegionSeg (pcfgs (F := F)) adm (pdats m ρ) () defs₀ Vn Lv0 lv0 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ Lv0 lv0 1 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit : (StableHlo.held (c : Thread nD τ) (Pipeline.ucRefs τ sig) (W3 m ρ c) : sProp 𝕄)
        ⊢ iprop((pdats m ρ 1 c).arrays ((pdats m ρ 1 c).arrAt · 0) ∗ Pipeline.unscopedRest spec1 c (E3 m ρ c)) := by
      rw [← Pipeline.unscopedBufs_held c (W3 m ρ c), Pipeline.unscopedBufs_split₀ cfgs 1 winFacts₀1.arr_unscoped c (E3 m ρ c)]
      exact sep_mono (arrays_entry1 (E3 m ρ) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E3 m ρ c))
        ⊢ (StableHlo.held (c : Thread nD τ) (Pipeline.ucRefs τ sig) (W4 m ρ c) : sProp 𝕄) := by
      rw [← Pipeline.unscopedBufs_held c (W4 m ρ c), Pipeline.unscopedBufs_split₀ cfgs 1 winFacts₀1.arr_unscoped c (E4 m ρ c)]
      refine sep_mono (arrays_exit1 (E3 m ρ) c (E4 m ρ c) (W4_out m ρ c) (fun b hb => W4_of_ne m ρ c b hb)) (Entails.of_eq ?_)
      unfold Pipeline.unscopedRest
      exact bigSep_congr fun b hb => by
        rw [show E4 m ρ c b = E3 m ρ c b from W4_of_ne m ρ c b fun e =>
          (Finset.mem_sdiff.mp hb).2 (e ▸ Finset.mem_image.mpr ⟨9, Finset.mem_univ _, rfl⟩)]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third pallas_call as a segment: its seven arrays are distinct buffers, split out of the unscoped buffers at entry and
    put back at the contents after it at exit. -/
def reg2 : Pipeline.RegionSeg (pcfgs (F := F)) adm (pdats m ρ) () defs₀ Vn Lv0 lv0 2 where
  win := launch2.win.to₀
  block_pos := launch2.block_pos
  stage_whole := launch2.stage_whole
  K := PEmpty
  osem k := k.elim
  ho := Pipeline.OwnSemFacts.none _
  hbody c := (body_obligation2 (E4 m ρ) c).loose
  hwaits := Pipeline.hwaits_of_owed_zero _ _ _ _ Lv0 lv0 2 fun _ _ => rfl
  pre c := iprop(StableHlo.held (c : Thread nD τ) (Pipeline.ucRefs τ sig) (W4 m ρ c) ∗ Rst c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) adm (pdats m ρ) () defs₀ Vn Lv0 lv0) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- @main is the run of the segments. -/
theorem main_run (c : Dev nD) : main (F := F) c = Pipeline.Seg.run (mainSegs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main terminates, nothing faulting, and in
    every final state each core's unscoped buffers hold the contents after the last segment. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ Vn Lv0 lv0 m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tlast m ρ)
    (hch := ⟨fun _ => .rfl, fun _ => .rfl, fun _ => .rfl, fun _ => .rfl, fun _ => .rfl, fun _ => .rfl⟩)
    (hinit := by
      refine Pipeline.initEach Lv0 lv0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_kept m ρ c main_arg0 (by decide) (by decide) (by decide) (by decide) (by decide)),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide)),
     (h c _ (mem_uc main_arg4 (by decide))).trans (W5_kept m ρ c main_arg4 (by decide) (by decide) (by decide) (by decide) (by decide)),
     (h c _ (mem_uc main_arg5 (by decide))).trans (W5_kept m ρ c main_arg5 (by decide) (by decide) (by decide) (by decide) (by decide)),
     (h c _ (mem_uc main_arg6 (by decide))).trans (W5_kept m ρ c main_arg6 (by decide) (by decide) (by decide) (by decide) (by decide)),
     (h c _ (mem_uc main_arg7 (by decide))).trans (W5_kept m ρ c main_arg7 (by decide) (by decide) (by decide) (by decide) (by decide)),
     (h c _ (mem_uc main_arg8 (by decide))).trans (W5_kept m ρ c main_arg8 (by decide) (by decide) (by decide) (by decide) (by decide)),
     (h c _ (mem_uc main_arg9 (by decide))).trans (W5_kept m ρ c main_arg9 (by decide) (by decide) (by decide) (by decide) (by decide)),
     (h c _ (mem_uc main_arg10 (by decide))).trans (W5_kept m ρ c main_arg10 (by decide) (by decide) (by decide) (by decide) (by decide)),
     (h c _ (mem_uc main_arg11 (by decide))).trans (W5_kept m ρ c main_arg11 (by decide) (by decide) (by decide) (by decide) (by decide)),
     (h c _ (mem_uc main_arg12 (by decide))).trans (W5_kept m ρ c main_arg12 (by decide) (by decide) (by decide) (by decide) (by decide))⟩)
    (run_all m ρ)

/-- THE RESULT: the result array ends at the third pallas_call's output array after its write-back, and every argument array
    ends holding its launch contents. -/
theorem result_run : θ_run defs (onTc (τ := τ) (main (F := F))) ⟨m, fun _ => 0, ρ⟩ (fun r => ∀ c : Dev nD,
      r.2.mem ((c.tc : Thread nD τ).loc main_v26) = (dat2 (E4 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v26 (by decide))).trans (W5_out m ρ c),
     (h c _ (mem_uc main_arg0 (by decide))).trans (W5_kept m ρ c main_arg0 (by decide) (by decide) (by decide) (by decide) (by decide)),
     (h c _ (mem_uc main_arg1 (by decide))).trans (W5_kept m ρ c main_arg1 (by decide) (by decide) (by decide) (by decide) (by decide)),
     (h c _ (mem_uc main_arg2 (by decide))).trans (W5_kept m ρ c main_arg2 (by decide) (by decide) (by decide) (by decide) (by decide)),
     (h c _ (mem_uc main_arg3 (by decide))).trans (W5_kept m ρ c main_arg3 (by decide) (by decide) (by decide) (by decide) (by decide)),
     (h c _ (mem_uc main_arg4 (by decide))).trans (W5_kept m ρ c main_arg4 (by decide) (by decide) (by decide) (by decide) (by decide)),
     (h c _ (mem_uc main_arg5 (by decide))).trans (W5_kept m ρ c main_arg5 (by decide) (by decide) (by decide) (by decide) (by decide)),
     (h c _ (mem_uc main_arg6 (by decide))).trans (W5_kept m ρ c main_arg6 (by decide) (by decide) (by decide) (by decide) (by decide)),
     (h c _ (mem_uc main_arg7 (by decide))).trans (W5_kept m ρ c main_arg7 (by decide) (by decide) (by decide) (by decide) (by decide)),
     (h c _ (mem_uc main_arg8 (by decide))).trans (W5_kept m ρ c main_arg8 (by decide) (by decide) (by decide) (by decide) (by decide)),
     (h c _ (mem_uc main_arg9 (by decide))).trans (W5_kept m ρ c main_arg9 (by decide) (by decide) (by decide) (by decide) (by decide)),
     (h c _ (mem_uc main_arg10 (by decide))).trans (W5_kept m ρ c main_arg10 (by decide) (by decide) (by decide) (by decide) (by decide)),
     (h c _ (mem_uc main_arg11 (by decide))).trans (W5_kept m ρ c main_arg11 (by decide) (by decide) (by decide) (by decide) (by decide)),
     (h c _ (mem_uc main_arg12 (by decide))).trans (W5_kept m ρ c main_arg12 (by decide) (by decide) (by decide) (by decide) (by decide))⟩)
    (run_all m ρ)

end Cert.KernelIdeal.Hand

end
-- ==== Proof.KIParams.lean ====
/-
  What the idealized kernel program's host operations leave for the pallas_calls to read: the arguments, which no segment
  writes, and the two MLPs' parameters, cut out of the stacked arrays by slices and reshapes that are, operation for
  operation, the reference's own.
-/
import proofs.«142047_j12206297055728_1_alg».proof.Proof.KIRun
import proofs.«142047_j12206297055728_1_alg».proof.Proof.RefReadP
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen
open Cert.ReferenceIdeal.ReadP (val_main_v1 val_main_v3 val_main_v5 val_main_v7 val_main_v9 val_main_v11 val_main_v46 val_main_v48 val_main_v50 val_main_v52 val_main_v54 val_main_v56)

variable (m : (ℓ : Loc nD τ sig) → Buf (Elt Ideal) ℓ) (ρ : Dev nD → PrngReg)

/-! ## Buffers no earlier segment wrote -/

theorem W1_kept (c : Dev nD) (r : Ref sig .tc) (h0 : r ∉ hostOps0_W) :
    W1 m ρ c (Proc.devRef .tc r) = m ((c : Thread nD τ).loc r) :=
  (StableHlo.after_of_writes_sub hostOps0 _ hostOps0_writes h0).trans rfl
theorem W3_kept (c : Dev nD) (r : Ref sig .tc) (h0 : r ∉ hostOps0_W) (h1 : r ∉ hostOps1_W) (h2 : r ≠ main_v12) :
    W3 m ρ c (Proc.devRef .tc r) = m ((c : Thread nD τ).loc r) :=
  (StableHlo.after_of_writes_sub hostOps1 _ hostOps1_writes h1).trans ((W2_of_ne m ρ c r h2).trans (W1_kept m ρ c r h0))
theorem W4_kept (c : Dev nD) (r : Ref sig .tc) (h0 : r ∉ hostOps0_W) (h1 : r ∉ hostOps1_W) (h2 : r ≠ main_v12) (h4 : r ≠ main_v25) :
    W4 m ρ c (Proc.devRef .tc r) = m ((c : Thread nD τ).loc r) :=
  (W4_of_ne m ρ c r h4).trans (W3_kept m ρ c r h0 h1 h2)

/-! ## The MLPs' parameters: the same slices and reshapes of the stacked arrays in both programs -/

theorem E1_v1 (c : Dev nD) : E1 m ρ c main_v1 = val_main_v1 (F := Ideal) (m ((c.tc : Thread nD τ).loc main_arg5)) := by
  show StableHlo.after hostOps0 (W0 m ρ c) (Proc.devRef .tc main_v1) = _
  dsimp only [hostOps0]; after_results; rfl
theorem E1_v3 (c : Dev nD) : E1 m ρ c main_v3 = val_main_v3 (F := Ideal) (m ((c.tc : Thread nD τ).loc main_arg6)) := by
  show StableHlo.after hostOps0 (W0 m ρ c) (Proc.devRef .tc main_v3) = _
  dsimp only [hostOps0]; after_results; rfl
theorem E1_v5 (c : Dev nD) : E1 m ρ c main_v5 = val_main_v5 (F := Ideal) (m ((c.tc : Thread nD τ).loc main_arg7)) := by
  show StableHlo.after hostOps0 (W0 m ρ c) (Proc.devRef .tc main_v5) = _
  dsimp only [hostOps0]; after_results; rfl
theorem E1_v7 (c : Dev nD) : E1 m ρ c main_v7 = val_main_v7 (F := Ideal) (m ((c.tc : Thread nD τ).loc main_arg8)) := by
  show StableHlo.after hostOps0 (W0 m ρ c) (Proc.devRef .tc main_v7) = _
  dsimp only [hostOps0]; after_results; rfl
theorem E1_v9 (c : Dev nD) : E1 m ρ c main_v9 = val_main_v9 (F := Ideal) (m ((c.tc : Thread nD τ).loc main_arg9)) := by
  show StableHlo.after hostOps0 (W0 m ρ c) (Proc.devRef .tc main_v9) = _
  dsimp only [hostOps0]; after_results; rfl
theorem E1_v11 (c : Dev nD) : E1 m ρ c main_v11 = val_main_v11 (F := Ideal) (m ((c.tc : Thread nD τ).loc main_arg10)) := by
  show StableHlo.after hostOps0 (W0 m ρ c) (Proc.devRef .tc main_v11) = _
  dsimp only [hostOps0]; after_results; rfl

theorem E3_v14 (c : Dev nD) : E3 m ρ c main_v14 = val_main_v46 (F := Ideal) (m ((c.tc : Thread nD τ).loc main_arg5)) := by
  show StableHlo.after hostOps1 (W2 m ρ c) (Proc.devRef .tc main_v14) = _
  dsimp only [hostOps1]; after_results
  rw [W2_of_ne m ρ c main_arg5 (by decide), W1_kept m ρ c main_arg5 (by decide)]; rfl
theorem E3_v16 (c : Dev nD) : E3 m ρ c main_v16 = val_main_v48 (F := Ideal) (m ((c.tc : Thread nD τ).loc main_arg6)) := by
  show StableHlo.after hostOps1 (W2 m ρ c) (Proc.devRef .tc main_v16) = _
  dsimp only [hostOps1]; after_results
  rw [W2_of_ne m ρ c main_arg6 (by decide), W1_kept m ρ c main_arg6 (by decide)]; rfl
theorem E3_v18 (c : Dev nD) : E3 m ρ c main_v18 = val_main_v50 (F := Ideal) (m ((c.tc : Thread nD τ).loc main_arg7)) := by
  show StableHlo.after hostOps1 (W2 m ρ c) (Proc.devRef .tc main_v18) = _
  dsimp only [hostOps1]; after_results
  rw [W2_of_ne m ρ c main_arg7 (by decide), W1_kept m ρ c main_arg7 (by decide)]; rfl
theorem E3_v20 (c : Dev nD) : E3 m ρ c main_v20 = val_main_v52 (F := Ideal) (m ((c.tc : Thread nD τ).loc main_arg8)) := by
  show StableHlo.after hostOps1 (W2 m ρ c) (Proc.devRef .tc main_v20) = _
  dsimp only [hostOps1]; after_results
  rw [W2_of_ne m ρ c main_arg8 (by decide), W1_kept m ρ c main_arg8 (by decide)]; rfl
theorem E3_v22 (c : Dev nD) : E3 m ρ c main_v22 = val_main_v54 (F := Ideal) (m ((c.tc : Thread nD τ).loc main_arg9)) := by
  show StableHlo.after hostOps1 (W2 m ρ c) (Proc.devRef .tc main_v22) = _
  dsimp only [hostOps1]; after_results
  rw [W2_of_ne m ρ c main_arg9 (by decide), W1_kept m ρ c main_arg9 (by decide)]; rfl
theorem E3_v24 (c : Dev nD) : E3 m ρ c main_v24 = val_main_v56 (F := Ideal) (m ((c.tc : Thread nD τ).loc main_arg10)) := by
  show StableHlo.after hostOps1 (W2 m ρ c) (Proc.devRef .tc main_v24) = _
  dsimp only [hostOps1]; after_results
  rw [W2_of_ne m ρ c main_arg10 (by decide), W1_kept m ρ c main_arg10 (by decide)]; rfl

end Cert.KernelIdeal.Hand

end
-- ==== Proof.Spec.lean ====
/-
  The value of the edge-wise message MLP at one edge, as a function of the edge's matrix entry, the two nodes' embedding
  rows and the MLP's parameters — the common form both programs' message matrices are read to:
    pre_h  = A·W1[h, 0] + Σ_d e_i[d]·W1[h, 1 + d] + Σ_d e_j[d]·W1[h, 65 + d] + b1[h]          (h < 8)
    mid_k  = Σ_h max(pre_h, 0)·W2[k, h] + b2[k]                                               (k < 8)
    value  = Σ_k max(mid_k, 0)·W3[0, k] + b3[0]
  over the extended reals. Column 0 of W1 multiplies the matrix entry, columns 1…64 the row node's embedding, columns
  65…128 the column node's.
-/
import Idealize.ShloMosaic.PureOps.Ideal
import Idealize.ShloMosaic.Lib.ValueIdx

noncomputable section

namespace Cert.Spec

open Idealize.ShloMosaic Idealize.ShloMosaic.ValueIdx

/-- The column of W1 that multiplies coordinate `d` of the row node's embedding. -/
def colI (d : Fin 64) : Fin 129 := ⟨1 + d.val, by omega⟩
/-- The column of W1 that multiplies coordinate `d` of the column node's embedding. -/
def colJ (d : Fin 64) : Fin 129 := ⟨65 + d.val, by omega⟩

/-- The first layer's pre-activation of hidden unit `h`. -/
def mlpPre (A : EReal) (ei ej : Fin 64 → EReal) (W1 : (⟨2, ![8, 129]⟩ : Shape).Idx → EReal) (b1 : (⟨1, ![8]⟩ : Shape).Idx → EReal)
    (h : Fin 8) : EReal :=
  A * W1 (ix2 h (0 : Fin 129)) + (∑ d : Fin 64, ei d * W1 (ix2 h (colI d))) + (∑ d : Fin 64, ej d * W1 (ix2 h (colJ d))) + b1 (ix1 h)

/-- The second layer's pre-activation of unit `k`. -/
def mlpMid (A : EReal) (ei ej : Fin 64 → EReal) (W1 : (⟨2, ![8, 129]⟩ : Shape).Idx → EReal) (b1 : (⟨1, ![8]⟩ : Shape).Idx → EReal)
    (W2 : (⟨2, ![8, 8]⟩ : Shape).Idx → EReal) (b2 : (⟨1, ![8]⟩ : Shape).Idx → EReal) (k : Fin 8) : EReal :=
  (∑ h : Fin 8, max (mlpPre A ei ej W1 b1 h) 0 * W2 (ix2 k h)) + b2 (ix1 k)

/-- The MLP's value at the edge. -/
def mlpVal (A : EReal) (ei ej : Fin 64 → EReal) (W1 : (⟨2, ![8, 129]⟩ : Shape).Idx → EReal) (b1 : (⟨1, ![8]⟩ : Shape).Idx → EReal)
    (W2 : (⟨2, ![8, 8]⟩ : Shape).Idx → EReal) (b2 : (⟨1, ![8]⟩ : Shape).Idx → EReal)
    (W3 : (⟨2, ![1, 8]⟩ : Shape).Idx → EReal) (b3 : (⟨1, ![1]⟩ : Shape).Idx → EReal) : EReal :=
  (∑ k : Fin 8, max (mlpMid A ei ej W1 b1 W2 b2 k) 0 * W3 (ix2 (0 : Fin 1) k)) + b3 (ix1 (0 : Fin 1))

end Cert.Spec

end
-- ==== Proof.KIArrays.lean ====
/-
  From blocks to whole arrays, for the three pallas_calls. Each pallas_call leaves its output array at the write-backs
  of its grid points folded over the array's contents at entry. Here each point's write-back is read as a block of ONE
  function of the whole input arrays, and the blocks are shown to cover the output, so the array ends holding that function:
    * the two message-MLP calls (eight points, tile t = rows 128 t … 128 t + 127): entry (i, j) of the output is the MLP's
      value at the matrix entry (i, j), node i's embedding row and node j's embedding row — row i lies in tile i / 128,
      whose matrix block and embedding-row block start at row 128 (i / 128), while the column node's embedding is read
      from the window that holds the whole embedding array;
    * the graph-layer call (one point, every block its whole array): the output is the stored value of the six arrays.
-/
import proofs.«142047_j12206297055728_1_alg».proof.Proof.KIRegion0
import proofs.«142047_j12206297055728_1_alg».proof.Proof.KIRegion1
import proofs.«142047_j12206297055728_1_alg».proof.Proof.KIRegion2
import proofs.«142047_j12206297055728_1_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Arrays

/-- Zero offsets on two axes, however spelt. -/
theorem zeros2 : (![0, 0] : Fin 2 → Nat) = fun _ => 0 := funext fun a => by fin_cases a <;> rfl

/-! ## The message matrix as one function of whole arrays -/

/-- Entry `k = (i, j)` of a message matrix: the MLP's value at the matrix entry `A k`, node `i`'s embedding row and node
    `j`'s embedding row, with the MLP's six parameter arrays. -/
def msgArr (A : S1024x1024.Idx → EReal) (E : S1024x64.Idx → EReal) (W1 : S8x129.Idx → EReal) (b1 : S8.Idx → EReal)
    (W2 : S8x8.Idx → EReal) (b2 : S8.Idx → EReal) (W3 : S1x8.Idx → EReal) (b3 : S1.Idx → EReal) : S1024x1024.Idx → EReal :=
  fun k => Cert.Spec.mlpVal (A k) (fun d => E (ix2 (n0 := 1024) (n1 := 64) (k 0) d)) (fun d => E (ix2 (n0 := 1024) (n1 := 64) (k 1) d)) W1 b1 W2 b2 W3 b3

/-- At an index given by its two coordinates the rows read are the two nodes' own. -/
theorem msgArr_apply (A : S1024x1024.Idx → EReal) (E : S1024x64.Idx → EReal) (W1 : S8x129.Idx → EReal) (b1 : S8.Idx → EReal)
    (W2 : S8x8.Idx → EReal) (b2 : S8.Idx → EReal) (W3 : S1x8.Idx → EReal) (b3 : S1.Idx → EReal) (i j : Fin 1024) :
    msgArr A E W1 b1 W2 b2 W3 b3 (ix2 i j) = Cert.Spec.mlpVal (A (ix2 i j)) (fun d => E (ix2 i d)) (fun d => E (ix2 j d)) W1 b1 W2 b2 W3 b3 := rfl

/-! ## The first pallas_call: eight grid points, one 128-row tile of the matrix each -/

/-- The block indices at grid point `t`: the matrix tile, the tile's embedding rows and the output tile are block `t` along the rows;
    every other window's block is its whole array. -/
theorem index0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Window 0's block at point `t` is rows `128 t … 128 t + 127` of the matrix. -/
theorem iblk0_0_apply (c : Dev nD) (t : Fin cfg0.N) (x : S128x1024.Idx) (k : S1024x1024.Idx)
    (hk0 : (k 0).val = 128 * t.val + (x 0).val) (hk1 : (k 1).val = (x 1).val) :
    (iblk0 (F := Ideal) V c 0 t : Vec Ideal S128x1024 .f32) x = (V c main_arg1 : S1024x1024.Idx → EReal) k := by
  obtain ⟨e0, e1, -⟩ := index0_facts t
  unfold iblk0
  rw [View.read_apply]
  show V c main_arg1 (((cfg0.win 0).blk t).view.emb x) = V c main_arg1 k
  refine congrArg _ (funext fun a => Fin.ext ?_)
  match a with
  | ⟨0, _⟩ => show win0_0.index t (0 : Fin 2) * 128 + 1 * (x 0).val = (k 0).val; rw [e0, hk0]; omega
  | ⟨1, _⟩ => show win0_0.index t (1 : Fin 2) * 1024 + 1 * (x 1).val = (k 1).val; rw [e1, hk1]; omega

/-- Window 1's block at point `t` is rows `128 t … 128 t + 127` of the node embeddings. -/
theorem iblk0_1_apply (c : Dev nD) (t : Fin cfg0.N) (x : S128x64.Idx) (k : S1024x64.Idx)
    (hk0 : (k 0).val = 128 * t.val + (x 0).val) (hk1 : (k 1).val = (x 1).val) :
    (iblk0 (F := Ideal) V c 1 t : Vec Ideal S128x64 .f32) x = (V c main_arg4 : S1024x64.Idx → EReal) k := by
  obtain ⟨-, -, e0, e1, -⟩ := index0_facts t
  unfold iblk0
  rw [View.read_apply]
  show V c main_arg4 (((cfg0.win 1).blk t).view.emb x) = V c main_arg4 k
  refine congrArg _ (funext fun a => Fin.ext ?_)
  match a with
  | ⟨0, _⟩ => show win0_1.index t (0 : Fin 2) * 128 + 1 * (x 0).val = (k 0).val; rw [e0, hk0]; omega
  | ⟨1, _⟩ => show win0_1.index t (1 : Fin 2) * 64 + 1 * (x 1).val = (k 1).val; rw [e1, hk1]; omega

/-- Window 2's block is all of the node embeddings, at every point. -/
theorem iblk0_2_eq (c : Dev nD) (t : Fin cfg0.N) : iblk0 (F := Ideal) V c 2 t = V c main_arg4 := by
  obtain ⟨-, -, -, -, e0, e1, -⟩ := index0_facts t
  funext z
  unfold iblk0
  rw [View.read_apply]
  show V c main_arg4 (((cfg0.win 2).blk t).view.emb z) = V c main_arg4 z
  refine congrArg _ (funext fun a => Fin.ext ?_)
  match a with
  | ⟨0, _⟩ => show win0_2.index t (0 : Fin 2) * 1024 + 1 * (z 0).val = (z 0).val; rw [e0]; omega
  | ⟨1, _⟩ => show win0_2.index t (1 : Fin 2) * 64 + 1 * (z 1).val = (z 1).val; rw [e1]; omega

/-- Window 3's block is all of W1. -/
theorem iblk0_3_eq (c : Dev nD) (t : Fin cfg0.N) : iblk0 (F := Ideal) V c 3 t = V c main_v1 := by
  obtain ⟨-, -, -, -, -, -, e0, e1, -⟩ := index0_facts t
  funext z
  unfold iblk0
  rw [View.read_apply]
  show V c main_v1 (((cfg0.win 3).blk t).view.emb z) = V c main_v1 z
  refine congrArg _ (funext fun a => Fin.ext ?_)
  match a with
  | ⟨0, _⟩ => show win0_3.index t (0 : Fin 2) * 8 + 1 * (z 0).val = (z 0).val; rw [e0]; omega
  | ⟨1, _⟩ => show win0_3.index t (1 : Fin 2) * 129 + 1 * (z 1).val = (z 1).val; rw [e1]; omega

/-- Window 4's block is all of b1. -/
theorem iblk0_4_eq (c : Dev nD) (t : Fin cfg0.N) : iblk0 (F := Ideal) V c 4 t = V c main_v3 := by
  obtain ⟨-, -, -, -, -, -, -, -, e0, -⟩ := index0_facts t
  funext z
  unfold iblk0
  rw [View.read_apply]
  show V c main_v3 (((cfg0.win 4).blk t).view.emb z) = V c main_v3 z
  refine congrArg _ (funext fun a => Fin.ext ?_)
  match a with
  | ⟨0, _⟩ => show win0_4.index t (0 : Fin 1) * 8 + 1 * (z 0).val = (z 0).val; rw [e0]; omega

/-- Window 5's block is all of W2. -/
theorem iblk0_5_eq (c : Dev nD) (t : Fin cfg0.N) : iblk0 (F := Ideal) V c 5 t = V c main_v5 := by
  obtain ⟨-, -, -, -, -, -, -, -, -, e0, e1, -⟩ := index0_facts t
  funext z
  unfold iblk0
  rw [View.read_apply]
  show V c main_v5 (((cfg0.win 5).blk t).view.emb z) = V c main_v5 z
  refine congrArg _ (funext fun a => Fin.ext ?_)
  match a with
  | ⟨0, _⟩ => show win0_5.index t (0 : Fin 2) * 8 + 1 * (z 0).val = (z 0).val; rw [e0]; omega
  | ⟨1, _⟩ => show win0_5.index t (1 : Fin 2) * 8 + 1 * (z 1).val = (z 1).val; rw [e1]; omega

/-- Window 6's block is all of b2. -/
theorem iblk0_6_eq (c : Dev nD) (t : Fin cfg0.N) : iblk0 (F := Ideal) V c 6 t = V c main_v7 := by
  obtain ⟨-, -, -, -, -, -, -, -, -, -, -, e0, -⟩ := index0_facts t
  funext z
  unfold iblk0
  rw [View.read_apply]
  show V c main_v7 (((cfg0.win 6).blk t).view.emb z) = V c main_v7 z
  refine congrArg _ (funext fun a => Fin.ext ?_)
  match a with
  | ⟨0, _⟩ => show win0_6.index t (0 : Fin 1) * 8 + 1 * (z 0).val = (z 0).val; rw [e0]; omega

/-- Window 7's block is all of W3. -/
theorem iblk0_7_eq (c : Dev nD) (t : Fin cfg0.N) : iblk0 (F := Ideal) V c 7 t = V c main_v9 := by
  obtain ⟨-, -, -, -, -, -, -, -, -, -, -, -, e0, e1, -⟩ := index0_facts t
  funext z
  unfold iblk0
  rw [View.read_apply]
  show V c main_v9 (((cfg0.win 7).blk t).view.emb z) = V c main_v9 z
  refine congrArg _ (funext fun a => Fin.ext ?_)
  match a with
  | ⟨0, _⟩ => show win0_7.index t (0 : Fin 2) * 1 + 1 * (z 0).val = (z 0).val; rw [e0]; omega
  | ⟨1, _⟩ => show win0_7.index t (1 : Fin 2) * 8 + 1 * (z 1).val = (z 1).val; rw [e1]; omega

/-- Window 8's block is all of b3. -/
theorem iblk0_8_eq (c : Dev nD) (t : Fin cfg0.N) : iblk0 (F := Ideal) V c 8 t = V c main_v11 := by
  obtain ⟨-, -, -, -, -, -, -, -, -, -, -, -, -, -, e0, -⟩ := index0_facts t
  funext z
  unfold iblk0
  rw [View.read_apply]
  show V c main_v11 (((cfg0.win 8).blk t).view.emb z) = V c main_v11 z
  refine congrArg _ (funext fun a => Fin.ext ?_)
  match a with
  | ⟨0, _⟩ => show win0_8.index t (0 : Fin 1) * 1 + 1 * (z 0).val = (z 0).val; rw [e0]; omega

/-- An element of the output's block at point `t` sits in the array at row `128 t` plus its row, in its own column. -/
theorem emb0_9_val (t : Fin cfg0.N) (y : S128x1024.Idx) :
    ((((cfg0.win 9).blk t).view.emb y : S1024x1024.Idx) 0).val = 128 * t.val + (y 0).val
    ∧ ((((cfg0.win 9).blk t).view.emb y : S1024x1024.Idx) 1).val = (y 1).val := by
  obtain ⟨-, -, -, -, -, -, -, -, -, -, -, -, -, -, -, e0, e1⟩ := index0_facts t
  constructor
  · show win0_9.index t (0 : Fin 2) * 128 + 1 * (y 0).val = 128 * t.val + (y 0).val; rw [e0]; omega
  · show win0_9.index t (1 : Fin 2) * 1024 + 1 * (y 1).val = (y 1).val; rw [e1]; omega

/-- One entry of the stored tile is the message matrix's entry at the array index `k` it is written to, when the tile's
    matrix entry is the array's at `k`, the tile's embedding row is row `k 0` of the embeddings and the whole-array window's
    row is row `k 1`. -/
theorem stored0_at
    (hB : ∀ (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32) (p : Fin 128) (q : Fin 1024),
        stored0 (F := Ideal) x0 x1 x2 x3 x4 x5 x6 x7 x8 (ix2 p q) = Cert.Spec.mlpVal (x0 (ix2 p q)) (fun d => x1 (ix2 p d)) (fun d => x2 (ix2 q d)) x3 x4 x5 x6 x7 x8)
    (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32)
    (A : S1024x1024.Idx → EReal) (E : S1024x64.Idx → EReal) (y : S128x1024.Idx) (k : S1024x1024.Idx)
    (h0 : x0 y = A k)
    (h1 : ∀ d : Fin 64, x1 (ix2 (n0 := 128) (n1 := 64) (y 0) d) = E (ix2 (n0 := 1024) (n1 := 64) (k 0) d))
    (h2 : ∀ d : Fin 64, x2 (ix2 (n0 := 1024) (n1 := 64) (y 1) d) = E (ix2 (n0 := 1024) (n1 := 64) (k 1) d)) :
    stored0 (F := Ideal) x0 x1 x2 x3 x4 x5 x6 x7 x8 y = msgArr A E x3 x4 x5 x6 x7 x8 k := by
  obtain ⟨p, q, rfl⟩ : ∃ (p : Fin 128) (q : Fin 1024), y = ix2 p q := ⟨y 0, y 1, eq_ix2 y⟩
  have h1' : (fun d : Fin 64 => x1 (ix2 p d)) = fun d => E (ix2 (n0 := 1024) (n1 := 64) (k 0) d) := funext h1
  have h2' : (fun d : Fin 64 => x2 (ix2 q d)) = fun d => E (ix2 (n0 := 1024) (n1 := 64) (k 1) d) := funext h2
  rw [hB]
  unfold msgArr
  rw [h0, h1', h2']

/-- WHAT POINT `t` WRITES BACK is block `t` of the message matrix of the arrays the region is entered with. -/
theorem flushed0_eq
    (hB : ∀ (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32) (p : Fin 128) (q : Fin 1024),
        stored0 (F := Ideal) x0 x1 x2 x3 x4 x5 x6 x7 x8 (ix2 p q) = Cert.Spec.mlpVal (x0 (ix2 p q)) (fun d => x1 (ix2 p d)) (fun d => x2 (ix2 q d)) x3 x4 x5 x6 x7 x8)
    (c : Dev nD) (t : Fin cfg0.N) :
    (dat0 (F := Ideal) V c).flushed 9 t = ((cfg0.win 9).blk t).view.read (Elt Ideal)
      (msgArr (V c main_arg1) (V c main_arg4) (V c main_v1) (V c main_v3) (V c main_v5) (V c main_v7) (V c main_v9) (V c main_v11)) := by
  show (cfg0.win 9).cut (grid0.coords t) ((dat0 V c).after 9 t) = _
  rw [after0_9]
  unfold out0_9
  rw [View.canon_unit_zero zeros2]
  rw [iblk0_3_eq V c t, iblk0_4_eq V c t, iblk0_5_eq V c t, iblk0_6_eq V c t, iblk0_7_eq V c t, iblk0_8_eq V c t]
  funext y
  rw [View.read_apply]
  obtain ⟨k0, k1⟩ := emb0_9_val t y
  exact stored0_at hB (iblk0 V c 0 t) (iblk0 V c 1 t) (iblk0 V c 2 t) (V c main_v1) (V c main_v3) (V c main_v5) (V c main_v7) (V c main_v9) (V c main_v11)
    (V c main_arg1) (V c main_arg4) y (((cfg0.win 9).blk t).view.emb y)
    (iblk0_0_apply V c t y _ k0 k1)
    (fun d => iblk0_1_apply V c t _ _ k0 rfl)
    (fun d => by rw [iblk0_2_eq V c t]; exact congrArg _ (funext fun a => Fin.ext (by
      match a with
      | ⟨0, _⟩ => exact k1.symm
      | ⟨1, _⟩ => rfl)))

/-- An index of the output array is in point `t`'s block iff each coordinate is in the block's range on its axis. -/
theorem mem_blk0 (t : Fin cfg0.N) (i : S1024x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v12).slice (win0_9.rect t)).set ↔ _
  rw [View.set_slice_whole, Rect.mem_set_unit]
  exact Iff.rfl

/-- The eight row tiles cover the output array: row `r` lies in tile `r / 128`. -/
theorem cover0 (i : S1024x1024.Idx) : ∃ t : Fin cfg0.N, (cfg0.win 9).flush t = true ∧ i ∈ ((cfg0.win 9).blk t).view.set := by
  have h0 : (i 0).val < 1024 := (i 0).isLt
  have h1 : (i 1).val < 1024 := (i 1).isLt
  have hN : cfg0.N = 8 := N_0
  let t : Fin cfg0.N := ⟨(i 0).val / 128, by rw [hN]; omega⟩
  have ht : t.val = (i 0).val / 128 := rfl
  obtain ⟨-, -, -, -, -, -, -, -, -, -, -, -, -, -, -, e0, e1⟩ := index0_facts t
  refine ⟨t, flush0_9 t, ?_⟩
  rw [mem_blk0]
  intro a
  match a with
  | ⟨0, _⟩ => show win0_9.index t (0 : Fin 2) * 128 ≤ (i 0).val ∧ (i 0).val < win0_9.index t (0 : Fin 2) * 128 + 128; rw [e0, ht]; omega
  | ⟨1, _⟩ => show win0_9.index t (1 : Fin 2) * 1024 ≤ (i 1).val ∧ (i 1).val < win0_9.index t (1 : Fin 2) * 1024 + 1024; rw [e1]; omega

/-! ## The second pallas_call: the same pipeline over the second matrix and the second parameter set -/

/-- The block indices at grid point `t`: the matrix tile, the tile's embedding rows and the output tile are block `t` along the rows;
    every other window's block is its whole array. -/
theorem index1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Window 0's block at point `t` is rows `128 t … 128 t + 127` of the matrix. -/
theorem iblk1_0_apply (c : Dev nD) (t : Fin cfg1.N) (x : S128x1024.Idx) (k : S1024x1024.Idx)
    (hk0 : (k 0).val = 128 * t.val + (x 0).val) (hk1 : (k 1).val = (x 1).val) :
    (iblk1 (F := Ideal) V c 0 t : Vec Ideal S128x1024 .f32) x = (V c main_arg2 : S1024x1024.Idx → EReal) k := by
  obtain ⟨e0, e1, -⟩ := index1_facts t
  unfold iblk1
  rw [View.read_apply]
  show V c main_arg2 (((cfg1.win 0).blk t).view.emb x) = V c main_arg2 k
  refine congrArg _ (funext fun a => Fin.ext ?_)
  match a with
  | ⟨0, _⟩ => show win1_0.index t (0 : Fin 2) * 128 + 1 * (x 0).val = (k 0).val; rw [e0, hk0]; omega
  | ⟨1, _⟩ => show win1_0.index t (1 : Fin 2) * 1024 + 1 * (x 1).val = (k 1).val; rw [e1, hk1]; omega

/-- Window 1's block at point `t` is rows `128 t … 128 t + 127` of the node embeddings. -/
theorem iblk1_1_apply (c : Dev nD) (t : Fin cfg1.N) (x : S128x64.Idx) (k : S1024x64.Idx)
    (hk0 : (k 0).val = 128 * t.val + (x 0).val) (hk1 : (k 1).val = (x 1).val) :
    (iblk1 (F := Ideal) V c 1 t : Vec Ideal S128x64 .f32) x = (V c main_arg4 : S1024x64.Idx → EReal) k := by
  obtain ⟨-, -, e0, e1, -⟩ := index1_facts t
  unfold iblk1
  rw [View.read_apply]
  show V c main_arg4 (((cfg1.win 1).blk t).view.emb x) = V c main_arg4 k
  refine congrArg _ (funext fun a => Fin.ext ?_)
  match a with
  | ⟨0, _⟩ => show win1_1.index t (0 : Fin 2) * 128 + 1 * (x 0).val = (k 0).val; rw [e0, hk0]; omega
  | ⟨1, _⟩ => show win1_1.index t (1 : Fin 2) * 64 + 1 * (x 1).val = (k 1).val; rw [e1, hk1]; omega

/-- Window 2's block is all of the node embeddings, at every point. -/
theorem iblk1_2_eq (c : Dev nD) (t : Fin cfg1.N) : iblk1 (F := Ideal) V c 2 t = V c main_arg4 := by
  obtain ⟨-, -, -, -, e0, e1, -⟩ := index1_facts t
  funext z
  unfold iblk1
  rw [View.read_apply]
  show V c main_arg4 (((cfg1.win 2).blk t).view.emb z) = V c main_arg4 z
  refine congrArg _ (funext fun a => Fin.ext ?_)
  match a with
  | ⟨0, _⟩ => show win1_2.index t (0 : Fin 2) * 1024 + 1 * (z 0).val = (z 0).val; rw [e0]; omega
  | ⟨1, _⟩ => show win1_2.index t (1 : Fin 2) * 64 + 1 * (z 1).val = (z 1).val; rw [e1]; omega

/-- Window 3's block is all of W1. -/
theorem iblk1_3_eq (c : Dev nD) (t : Fin cfg1.N) : iblk1 (F := Ideal) V c 3 t = V c main_v14 := by
  obtain ⟨-, -, -, -, -, -, e0, e1, -⟩ := index1_facts t
  funext z
  unfold iblk1
  rw [View.read_apply]
  show V c main_v14 (((cfg1.win 3).blk t).view.emb z) = V c main_v14 z
  refine congrArg _ (funext fun a => Fin.ext ?_)
  match a with
  | ⟨0, _⟩ => show win1_3.index t (0 : Fin 2) * 8 + 1 * (z 0).val = (z 0).val; rw [e0]; omega
  | ⟨1, _⟩ => show win1_3.index t (1 : Fin 2) * 129 + 1 * (z 1).val = (z 1).val; rw [e1]; omega

/-- Window 4's block is all of b1. -/
theorem iblk1_4_eq (c : Dev nD) (t : Fin cfg1.N) : iblk1 (F := Ideal) V c 4 t = V c main_v16 := by
  obtain ⟨-, -, -, -, -, -, -, -, e0, -⟩ := index1_facts t
  funext z
  unfold iblk1
  rw [View.read_apply]
  show V c main_v16 (((cfg1.win 4).blk t).view.emb z) = V c main_v16 z
  refine congrArg _ (funext fun a => Fin.ext ?_)
  match a with
  | ⟨0, _⟩ => show win1_4.index t (0 : Fin 1) * 8 + 1 * (z 0).val = (z 0).val; rw [e0]; omega

/-- Window 5's block is all of W2. -/
theorem iblk1_5_eq (c : Dev nD) (t : Fin cfg1.N) : iblk1 (F := Ideal) V c 5 t = V c main_v18 := by
  obtain ⟨-, -, -, -, -, -, -, -, -, e0, e1, -⟩ := index1_facts t
  funext z
  unfold iblk1
  rw [View.read_apply]
  show V c main_v18 (((cfg1.win 5).blk t).view.emb z) = V c main_v18 z
  refine congrArg _ (funext fun a => Fin.ext ?_)
  match a with
  | ⟨0, _⟩ => show win1_5.index t (0 : Fin 2) * 8 + 1 * (z 0).val = (z 0).val; rw [e0]; omega
  | ⟨1, _⟩ => show win1_5.index t (1 : Fin 2) * 8 + 1 * (z 1).val = (z 1).val; rw [e1]; omega

/-- Window 6's block is all of b2. -/
theorem iblk1_6_eq (c : Dev nD) (t : Fin cfg1.N) : iblk1 (F := Ideal) V c 6 t = V c main_v20 := by
  obtain ⟨-, -, -, -, -, -, -, -, -, -, -, e0, -⟩ := index1_facts t
  funext z
  unfold iblk1
  rw [View.read_apply]
  show V c main_v20 (((cfg1.win 6).blk t).view.emb z) = V c main_v20 z
  refine congrArg _ (funext fun a => Fin.ext ?_)
  match a with
  | ⟨0, _⟩ => show win1_6.index t (0 : Fin 1) * 8 + 1 * (z 0).val = (z 0).val; rw [e0]; omega

/-- Window 7's block is all of W3. -/
theorem iblk1_7_eq (c : Dev nD) (t : Fin cfg1.N) : iblk1 (F := Ideal) V c 7 t = V c main_v22 := by
  obtain ⟨-, -, -, -, -, -, -, -, -, -, -, -, e0, e1, -⟩ := index1_facts t
  funext z
  unfold iblk1
  rw [View.read_apply]
  show V c main_v22 (((cfg1.win 7).blk t).view.emb z) = V c main_v22 z
  refine congrArg _ (funext fun a => Fin.ext ?_)
  match a with
  | ⟨0, _⟩ => show win1_7.index t (0 : Fin 2) * 1 + 1 * (z 0).val = (z 0).val; rw [e0]; omega
  | ⟨1, _⟩ => show win1_7.index t (1 : Fin 2) * 8 + 1 * (z 1).val = (z 1).val; rw [e1]; omega

/-- Window 8's block is all of b3. -/
theorem iblk1_8_eq (c : Dev nD) (t : Fin cfg1.N) : iblk1 (F := Ideal) V c 8 t = V c main_v24 := by
  obtain ⟨-, -, -, -, -, -, -, -, -, -, -, -, -, -, e0, -⟩ := index1_facts t
  funext z
  unfold iblk1
  rw [View.read_apply]
  show V c main_v24 (((cfg1.win 8).blk t).view.emb z) = V c main_v24 z
  refine congrArg _ (funext fun a => Fin.ext ?_)
  match a with
  | ⟨0, _⟩ => show win1_8.index t (0 : Fin 1) * 1 + 1 * (z 0).val = (z 0).val; rw [e0]; omega

/-- An element of the output's block at point `t` sits in the array at row `128 t` plus its row, in its own column. -/
theorem emb1_9_val (t : Fin cfg1.N) (y : S128x1024.Idx) :
    ((((cfg1.win 9).blk t).view.emb y : S1024x1024.Idx) 0).val = 128 * t.val + (y 0).val
    ∧ ((((cfg1.win 9).blk t).view.emb y : S1024x1024.Idx) 1).val = (y 1).val := by
  obtain ⟨-, -, -, -, -, -, -, -, -, -, -, -, -, -, -, e0, e1⟩ := index1_facts t
  constructor
  · show win1_9.index t (0 : Fin 2) * 128 + 1 * (y 0).val = 128 * t.val + (y 0).val; rw [e0]; omega
  · show win1_9.index t (1 : Fin 2) * 1024 + 1 * (y 1).val = (y 1).val; rw [e1]; omega

/-- One entry of the stored tile is the message matrix's entry at the array index `k` it is written to, when the tile's
    matrix entry is the array's at `k`, the tile's embedding row is row `k 0` of the embeddings and the whole-array window's
    row is row `k 1`. -/
theorem stored1_at
    (hB : ∀ (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32) (p : Fin 128) (q : Fin 1024),
        stored1 (F := Ideal) x0 x1 x2 x3 x4 x5 x6 x7 x8 (ix2 p q) = Cert.Spec.mlpVal (x0 (ix2 p q)) (fun d => x1 (ix2 p d)) (fun d => x2 (ix2 q d)) x3 x4 x5 x6 x7 x8)
    (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32)
    (A : S1024x1024.Idx → EReal) (E : S1024x64.Idx → EReal) (y : S128x1024.Idx) (k : S1024x1024.Idx)
    (h0 : x0 y = A k)
    (h1 : ∀ d : Fin 64, x1 (ix2 (n0 := 128) (n1 := 64) (y 0) d) = E (ix2 (n0 := 1024) (n1 := 64) (k 0) d))
    (h2 : ∀ d : Fin 64, x2 (ix2 (n0 := 1024) (n1 := 64) (y 1) d) = E (ix2 (n0 := 1024) (n1 := 64) (k 1) d)) :
    stored1 (F := Ideal) x0 x1 x2 x3 x4 x5 x6 x7 x8 y = msgArr A E x3 x4 x5 x6 x7 x8 k := by
  obtain ⟨p, q, rfl⟩ : ∃ (p : Fin 128) (q : Fin 1024), y = ix2 p q := ⟨y 0, y 1, eq_ix2 y⟩
  have h1' : (fun d : Fin 64 => x1 (ix2 p d)) = fun d => E (ix2 (n0 := 1024) (n1 := 64) (k 0) d) := funext h1
  have h2' : (fun d : Fin 64 => x2 (ix2 q d)) = fun d => E (ix2 (n0 := 1024) (n1 := 64) (k 1) d) := funext h2
  rw [hB]
  unfold msgArr
  rw [h0, h1', h2']

/-- WHAT POINT `t` WRITES BACK is block `t` of the message matrix of the arrays the region is entered with. -/
theorem flushed1_eq
    (hB : ∀ (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32) (p : Fin 128) (q : Fin 1024),
        stored1 (F := Ideal) x0 x1 x2 x3 x4 x5 x6 x7 x8 (ix2 p q) = Cert.Spec.mlpVal (x0 (ix2 p q)) (fun d => x1 (ix2 p d)) (fun d => x2 (ix2 q d)) x3 x4 x5 x6 x7 x8)
    (c : Dev nD) (t : Fin cfg1.N) :
    (dat1 (F := Ideal) V c).flushed 9 t = ((cfg1.win 9).blk t).view.read (Elt Ideal)
      (msgArr (V c main_arg2) (V c main_arg4) (V c main_v14) (V c main_v16) (V c main_v18) (V c main_v20) (V c main_v22) (V c main_v24)) := by
  show (cfg1.win 9).cut (grid1.coords t) ((dat1 V c).after 9 t) = _
  rw [after1_9]
  unfold out1_9
  rw [View.canon_unit_zero zeros2]
  rw [iblk1_3_eq V c t, iblk1_4_eq V c t, iblk1_5_eq V c t, iblk1_6_eq V c t, iblk1_7_eq V c t, iblk1_8_eq V c t]
  funext y
  rw [View.read_apply]
  obtain ⟨k0, k1⟩ := emb1_9_val t y
  exact stored1_at hB (iblk1 V c 0 t) (iblk1 V c 1 t) (iblk1 V c 2 t) (V c main_v14) (V c main_v16) (V c main_v18) (V c main_v20) (V c main_v22) (V c main_v24)
    (V c main_arg2) (V c main_arg4) y (((cfg1.win 9).blk t).view.emb y)
    (iblk1_0_apply V c t y _ k0 k1)
    (fun d => iblk1_1_apply V c t _ _ k0 rfl)
    (fun d => by rw [iblk1_2_eq V c t]; exact congrArg _ (funext fun a => Fin.ext (by
      match a with
      | ⟨0, _⟩ => exact k1.symm
      | ⟨1, _⟩ => rfl)))

/-- An index of the output array is in point `t`'s block iff each coordinate is in the block's range on its axis. -/
theorem mem_blk1 (t : Fin cfg1.N) (i : S1024x1024.Idx) :
    i ∈ ((cfg1.win 9).blk t).view.set ↔ ∀ a : Fin 2, win1_9.index t a * S128x1024.size a ≤ (i a).val ∧ (i a).val < win1_9.index t a * S128x1024.size a + S128x1024.size a := by
  show i ∈ ((View.whole main_v25).slice (win1_9.rect t)).set ↔ _
  rw [View.set_slice_whole, Rect.mem_set_unit]
  exact Iff.rfl

/-- The eight row tiles cover the output array: row `r` lies in tile `r / 128`. -/
theorem cover1 (i : S1024x1024.Idx) : ∃ t : Fin cfg1.N, (cfg1.win 9).flush t = true ∧ i ∈ ((cfg1.win 9).blk t).view.set := by
  have h0 : (i 0).val < 1024 := (i 0).isLt
  have h1 : (i 1).val < 1024 := (i 1).isLt
  have hN : cfg1.N = 8 := N_1
  let t : Fin cfg1.N := ⟨(i 0).val / 128, by rw [hN]; omega⟩
  have ht : t.val = (i 0).val / 128 := rfl
  obtain ⟨-, -, -, -, -, -, -, -, -, -, -, -, -, -, -, e0, e1⟩ := index1_facts t
  refine ⟨t, flush1_9 t, ?_⟩
  rw [mem_blk1]
  intro a
  match a with
  | ⟨0, _⟩ => show win1_9.index t (0 : Fin 2) * 128 ≤ (i 0).val ∧ (i 0).val < win1_9.index t (0 : Fin 2) * 128 + 128; rw [e0, ht]; omega
  | ⟨1, _⟩ => show win1_9.index t (1 : Fin 2) * 1024 ≤ (i 1).val ∧ (i 1).val < win1_9.index t (1 : Fin 2) * 1024 + 1024; rw [e1]; omega

/-! ## The third pallas_call: one grid point, every block its whole array -/

/-- At the one grid point every window's block index is zero on every axis. -/
theorem index2_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 4) = 0 ∧ win2_4.index t (1 : Fin 4) = 0 ∧ win2_4.index t (2 : Fin 4) = 0 ∧ win2_4.index t (3 : Fin 4) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Window 0's block is all of the first message matrix. -/
theorem iblk2_0_eq (c : Dev nD) (t : Fin cfg2.N) : iblk2 (F := Ideal) V c 0 t = V c main_v12 := by
  obtain ⟨e0, e1, -⟩ := index2_zero t
  funext z
  unfold iblk2
  rw [View.read_apply]
  show V c main_v12 (((cfg2.win 0).blk t).view.emb z) = V c main_v12 z
  refine congrArg _ (funext fun a => Fin.ext ?_)
  match a with
  | ⟨0, _⟩ => show win2_0.index t (0 : Fin 2) * 1024 + 1 * (z 0).val = (z 0).val; rw [e0]; omega
  | ⟨1, _⟩ => show win2_0.index t (1 : Fin 2) * 1024 + 1 * (z 1).val = (z 1).val; rw [e1]; omega

/-- Window 1's block is all of the second message matrix. -/
theorem iblk2_1_eq (c : Dev nD) (t : Fin cfg2.N) : iblk2 (F := Ideal) V c 1 t = V c main_v25 := by
  obtain ⟨-, -, e0, e1, -⟩ := index2_zero t
  funext z
  unfold iblk2
  rw [View.read_apply]
  show V c main_v25 (((cfg2.win 1).blk t).view.emb z) = V c main_v25 z
  refine congrArg _ (funext fun a => Fin.ext ?_)
  match a with
  | ⟨0, _⟩ => show win2_1.index t (0 : Fin 2) * 1024 + 1 * (z 0).val = (z 0).val; rw [e0]; omega
  | ⟨1, _⟩ => show win2_1.index t (1 : Fin 2) * 1024 + 1 * (z 1).val = (z 1).val; rw [e1]; omega

/-- Window 2's block is all of the node features. -/
theorem iblk2_2_eq (c : Dev nD) (t : Fin cfg2.N) : iblk2 (F := Ideal) V c 2 t = V c main_arg0 := by
  obtain ⟨-, -, -, -, e0, e1, -⟩ := index2_zero t
  funext z
  unfold iblk2
  rw [View.read_apply]
  show V c main_arg0 (((cfg2.win 2).blk t).view.emb z) = V c main_arg0 z
  refine congrArg _ (funext fun a => Fin.ext ?_)
  match a with
  | ⟨0, _⟩ => show win2_2.index t (0 : Fin 2) * 1024 + 1 * (z 0).val = (z 0).val; rw [e0]; omega
  | ⟨1, _⟩ => show win2_2.index t (1 : Fin 2) * 64 + 1 * (z 1).val = (z 1).val; rw [e1]; omega

/-- Window 3's block is all of t_grad. -/
theorem iblk2_3_eq (c : Dev nD) (t : Fin cfg2.N) : iblk2 (F := Ideal) V c 3 t = V c main_arg3 := by
  obtain ⟨-, -, -, -, -, -, e0, e1, -⟩ := index2_zero t
  funext z
  unfold iblk2
  rw [View.read_apply]
  show V c main_arg3 (((cfg2.win 3).blk t).view.emb z) = V c main_arg3 z
  refine congrArg _ (funext fun a => Fin.ext ?_)
  match a with
  | ⟨0, _⟩ => show win2_3.index t (0 : Fin 2) * 1024 + 1 * (z 0).val = (z 0).val; rw [e0]; omega
  | ⟨1, _⟩ => show win2_3.index t (1 : Fin 2) * 1024 + 1 * (z 1).val = (z 1).val; rw [e1]; omega

/-- Window 4's block is all of the layer weights. -/
theorem iblk2_4_eq (c : Dev nD) (t : Fin cfg2.N) : iblk2 (F := Ideal) V c 4 t = V c main_arg11 := by
  obtain ⟨-, -, -, -, -, -, -, -, e0, e1, e2, e3, -⟩ := index2_zero t
  funext z
  unfold iblk2
  rw [View.read_apply]
  show V c main_arg11 (((cfg2.win 4).blk t).view.emb z) = V c main_arg11 z
  refine congrArg _ (funext fun a => Fin.ext ?_)
  match a with
  | ⟨0, _⟩ => show win2_4.index t (0 : Fin 4) * 3 + 1 * (z 0).val = (z 0).val; rw [e0]; omega
  | ⟨1, _⟩ => show win2_4.index t (1 : Fin 4) * 5 + 1 * (z 1).val = (z 1).val; rw [e1]; omega
  | ⟨2, _⟩ => show win2_4.index t (2 : Fin 4) * 64 + 1 * (z 2).val = (z 2).val; rw [e2]; omega
  | ⟨3, _⟩ => show win2_4.index t (3 : Fin 4) * 64 + 1 * (z 3).val = (z 3).val; rw [e3]; omega

/-- Window 5's block is all of the layer biases. -/
theorem iblk2_5_eq (c : Dev nD) (t : Fin cfg2.N) : iblk2 (F := Ideal) V c 5 t = V c main_arg12 := by
  obtain ⟨-, -, -, -, -, -, -, -, -, -, -, -, e0, e1, -⟩ := index2_zero t
  funext z
  unfold iblk2
  rw [View.read_apply]
  show V c main_arg12 (((cfg2.win 5).blk t).view.emb z) = V c main_arg12 z
  refine congrArg _ (funext fun a => Fin.ext ?_)
  match a with
  | ⟨0, _⟩ => show win2_5.index t (0 : Fin 2) * 3 + 1 * (z 0).val = (z 0).val; rw [e0]; omega
  | ⟨1, _⟩ => show win2_5.index t (1 : Fin 2) * 64 + 1 * (z 1).val = (z 1).val; rw [e1]; omega

/-- What the one grid point writes back is the whole of the stored value of the six arrays: the output's block is its
    whole array too, so reading the array-sized value through the block changes nothing. -/
theorem flushed2_eq (c : Dev nD) (t : Fin cfg2.N) :
    (dat2 (F := Ideal) V c).flushed 6 t = ((cfg2.win 6).blk t).view.read (Elt Ideal)
      (stored2 (F := Ideal) (V c main_v12) (V c main_v25) (V c main_arg0) (V c main_arg3) (V c main_arg11) (V c main_arg12)) := by
  obtain ⟨-, -, -, -, -, -, -, -, -, -, -, -, -, -, e0, e1⟩ := index2_zero t
  show (cfg2.win 6).cut (grid2.coords t) ((dat2 V c).after 6 t) = _
  rw [after2_6]
  unfold out2_6
  rw [View.canon_unit_zero zeros2]
  rw [iblk2_0_eq V c t, iblk2_1_eq V c t, iblk2_2_eq V c t, iblk2_3_eq V c t, iblk2_4_eq V c t, iblk2_5_eq V c t]
  funext z
  rw [View.read_apply]
  show stored2 (F := Ideal) (V c main_v12) (V c main_v25) (V c main_arg0) (V c main_arg3) (V c main_arg11) (V c main_arg12) ((cfg2.win 6).xinj (grid2.coords t) z)
    = stored2 (F := Ideal) (V c main_v12) (V c main_v25) (V c main_arg0) (V c main_arg3) (V c main_arg11) (V c main_arg12) (((cfg2.win 6).blk t).view.emb z)
  refine congrArg _ (funext fun a => Fin.ext ?_)
  match a with
  | ⟨0, _⟩ => show (z 0).val = win2_6.index t (0 : Fin 2) * 1024 + 1 * (z 0).val; rw [e0]; omega
  | ⟨1, _⟩ => show (z 1).val = win2_6.index t (1 : Fin 2) * 64 + 1 * (z 1).val; rw [e1]; omega

/-- An index of the output array is in the point's block iff each coordinate is in the block's range on its axis. -/
theorem mem_blk2 (t : Fin cfg2.N) (i : S1024x64.Idx) :
    i ∈ ((cfg2.win 6).blk t).view.set ↔ ∀ a : Fin 2, win2_6.index t a * S1024x64.size a ≤ (i a).val ∧ (i a).val < win2_6.index t a * S1024x64.size a + S1024x64.size a := by
  show i ∈ ((View.whole main_v26).slice (win2_6.rect t)).set ↔ _
  rw [View.set_slice_whole, Rect.mem_set_unit]
  exact Iff.rfl

/-- The one block covers the output array. -/
theorem cover2 (i : S1024x64.Idx) : ∃ t : Fin cfg2.N, (cfg2.win 6).flush t = true ∧ i ∈ ((cfg2.win 6).blk t).view.set := by
  obtain ⟨-, -, -, -, -, -, -, -, -, -, -, -, -, -, e0, e1⟩ := index2_zero t2_0
  refine ⟨t2_0, flush2_6 t2_0, ?_⟩
  rw [mem_blk2]
  intro a
  have h0 : (i 0).val < 1024 := (i 0).isLt
  have h1 : (i 1).val < 64 := (i 1).isLt
  match a with
  | ⟨0, _⟩ => show win2_6.index t2_0 (0 : Fin 2) * 1024 ≤ (i 0).val ∧ (i 0).val < win2_6.index t2_0 (0 : Fin 2) * 1024 + 1024; rw [e0]; omega
  | ⟨1, _⟩ => show win2_6.index t2_0 (1 : Fin 2) * 64 ≤ (i 1).val ∧ (i 1).val < win2_6.index t2_0 (1 : Fin 2) * 64 + 64; rw [e1]; omega

end Arrays

open Arrays

/-! ## The three output arrays after their runs -/

/-- The first message matrix after the first pallas_call's run, entry by entry. -/
theorem arr0_apply (c : Dev nD)
    (hB : ∀ (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32) (p : Fin 128) (q : Fin 1024),
        stored0 (F := Ideal) x0 x1 x2 x3 x4 x5 x6 x7 x8 (ix2 p q) = Cert.Spec.mlpVal (x0 (ix2 p q)) (fun d => x1 (ix2 p d)) (fun d => x2 (ix2 q d)) x3 x4 x5 x6 x7 x8)
    (i j : Fin 1024) :
    ((dat0 (F := Ideal) V c).arrAt 9 cfg0.N : S1024x1024.Idx → EReal) (ix2 i j)
      = Cert.Spec.mlpVal (V c main_arg1 (ix2 i j)) (fun d => V c main_arg4 (ix2 i d)) (fun d => V c main_arg4 (ix2 j d))
          (V c main_v1) (V c main_v3) (V c main_v5) (V c main_v7) (V c main_v9) (V c main_v11) := by
  rw [(dat0 (F := Ideal) V c).arrAt_eq_of_cover 9 _ (fun t _ => flushed0_eq V hB c t) cover0]
  exact msgArr_apply _ _ _ _ _ _ _ _ i j

/-- The second message matrix after the second pallas_call's run, entry by entry. -/
theorem arr1_apply (c : Dev nD)
    (hB : ∀ (x0 : Vec Ideal S128x1024 .f32) (x1 : Vec Ideal S128x64 .f32) (x2 : Vec Ideal S1024x64 .f32) (x3 : Vec Ideal S8x129 .f32) (x4 : Vec Ideal S8 .f32) (x5 : Vec Ideal S8x8 .f32) (x6 : Vec Ideal S8 .f32) (x7 : Vec Ideal S1x8 .f32) (x8 : Vec Ideal S1 .f32) (p : Fin 128) (q : Fin 1024),
        stored1 (F := Ideal) x0 x1 x2 x3 x4 x5 x6 x7 x8 (ix2 p q) = Cert.Spec.mlpVal (x0 (ix2 p q)) (fun d => x1 (ix2 p d)) (fun d => x2 (ix2 q d)) x3 x4 x5 x6 x7 x8)
    (i j : Fin 1024) :
    ((dat1 (F := Ideal) V c).arrAt 9 cfg1.N : S1024x1024.Idx → EReal) (ix2 i j)
      = Cert.Spec.mlpVal (V c main_arg2 (ix2 i j)) (fun d => V c main_arg4 (ix2 i d)) (fun d => V c main_arg4 (ix2 j d))
          (V c main_v14) (V c main_v16) (V c main_v18) (V c main_v20) (V c main_v22) (V c main_v24) := by
  rw [(dat1 (F := Ideal) V c).arrAt_eq_of_cover 9 _ (fun t _ => flushed1_eq V hB c t) cover1]
  exact msgArr_apply _ _ _ _ _ _ _ _ i j

/-- The output array of the third pallas_call after its run: the stored value of the six arrays the region is entered with. -/
theorem arr2_eq (c : Dev nD) :
    (dat2 (F := Ideal) V c).arrAt 6 cfg2.N = stored2 (F := Ideal) (V c main_v12) (V c main_v25) (V c main_arg0) (V c main_arg3) (V c main_arg11) (V c main_arg12) :=
  (dat2 (F := Ideal) V c).arrAt_eq_of_cover 6 _ (fun t _ => flushed2_eq V c t) cover2

end Cert.KernelIdeal.Hand

end
-- ==== Proof.KIMlpRead.lean ====
/-
  Reading the edge-wise message MLP's vector operations at one entry (p, q) of a 128×1024 tile, over the extended reals:
  a one-element slice followed by an extraction is an entry of the sliced vector; a column of a [128, 8] (resp. [1024, 8])
  matrix broadcast along the tile's columns (resp. rows) is that matrix's entry at the tile row p (resp. tile column q);
  a matrix product into the zero accumulator with a transposed block of columns of W1 is the sum over the embedding's
  64 coordinates. From these: the first layer's pre-activation, a second-layer unit's pre-activation and the output, each
  a left-nested chain of binary additions, read as the specification's sums.
-/
import proofs.«142047_j12206297055728_1_alg».proof.Proof.Gen.KernelIdeal.Skeleton
import proofs.«142047_j12206297055728_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.MlpRead

open Idealize.ShloMosaic Idealize.ShloMosaic.ValueIdx Cert.KernelIdeal

variable {α : Type}

/-- Entry `k` of a vector, taken as the one-element slice at offset `o = k` and then extracted. -/
theorem scalar1 {n : Nat} (v : (⟨1, ![n]⟩ : Shape).Idx → α) (o : Nat) (h : (⟨1, ![n]⟩ : Shape).Slices ![o] S1)
    (hp : ∀ a, (![0] : Fin 1 → Nat) a < S1.size a) (k : Fin n) (hk : k.val = o) :
    extractAt ![0] (extractStridedSlice S1 ![o] v h) hp = v (ix1 k) := by
  unfold extractAt extractStridedSlice
  refine congrArg v (funext fun a => Fin.ext ?_)
  match a with
  | ⟨0, _⟩ => show o + 0 = k.val; omega

/-- Entry `(i, j)` of a matrix, taken as the one-element slice at offsets `(a, b) = (i, j)` and then extracted. -/
theorem scalar2 {m n : Nat} (v : (⟨2, ![m, n]⟩ : Shape).Idx → α) (a b : Nat) (h : (⟨2, ![m, n]⟩ : Shape).Slices ![a, b] S1x1)
    (hp : ∀ c, (![0, 0] : Fin 2 → Nat) c < S1x1.size c) (i : Fin m) (j : Fin n) (hi : i.val = a) (hj : j.val = b) :
    extractAt ![0, 0] (extractStridedSlice S1x1 ![a, b] v h) hp = v (ix2 i j) := by
  unfold extractAt extractStridedSlice
  refine congrArg v (funext fun c => Fin.ext ?_)
  match c with
  | ⟨0, _⟩ => show a + 0 = i.val; omega
  | ⟨1, _⟩ => show b + 0 = j.val; omega

/-- Column `k` of a [128, 8] matrix, broadcast along the tile's columns, read at `(p, q)`: the matrix at `(p, k)`. -/
theorem rowBc (v : S128x8.Idx → α) (o : Nat) (h1 : S128x8.Slices ![0, o] S128x1) (h2 : S128x1.ShapeCasts S128)
    (h3 : S128.ShapeCasts S128x1) (h4 : S128x1.Broadcasts S128x1024) (p : Fin 128) (q : Fin 1024) (k : Fin 8) (hk : k.val = o) :
    broadcastTo S128x1024 (shapeCast S128x1 (shapeCast S128 (extractStridedSlice S128x1 ![0, o] v h1) h2) h3) h4 (ix2 p q)
      = v (ix2 p k) := by
  rw [shapeCast_shapeCast]
  rw [broadcastTo_apply _ h4 (ix2 p q) (ix2 p (0 : Fin 1)) (fun ax => by
    match ax with
    | ⟨0, _⟩ => show p.val = if (128 : Nat) = 1 then 0 else p.val; rw [if_neg (by decide)]
    | ⟨1, _⟩ => show (0 : Nat) = if (1 : Nat) = 1 then 0 else q.val; rw [if_pos rfl])]
  exact slice2_axis1_apply o v h1 p (0 : Fin 1) k (by show k.val = o + 0; omega)

/-- Column `k` of a [1024, 8] matrix, broadcast along the tile's rows, read at `(p, q)`: the matrix at `(q, k)`. -/
theorem colBc (v : S1024x8.Idx → α) (o : Nat) (h1 : S1024x8.Slices ![0, o] S1024x1) (h2 : S1024x1.ShapeCasts S1024)
    (h3 : S1024.ShapeCasts S1x1024) (h4 : S1x1024.Broadcasts S128x1024) (p : Fin 128) (q : Fin 1024) (k : Fin 8) (hk : k.val = o) :
    broadcastTo S128x1024 (shapeCast S1x1024 (shapeCast S1024 (extractStridedSlice S1024x1 ![0, o] v h1) h2) h3) h4 (ix2 p q)
      = v (ix2 q k) := by
  rw [broadcastTo_1b_ab_apply, shapeCast_a_1a_apply]
  rw [shapeCast_apply _ h2 (ix1 q) (ix2 q (0 : Fin 1)) (by
    rw [Shape.rowMajor_val_two, Shape.rowMajor_val_one]; show q.val * 1 + 0 = q.val; omega)]
  exact slice2_axis1_apply o v h1 q (0 : Fin 1) k (by show k.val = o + 0; omega)

/-- The one entry of a one-element vector. -/
theorem extract1 (v : S1.Idx → α) (hp : ∀ a, (![0] : Fin 1 → Nat) a < S1.size a) :
    extractAt ![0] v hp = v (ix1 (0 : Fin 1)) := by
  unfold extractAt
  refine congrArg v (funext fun a => Fin.ext ?_)
  match a with
  | ⟨0, _⟩ => rfl

/-- The first column of W1 as a vector: entry `k` is `W1[k, 0]`. -/
theorem firstCol (w : S8x129.Idx → α) (hc0 : S8x129.ShapeCasts S8x129) (hs : S8x129.Slices ![0, 0] S8x1)
    (hc : S8x1.ShapeCasts S8) (k : Fin 8) :
    shapeCast S8 (extractStridedSlice S8x1 ![0, 0] (shapeCast S8x129 w hc0) hs) hc (ix1 k) = w (ix2 k (0 : Fin 129)) := by
  rw [shapeCast_self]
  rw [shapeCast_apply _ hc (ix1 k) (ix2 k (0 : Fin 1)) (by
    rw [Shape.rowMajor_val_two, Shape.rowMajor_val_one]; show k.val * 1 + 0 = k.val; omega)]
  exact slice2_axis1_apply 0 w hs k (0 : Fin 1) (0 : Fin 129) rfl

/-- The tile rows' embeddings times the transposed columns 1…64 of W1, into the zero accumulator, read at `(p, h)`:
    the sum over the embedding's coordinates `d` of `e[p, d] · W1[h, 1 + d]`. -/
theorem rowProj (e : FVec Ideal S128x64 .f32) (w : FVec Ideal S8x129 .f32) (hc0 : S8x129.ShapeCasts S8x129)
    (hs : S8x129.Slices ![0, 1] S8x64) (ht : S8x64.Transposes [1, 0] S64x8) (p : Fin 128) (h : Fin 8) :
    matmul dot_S128x64_S64x8_S128x8_1_0_0_1_n_n none e
        (transpose S64x8 [1, 0] (extractStridedSlice S8x64 ![0, 1] (shapeCast S8x129 w hc0) hs) ht)
        (constant (F := Ideal) S128x8 .f32 0x00000000#32) (ix2 p h)
      = ∑ d : Fin 64, e (ix2 p d) * w (ix2 h (Cert.Spec.colI d)) := by
  rw [shapeCast_self]
  show FloatOps.matmul dot_S128x64_S64x8_S128x8_1_0_0_1_n_n none e _ _ (ix2 p h) = _
  rw [Ideal.matmul_constant_zero_apply,
    ← Equiv.sum_comp (contrEquiv1 dot_S128x64_S64x8_S128x8_1_0_0_1_n_n 64 rfl rfl).symm]
  refine Finset.sum_congr rfl fun c _ => ?_
  have c2 := contrEquiv1_symm_val dot_S128x64_S64x8_S128x8_1_0_0_1_n_n 64 rfl rfl c
  have l2 : dot_S128x64_S64x8_S128x8_1_0_0_1_n_n.lhsIdx (ix2 p h) ((contrEquiv1 _ 64 rfl rfl).symm c) = ix2 p c := by
    funext ax; apply Fin.ext
    match ax with
    | ⟨0, _⟩ => simp [DotDims.lhsIdx, dot_S128x64_S64x8_S128x8_1_0_0_1_n_n]; rfl
    | ⟨1, _⟩ => simp [DotDims.lhsIdx, dot_S128x64_S64x8_S128x8_1_0_0_1_n_n]; exact c2
  have r2 : dot_S128x64_S64x8_S128x8_1_0_0_1_n_n.rhsIdx (ix2 p h) ((contrEquiv1 _ 64 rfl rfl).symm c) = ix2 c h := by
    funext ax; apply Fin.ext
    match ax with
    | ⟨0, _⟩ => simp [DotDims.rhsIdx, dot_S128x64_S64x8_S128x8_1_0_0_1_n_n]; exact c2
    | ⟨1, _⟩ => simp [DotDims.rhsIdx, dot_S128x64_S64x8_S128x8_1_0_0_1_n_n]; rfl
  rw [l2, r2, transpose_ix2_apply]
  exact congrArg (e (ix2 p c) * ·) (slice2_axis1_apply 1 w hs h c (Cert.Spec.colI c) rfl)

/-- All nodes' embeddings times the transposed columns 65…128 of W1, into the zero accumulator, read at `(q, h)`:
    the sum over the embedding's coordinates `d` of `e[q, d] · W1[h, 65 + d]`. -/
theorem colProj (e : FVec Ideal S1024x64 .f32) (w : FVec Ideal S8x129 .f32) (hc0 : S8x129.ShapeCasts S8x129)
    (hs : S8x129.Slices ![0, 65] S8x64) (ht : S8x64.Transposes [1, 0] S64x8) (q : Fin 1024) (h : Fin 8) :
    matmul dot_S1024x64_S64x8_S1024x8_1_0_0_1_n_n none e
        (transpose S64x8 [1, 0] (extractStridedSlice S8x64 ![0, 65] (shapeCast S8x129 w hc0) hs) ht)
        (constant (F := Ideal) S1024x8 .f32 0x00000000#32) (ix2 q h)
      = ∑ d : Fin 64, e (ix2 q d) * w (ix2 h (Cert.Spec.colJ d)) := by
  rw [shapeCast_self]
  show FloatOps.matmul dot_S1024x64_S64x8_S1024x8_1_0_0_1_n_n none e _ _ (ix2 q h) = _
  rw [Ideal.matmul_constant_zero_apply,
    ← Equiv.sum_comp (contrEquiv1 dot_S1024x64_S64x8_S1024x8_1_0_0_1_n_n 64 rfl rfl).symm]
  refine Finset.sum_congr rfl fun c _ => ?_
  have c2 := contrEquiv1_symm_val dot_S1024x64_S64x8_S1024x8_1_0_0_1_n_n 64 rfl rfl c
  have l2 : dot_S1024x64_S64x8_S1024x8_1_0_0_1_n_n.lhsIdx (ix2 q h) ((contrEquiv1 _ 64 rfl rfl).symm c) = ix2 q c := by
    funext ax; apply Fin.ext
    match ax with
    | ⟨0, _⟩ => simp [DotDims.lhsIdx, dot_S1024x64_S64x8_S1024x8_1_0_0_1_n_n]; rfl
    | ⟨1, _⟩ => simp [DotDims.lhsIdx, dot_S1024x64_S64x8_S1024x8_1_0_0_1_n_n]; exact c2
  have r2 : dot_S1024x64_S64x8_S1024x8_1_0_0_1_n_n.rhsIdx (ix2 q h) ((contrEquiv1 _ 64 rfl rfl).symm c) = ix2 c h := by
    funext ax; apply Fin.ext
    match ax with
    | ⟨0, _⟩ => simp [DotDims.rhsIdx, dot_S1024x64_S64x8_S1024x8_1_0_0_1_n_n]; exact c2
    | ⟨1, _⟩ => simp [DotDims.rhsIdx, dot_S1024x64_S64x8_S1024x8_1_0_0_1_n_n]; rfl
  rw [l2, r2, transpose_ix2_apply]
  exact congrArg (e (ix2 q c) * ·) (slice2_axis1_apply 65 w hs h c (Cert.Spec.colJ c) rfl)

/-- The first layer's pre-activation of hidden unit `k` at the tile's entry `(p, q)`:
    tile · w_a[k] + row[:, k] + col[:, k] + b1[k], a left-nested chain of three additions. -/
theorem pre_read (x0 : FVec Ideal S128x1024 .f32) (v6 v16 : FVec Ideal S8 .f32) (v20 : FVec Ideal S128x8 .f32)
    (v22 : FVec Ideal S1024x8 .f32) (o : Nat) (k : Fin 8) (hk : k.val = o)
    (hs : S8.Slices ![o] S1) (hp : ∀ a, (![0] : Fin 1 → Nat) a < S1.size a)
    (hs20 : S128x8.Slices ![0, o] S128x1) (hc1 : S128x1.ShapeCasts S128) (hc2 : S128.ShapeCasts S128x1)
    (hb1 : S128x1.Broadcasts S128x1024)
    (hs22 : S1024x8.Slices ![0, o] S1024x1) (hc3 : S1024x1.ShapeCasts S1024) (hc4 : S1024.ShapeCasts S1x1024)
    (hb2 : S1x1024.Broadcasts S128x1024) (p : Fin 128) (q : Fin 1024) :
    addf (addf (addf (mulf x0 (broadcast S128x1024 (extractAt ![0] (extractStridedSlice S1 ![o] v16 hs) hp)))
        (broadcastTo S128x1024 (shapeCast S128x1 (shapeCast S128 (extractStridedSlice S128x1 ![0, o] v20 hs20) hc1) hc2) hb1))
        (broadcastTo S128x1024 (shapeCast S1x1024 (shapeCast S1024 (extractStridedSlice S1024x1 ![0, o] v22 hs22) hc3) hc4) hb2))
        (broadcast S128x1024 (extractAt ![0] (extractStridedSlice S1 ![o] v6 hs) hp)) (ix2 p q)
      = x0 (ix2 p q) * v16 (ix1 k) + v20 (ix2 p k) + v22 (ix2 q k) + v6 (ix1 k) := by
  rw [addf_apply, addf_apply, addf_apply, mulf_apply, broadcast_apply, broadcast_apply, scalar1 v16 o hs hp k hk,
    scalar1 v6 o hs hp k hk, rowBc v20 o hs20 hc1 hc2 hb1 p q k hk, colBc v22 o hs22 hc3 hc4 hb2 p q k hk]

/-- A second-layer unit's pre-activation at the tile's entry `(p, q)`: the eight first-layer planes times row `k` of W2,
    added left to right, plus b2[k]. -/
theorem mid_read (P0 P1 P2 P3 P4 P5 P6 P7 : FVec Ideal S128x1024 .f32) (v8 : FVec Ideal S8x8 .f32) (v10 : FVec Ideal S8 .f32)
    (o : Nat) (k : Fin 8) (hk : k.val = o)
    (h0 : S8x8.Slices ![o, 0] S1x1) (h1 : S8x8.Slices ![o, 1] S1x1) (h2 : S8x8.Slices ![o, 2] S1x1)
    (h3 : S8x8.Slices ![o, 3] S1x1) (h4 : S8x8.Slices ![o, 4] S1x1) (h5 : S8x8.Slices ![o, 5] S1x1)
    (h6 : S8x8.Slices ![o, 6] S1x1) (h7 : S8x8.Slices ![o, 7] S1x1)
    (hp2 : ∀ c, (![0, 0] : Fin 2 → Nat) c < S1x1.size c)
    (hb : S8.Slices ![o] S1) (hp1 : ∀ a, (![0] : Fin 1 → Nat) a < S1.size a) (p : Fin 128) (q : Fin 1024)
    (pl : Fin 8 → EReal) (e0 : P0 (ix2 p q) = pl 0) (e1 : P1 (ix2 p q) = pl 1) (e2 : P2 (ix2 p q) = pl 2)
    (e3 : P3 (ix2 p q) = pl 3) (e4 : P4 (ix2 p q) = pl 4) (e5 : P5 (ix2 p q) = pl 5) (e6 : P6 (ix2 p q) = pl 6)
    (e7 : P7 (ix2 p q) = pl 7) :
    addf (addf (addf (addf (addf (addf (addf (addf
      (mulf P0 (broadcast S128x1024 (extractAt ![0, 0] (extractStridedSlice S1x1 ![o, 0] v8 h0) hp2)))
      (mulf P1 (broadcast S128x1024 (extractAt ![0, 0] (extractStridedSlice S1x1 ![o, 1] v8 h1) hp2))))
      (mulf P2 (broadcast S128x1024 (extractAt ![0, 0] (extractStridedSlice S1x1 ![o, 2] v8 h2) hp2))))
      (mulf P3 (broadcast S128x1024 (extractAt ![0, 0] (extractStridedSlice S1x1 ![o, 3] v8 h3) hp2))))
      (mulf P4 (broadcast S128x1024 (extractAt ![0, 0] (extractStridedSlice S1x1 ![o, 4] v8 h4) hp2))))
      (mulf P5 (broadcast S128x1024 (extractAt ![0, 0] (extractStridedSlice S1x1 ![o, 5] v8 h5) hp2))))
      (mulf P6 (broadcast S128x1024 (extractAt ![0, 0] (extractStridedSlice S1x1 ![o, 6] v8 h6) hp2))))
      (mulf P7 (broadcast S128x1024 (extractAt ![0, 0] (extractStridedSlice S1x1 ![o, 7] v8 h7) hp2))))
      (broadcast S128x1024 (extractAt ![0] (extractStridedSlice S1 ![o] v10 hb) hp1)) (ix2 p q)
      = (∑ h : Fin 8, pl h * v8 (ix2 k h)) + v10 (ix1 k) := by
  rw [Fin.sum_univ_eight]
  simp only [addf_apply, mulf_apply, broadcast_apply]
  rw [scalar2 v8 o 0 h0 hp2 k 0 hk rfl, scalar2 v8 o 1 h1 hp2 k 1 hk rfl, scalar2 v8 o 2 h2 hp2 k 2 hk rfl,
    scalar2 v8 o 3 h3 hp2 k 3 hk rfl, scalar2 v8 o 4 h4 hp2 k 4 hk rfl, scalar2 v8 o 5 h5 hp2 k 5 hk rfl,
    scalar2 v8 o 6 h6 hp2 k 6 hk rfl, scalar2 v8 o 7 h7 hp2 k 7 hk rfl, scalar1 v10 o hb hp1 k hk,
    e0, e1, e2, e3, e4, e5, e6, e7]

/-- The output at the tile's entry `(p, q)`: the eight second-layer planes times W3's one row, added left to right,
    plus b3[0]. -/
theorem out_read (Q0 Q1 Q2 Q3 Q4 Q5 Q6 Q7 : FVec Ideal S128x1024 .f32) (v12 : FVec Ideal S1x8 .f32) (v14 : FVec Ideal S1 .f32)
    (h0 : S1x8.Slices ![0, 0] S1x1) (h1 : S1x8.Slices ![0, 1] S1x1) (h2 : S1x8.Slices ![0, 2] S1x1)
    (h3 : S1x8.Slices ![0, 3] S1x1) (h4 : S1x8.Slices ![0, 4] S1x1) (h5 : S1x8.Slices ![0, 5] S1x1)
    (h6 : S1x8.Slices ![0, 6] S1x1) (h7 : S1x8.Slices ![0, 7] S1x1)
    (hp2 : ∀ c, (![0, 0] : Fin 2 → Nat) c < S1x1.size c)
    (hp1 : ∀ a, (![0] : Fin 1 → Nat) a < S1.size a) (p : Fin 128) (q : Fin 1024)
    (ql : Fin 8 → EReal) (e0 : Q0 (ix2 p q) = ql 0) (e1 : Q1 (ix2 p q) = ql 1) (e2 : Q2 (ix2 p q) = ql 2)
    (e3 : Q3 (ix2 p q) = ql 3) (e4 : Q4 (ix2 p q) = ql 4) (e5 : Q5 (ix2 p q) = ql 5) (e6 : Q6 (ix2 p q) = ql 6)
    (e7 : Q7 (ix2 p q) = ql 7) :
    addf (addf (addf (addf (addf (addf (addf (addf
      (mulf Q0 (broadcast S128x1024 (extractAt ![0, 0] (extractStridedSlice S1x1 ![0, 0] v12 h0) hp2)))
      (mulf Q1 (broadcast S128x1024 (extractAt ![0, 0] (extractStridedSlice S1x1 ![0, 1] v12 h1) hp2))))
      (mulf Q2 (broadcast S128x1024 (extractAt ![0, 0] (extractStridedSlice S1x1 ![0, 2] v12 h2) hp2))))
      (mulf Q3 (broadcast S128x1024 (extractAt ![0, 0] (extractStridedSlice S1x1 ![0, 3] v12 h3) hp2))))
      (mulf Q4 (broadcast S128x1024 (extractAt ![0, 0] (extractStridedSlice S1x1 ![0, 4] v12 h4) hp2))))
      (mulf Q5 (broadcast S128x1024 (extractAt ![0, 0] (extractStridedSlice S1x1 ![0, 5] v12 h5) hp2))))
      (mulf Q6 (broadcast S128x1024 (extractAt ![0, 0] (extractStridedSlice S1x1 ![0, 6] v12 h6) hp2))))
      (mulf Q7 (broadcast S128x1024 (extractAt ![0, 0] (extractStridedSlice S1x1 ![0, 7] v12 h7) hp2))))
      (broadcast S128x1024 (extractAt ![0] v14 hp1)) (ix2 p q)
      = (∑ k : Fin 8, ql k * v12 (ix2 (0 : Fin 1) k)) + v14 (ix1 (0 : Fin 1)) := by
  rw [Fin.sum_univ_eight]
  simp only [addf_apply, mulf_apply, broadcast_apply]
  rw [scalar2 v12 0 0 h0 hp2 0 0 rfl rfl, scalar2 v12 0 1 h1 hp2 0 1 rfl rfl, scalar2 v12 0 2 h2 hp2 0 2 rfl rfl,
    scalar2 v12 0 3 h3 hp2 0 3 rfl rfl, scalar2 v12 0 4 h4 hp2 0 4 rfl rfl, scalar2 v12 0 5 h5 hp2 0 5 rfl rfl,
    scalar2 v12 0 6 h6 hp2 0 6 rfl rfl, scalar2 v12 0 7 h7 hp2 0 7 rfl rfl, extract1 v14 hp1,
    e0, e1, e2, e3, e4, e5, e6, e7]

/-- A maximum with the zero splat, read at `(p, q)`: the larger of the plane's entry and 0. -/
theorem relu_read (a : FVec Ideal S128x1024 .f32) (p : Fin 128) (q : Fin 1024) (r : EReal) (h : a (ix2 p q) = r) :
    maximumf a (broadcast S128x1024 (Scalar.ofBits (F := Ideal) .f32 0x00000000#32)) (ix2 p q) = max r 0 := by
  rw [maximumf_apply, broadcast_apply, h]
  show max r (Ideal.ofBits .f32 0x00000000#32) = _
  rw [Ideal.ofBits_zero_f32]

end Cert.KernelIdeal.Hand.MlpRead

end
-- ==== Proof.KITail0.lean ====
/-
  The second half of the edge-wise message MLP's stored tile, over abstract first-layer planes: each of the eight
  second-layer planes is the maximum with zero of a left-nested chain — the eight first-layer planes times the entries
  of one row of W2, added in index order, plus that unit's entry of b2 —, and the output is the same kind of chain of
  the second-layer planes against W3's one row, plus b3's entry. Read at one entry (p, q) of the tile these are the
  specification's two sums, unit k of the second layer weighting plane h by W2[k, h].
-/
import proofs.«142047_j12206297055728_1_alg».proof.Proof.Gen.KernelIdeal.Skeleton
import proofs.«142047_j12206297055728_1_alg».proof.Proof.Spec
import proofs.«142047_j12206297055728_1_alg».proof.Proof.KIMlpRead
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

/-- The tile the body stores, from the second layer on, as a function of W2, b2, W3, b3 and the eight first-layer planes. -/
def mlpTail0 (v8 : FVec Ideal S8x8 .f32) (v10 : FVec Ideal S8 .f32) (v12 : FVec Ideal S1x8 .f32) (v14 : FVec Ideal S1 .f32)
    (v42 v62 v82 v102 v122 v142 v162 v182 : FVec Ideal S128x1024 .f32) : FVec Ideal S128x1024 .f32 :=
  let v211 := k0_pay24 v8 v42 v62 v82 v102 v122 v142; let v213 := k0_pay25 v8
  let v227 := k0_pay26 v8 v10 v162 v182 v211 v213; let v270 := k0_pay27 v8 v10 v42 v62 v82 v102 v122 v142 v162 v182; let v271 : FVec Ideal S128x1024 .f32 := k0_pay28 (F := Ideal)
  let v272 := k0_pay29 v270 v271; let v317 := k0_pay30 v8 v10 v42 v62 v82 v102 v122 v142 v162 v182; let v326 := k0_pay31 v8 v42 v62; let v330 := k0_pay32 v8 v82
  let v362 := k0_pay33 v8 v10 v102 v122 v142 v162 v182 v326 v330; let v386 := k0_pay34 v8 v42 v62 v82 v102 v122; let v389 := k0_pay35 v8
  let v407 := k0_pay36 v8 v10 v142 v162 v182 v386 v389; let v446 := k0_pay37 v8 v42 v62 v82 v102 v122 v142 v162 v182; let v448 := k0_pay38 v10
  let v452 := k0_pay39 v446 v448; let v497 := k0_pay40 v8 v10 v42 v62 v82 v102 v122 v142 v162 v182; let v506 := k0_pay41 v8 v42 v62
  let v542 := k0_pay42 v8 v10 v82 v102 v122 v142 v162 v182 v506; let v561 := k0_pay43 v12 v227 v272 v317 v362; let v565 := k0_pay44 v12 v407
  k0_pay1 v12 v14 v452 v497 v542 v561 v565

/-- A maximum with the zero splat, read at `(p, q)`: the larger of the plane's entry and 0. -/
theorem tail0_relu (a : FVec Ideal S128x1024 .f32) (p : Fin 128) (q : Fin 1024) (r : EReal) (h : a (ix2 p q) = r) :
    maximumf a (broadcast S128x1024 (Scalar.ofBits (F := Ideal) .f32 0x00000000#32)) (ix2 p q) = max r 0 := by
  rw [maximumf_apply, broadcast_apply, h]
  show max r (Ideal.ofBits .f32 0x00000000#32) = _
  rw [Ideal.ofBits_zero_f32]

/-- Second-layer plane 0 at `(p, q)`: relu of the planes against row 0 of W2, plus b2[0]. -/
theorem tail0_plane0 (v8 : FVec Ideal S8x8 .f32) (v10 : FVec Ideal S8 .f32)
    (v42 v62 v82 v102 v122 v142 v162 v182 : FVec Ideal S128x1024 .f32) (p : Fin 128) (q : Fin 1024) :
    (k0_pay26 v8 v10 v162 v182 (k0_pay24 v8 v42 v62 v82 v102 v122 v142) (k0_pay25 v8)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (0 : Fin 8) h)) + v10 (ix1 (0 : Fin 8))) 0 :=
  tail0_relu _ p q _ (MlpRead.mid_read v42 v62 v82 v102 v122 v142 v162 v182 v8 v10 0 (0 : Fin 8) rfl
    slices_S8x8_o0_0_S1x1 slices_S8x8_o0_1_S1x1 slices_S8x8_o0_2_S1x1 slices_S8x8_o0_3_S1x1 slices_S8x8_o0_4_S1x1 slices_S8x8_o0_5_S1x1 slices_S8x8_o0_6_S1x1 slices_S8x8_o0_7_S1x1
    inpos_S1x1_p0_0 slices_S8_o0_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 1 at `(p, q)`: relu of the planes against row 1 of W2, plus b2[1]. -/
theorem tail0_plane1 (v8 : FVec Ideal S8x8 .f32) (v10 : FVec Ideal S8 .f32)
    (v42 v62 v82 v102 v122 v142 v162 v182 : FVec Ideal S128x1024 .f32) (p : Fin 128) (q : Fin 1024) :
    (k0_pay29 (k0_pay27 v8 v10 v42 v62 v82 v102 v122 v142 v162 v182) (k0_pay28 (F := Ideal))) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (1 : Fin 8) h)) + v10 (ix1 (1 : Fin 8))) 0 :=
  tail0_relu _ p q _ (MlpRead.mid_read v42 v62 v82 v102 v122 v142 v162 v182 v8 v10 1 (1 : Fin 8) rfl
    slices_S8x8_o1_0_S1x1 slices_S8x8_o1_1_S1x1 slices_S8x8_o1_2_S1x1 slices_S8x8_o1_3_S1x1 slices_S8x8_o1_4_S1x1 slices_S8x8_o1_5_S1x1 slices_S8x8_o1_6_S1x1 slices_S8x8_o1_7_S1x1
    inpos_S1x1_p0_0 slices_S8_o1_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 2 at `(p, q)`: relu of the planes against row 2 of W2, plus b2[2]. -/
theorem tail0_plane2 (v8 : FVec Ideal S8x8 .f32) (v10 : FVec Ideal S8 .f32)
    (v42 v62 v82 v102 v122 v142 v162 v182 : FVec Ideal S128x1024 .f32) (p : Fin 128) (q : Fin 1024) :
    (k0_pay30 v8 v10 v42 v62 v82 v102 v122 v142 v162 v182) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (2 : Fin 8) h)) + v10 (ix1 (2 : Fin 8))) 0 :=
  tail0_relu _ p q _ (MlpRead.mid_read v42 v62 v82 v102 v122 v142 v162 v182 v8 v10 2 (2 : Fin 8) rfl
    slices_S8x8_o2_0_S1x1 slices_S8x8_o2_1_S1x1 slices_S8x8_o2_2_S1x1 slices_S8x8_o2_3_S1x1 slices_S8x8_o2_4_S1x1 slices_S8x8_o2_5_S1x1 slices_S8x8_o2_6_S1x1 slices_S8x8_o2_7_S1x1
    inpos_S1x1_p0_0 slices_S8_o2_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 3 at `(p, q)`: relu of the planes against row 3 of W2, plus b2[3]. -/
theorem tail0_plane3 (v8 : FVec Ideal S8x8 .f32) (v10 : FVec Ideal S8 .f32)
    (v42 v62 v82 v102 v122 v142 v162 v182 : FVec Ideal S128x1024 .f32) (p : Fin 128) (q : Fin 1024) :
    (k0_pay33 v8 v10 v102 v122 v142 v162 v182 (k0_pay31 v8 v42 v62) (k0_pay32 v8 v82)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (3 : Fin 8) h)) + v10 (ix1 (3 : Fin 8))) 0 :=
  tail0_relu _ p q _ (MlpRead.mid_read v42 v62 v82 v102 v122 v142 v162 v182 v8 v10 3 (3 : Fin 8) rfl
    slices_S8x8_o3_0_S1x1 slices_S8x8_o3_1_S1x1 slices_S8x8_o3_2_S1x1 slices_S8x8_o3_3_S1x1 slices_S8x8_o3_4_S1x1 slices_S8x8_o3_5_S1x1 slices_S8x8_o3_6_S1x1 slices_S8x8_o3_7_S1x1
    inpos_S1x1_p0_0 slices_S8_o3_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 4 at `(p, q)`: relu of the planes against row 4 of W2, plus b2[4]. -/
theorem tail0_plane4 (v8 : FVec Ideal S8x8 .f32) (v10 : FVec Ideal S8 .f32)
    (v42 v62 v82 v102 v122 v142 v162 v182 : FVec Ideal S128x1024 .f32) (p : Fin 128) (q : Fin 1024) :
    (k0_pay36 v8 v10 v142 v162 v182 (k0_pay34 v8 v42 v62 v82 v102 v122) (k0_pay35 v8)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (4 : Fin 8) h)) + v10 (ix1 (4 : Fin 8))) 0 :=
  tail0_relu _ p q _ (MlpRead.mid_read v42 v62 v82 v102 v122 v142 v162 v182 v8 v10 4 (4 : Fin 8) rfl
    slices_S8x8_o4_0_S1x1 slices_S8x8_o4_1_S1x1 slices_S8x8_o4_2_S1x1 slices_S8x8_o4_3_S1x1 slices_S8x8_o4_4_S1x1 slices_S8x8_o4_5_S1x1 slices_S8x8_o4_6_S1x1 slices_S8x8_o4_7_S1x1
    inpos_S1x1_p0_0 slices_S8_o4_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 5 at `(p, q)`: relu of the planes against row 5 of W2, plus b2[5]. -/
theorem tail0_plane5 (v8 : FVec Ideal S8x8 .f32) (v10 : FVec Ideal S8 .f32)
    (v42 v62 v82 v102 v122 v142 v162 v182 : FVec Ideal S128x1024 .f32) (p : Fin 128) (q : Fin 1024) :
    (k0_pay39 (k0_pay37 v8 v42 v62 v82 v102 v122 v142 v162 v182) (k0_pay38 v10)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (5 : Fin 8) h)) + v10 (ix1 (5 : Fin 8))) 0 :=
  tail0_relu _ p q _ (MlpRead.mid_read v42 v62 v82 v102 v122 v142 v162 v182 v8 v10 5 (5 : Fin 8) rfl
    slices_S8x8_o5_0_S1x1 slices_S8x8_o5_1_S1x1 slices_S8x8_o5_2_S1x1 slices_S8x8_o5_3_S1x1 slices_S8x8_o5_4_S1x1 slices_S8x8_o5_5_S1x1 slices_S8x8_o5_6_S1x1 slices_S8x8_o5_7_S1x1
    inpos_S1x1_p0_0 slices_S8_o5_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 6 at `(p, q)`: relu of the planes against row 6 of W2, plus b2[6]. -/
theorem tail0_plane6 (v8 : FVec Ideal S8x8 .f32) (v10 : FVec Ideal S8 .f32)
    (v42 v62 v82 v102 v122 v142 v162 v182 : FVec Ideal S128x1024 .f32) (p : Fin 128) (q : Fin 1024) :
    (k0_pay40 v8 v10 v42 v62 v82 v102 v122 v142 v162 v182) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (6 : Fin 8) h)) + v10 (ix1 (6 : Fin 8))) 0 :=
  tail0_relu _ p q _ (MlpRead.mid_read v42 v62 v82 v102 v122 v142 v162 v182 v8 v10 6 (6 : Fin 8) rfl
    slices_S8x8_o6_0_S1x1 slices_S8x8_o6_1_S1x1 slices_S8x8_o6_2_S1x1 slices_S8x8_o6_3_S1x1 slices_S8x8_o6_4_S1x1 slices_S8x8_o6_5_S1x1 slices_S8x8_o6_6_S1x1 slices_S8x8_o6_7_S1x1
    inpos_S1x1_p0_0 slices_S8_o6_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 7 at `(p, q)`: relu of the planes against row 7 of W2, plus b2[7]. -/
theorem tail0_plane7 (v8 : FVec Ideal S8x8 .f32) (v10 : FVec Ideal S8 .f32)
    (v42 v62 v82 v102 v122 v142 v162 v182 : FVec Ideal S128x1024 .f32) (p : Fin 128) (q : Fin 1024) :
    (k0_pay42 v8 v10 v82 v102 v122 v142 v162 v182 (k0_pay41 v8 v42 v62)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (7 : Fin 8) h)) + v10 (ix1 (7 : Fin 8))) 0 :=
  tail0_relu _ p q _ (MlpRead.mid_read v42 v62 v82 v102 v122 v142 v162 v182 v8 v10 7 (7 : Fin 8) rfl
    slices_S8x8_o7_0_S1x1 slices_S8x8_o7_1_S1x1 slices_S8x8_o7_2_S1x1 slices_S8x8_o7_3_S1x1 slices_S8x8_o7_4_S1x1 slices_S8x8_o7_5_S1x1 slices_S8x8_o7_6_S1x1 slices_S8x8_o7_7_S1x1
    inpos_S1x1_p0_0 slices_S8_o7_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- The stored tile's tail at `(p, q)`: the second layer and the output sum of the specification. -/
theorem mlpTail0_apply (v8 : FVec Ideal S8x8 .f32) (v10 : FVec Ideal S8 .f32) (v12 : FVec Ideal S1x8 .f32) (v14 : FVec Ideal S1 .f32)
    (v42 v62 v82 v102 v122 v142 v162 v182 : FVec Ideal S128x1024 .f32) (p : Fin 128) (q : Fin 1024) :
    mlpTail0 v8 v10 v12 v14 v42 v62 v82 v102 v122 v142 v162 v182 (ix2 p q)
      = (∑ k : Fin 8, max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 k h)) + v10 (ix1 k)) 0 * v12 (ix2 (0 : Fin 1) k)) + v14 (ix1 (0 : Fin 1)) := by
  unfold mlpTail0
  exact MlpRead.out_read
    (k0_pay26 v8 v10 v162 v182 (k0_pay24 v8 v42 v62 v82 v102 v122 v142) (k0_pay25 v8))
    (k0_pay29 (k0_pay27 v8 v10 v42 v62 v82 v102 v122 v142 v162 v182) (k0_pay28 (F := Ideal)))
    (k0_pay30 v8 v10 v42 v62 v82 v102 v122 v142 v162 v182)
    (k0_pay33 v8 v10 v102 v122 v142 v162 v182 (k0_pay31 v8 v42 v62) (k0_pay32 v8 v82))
    (k0_pay36 v8 v10 v142 v162 v182 (k0_pay34 v8 v42 v62 v82 v102 v122) (k0_pay35 v8))
    (k0_pay39 (k0_pay37 v8 v42 v62 v82 v102 v122 v142 v162 v182) (k0_pay38 v10))
    (k0_pay40 v8 v10 v42 v62 v82 v102 v122 v142 v162 v182)
    (k0_pay42 v8 v10 v82 v102 v122 v142 v162 v182 (k0_pay41 v8 v42 v62))
    v12 v14 slices_S1x8_o0_0_S1x1 slices_S1x8_o0_1_S1x1 slices_S1x8_o0_2_S1x1 slices_S1x8_o0_3_S1x1 slices_S1x8_o0_4_S1x1 slices_S1x8_o0_5_S1x1 slices_S1x8_o0_6_S1x1 slices_S1x8_o0_7_S1x1
    inpos_S1x1_p0_0 inpos_S1_p0 p q
    (fun k : Fin 8 => max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 k h)) + v10 (ix1 k)) 0)
    (tail0_plane0 v8 v10 v42 v62 v82 v102 v122 v142 v162 v182 p q)
    (tail0_plane1 v8 v10 v42 v62 v82 v102 v122 v142 v162 v182 p q)
    (tail0_plane2 v8 v10 v42 v62 v82 v102 v122 v142 v162 v182 p q)
    (tail0_plane3 v8 v10 v42 v62 v82 v102 v122 v142 v162 v182 p q)
    (tail0_plane4 v8 v10 v42 v62 v82 v102 v122 v142 v162 v182 p q)
    (tail0_plane5 v8 v10 v42 v62 v82 v102 v122 v142 v162 v182 p q)
    (tail0_plane6 v8 v10 v42 v62 v82 v102 v122 v142 v162 v182 p q)
    (tail0_plane7 v8 v10 v42 v62 v82 v102 v122 v142 v162 v182 p q)

end Cert.KernelIdeal.Hand

end
-- ==== Proof.KITile0.lean ====
/-
  The tile the first message-MLP kernel's body stores, read at one entry (p, q): the specification's value of the MLP at that
  edge. The eight first-layer planes relu(tile·w_a[h] + row[:, h] + col[:, h] + b1[h]) are read at the entry as
  max (pre-activation of unit h) 0, with row = (tile rows' embeddings)·w_iᵀ and col = (all embeddings)·w_jᵀ read as sums
  over the embedding's 64 coordinates; the parameters W2, b2, W3, b3 reach the arithmetic through identity casts; the
  second layer and the output sum, read at the entry, are the specification's two sums over these planes.
-/
import proofs.«142047_j12206297055728_1_alg».proof.Proof.KIRegion0
import proofs.«142047_j12206297055728_1_alg».proof.Proof.Spec
import proofs.«142047_j12206297055728_1_alg».proof.Proof.KIMlpRead
import proofs.«142047_j12206297055728_1_alg».proof.Proof.KITail0
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The parameters reach the arithmetic unchanged -/

/-- b1 as the arithmetic reads it is b1 (an identity cast); likewise W2, b2, W3, b3 below. -/
theorem k0_pay3_eq (v : Vec Ideal S8 .f32) : k0_pay3 v = v := by unfold k0_pay3; exact shapeCast_self _ _
theorem k0_pay4_eq (v : Vec Ideal S8x8 .f32) : k0_pay4 v = v := by unfold k0_pay4; exact shapeCast_self _ _
theorem k0_pay5_eq (v : Vec Ideal S8 .f32) : k0_pay5 v = v := by unfold k0_pay5; exact shapeCast_self _ _
theorem k0_pay6_eq (v : Vec Ideal S1x8 .f32) : k0_pay6 v = v := by unfold k0_pay6; exact shapeCast_self _ _
theorem k0_pay7_eq (v : Vec Ideal S1 .f32) : k0_pay7 v = v := by unfold k0_pay7; exact shapeCast_self _ _

/-! ## The eight first-layer planes at an entry -/

section planes
variable (x0 : Vec Ideal S128x1024 .f32) (x1 : Vec Ideal S128x64 .f32) (x2 : Vec Ideal S1024x64 .f32)
  (x3 : Vec Ideal S8x129 .f32) (x4 : Vec Ideal S8 .f32) (p : Fin 128) (q : Fin 1024)

/-- The first layer's chain of products and sums at hidden unit `k` is the specification's pre-activation:
    w_a[k] is W1[k, 0], row[p, k] = Σ_d e[p, d]·W1[k, 1 + d], col[q, k] = Σ_d e[q, d]·W1[k, 65 + d]. -/
theorem k0_pre (k : Fin 8) :
    x0 (ix2 p q) * k0_pay8 x3 (ix1 k) + k0_pay9 x1 x3 (ix2 p k) + k0_pay10 x2 x3 (ix2 q k) + k0_pay3 x4 (ix1 k)
      = Cert.Spec.mlpPre (x0 (ix2 p q)) (fun d => x1 (ix2 p d)) (fun d => x2 (ix2 q d)) x3 x4 k := by
  have e8 : k0_pay8 x3 (ix1 k) = x3 (ix2 k (0 : Fin 129)) := by
    unfold k0_pay8 k0_pay2; exact MlpRead.firstCol x3 _ _ _ k
  have e9 : k0_pay9 x1 x3 (ix2 p k) = ∑ d : Fin 64, x1 (ix2 p d) * x3 (ix2 k (Cert.Spec.colI d)) := by
    unfold k0_pay9 k0_pay2; exact MlpRead.rowProj x1 x3 _ _ _ p k
  have e10 : k0_pay10 x2 x3 (ix2 q k) = ∑ d : Fin 64, x2 (ix2 q d) * x3 (ix2 k (Cert.Spec.colJ d)) := by
    unfold k0_pay10 k0_pay2; exact MlpRead.colProj x2 x3 _ _ _ q k
  rw [e8, e9, e10, k0_pay3_eq]
  rfl

theorem k0_plane0 :
    k0_pay12 (k0_pay11 x0 x1 x2 x3 x4) (Scalar.ofBits .f32 0x00000000#32) (ix2 p q) = max (Cert.Spec.mlpPre (x0 (ix2 p q)) (fun d => x1 (ix2 p d)) (fun d => x2 (ix2 q d)) x3 x4 0) 0 := by
  unfold k0_pay12 k0_pay11
  exact MlpRead.relu_read _ p q _
    ((MlpRead.pre_read x0 (k0_pay3 x4) (k0_pay8 x3) (k0_pay9 x1 x3) (k0_pay10 x2 x3) 0 0 rfl _ _ _ _ _ _ _ _ _ _ p q).trans
      (k0_pre x0 x1 x2 x3 x4 p q 0))

theorem k0_plane1 :
    k0_pay13 x0 (k0_pay3 x4) (k0_pay8 x3) (k0_pay9 x1 x3) (k0_pay10 x2 x3) (ix2 p q) = max (Cert.Spec.mlpPre (x0 (ix2 p q)) (fun d => x1 (ix2 p d)) (fun d => x2 (ix2 q d)) x3 x4 1) 0 := by
  unfold k0_pay13
  exact MlpRead.relu_read _ p q _
    ((MlpRead.pre_read x0 (k0_pay3 x4) (k0_pay8 x3) (k0_pay9 x1 x3) (k0_pay10 x2 x3) 1 1 rfl _ _ _ _ _ _ _ _ _ _ p q).trans
      (k0_pre x0 x1 x2 x3 x4 p q 1))

theorem k0_plane2 :
    k0_pay14 x0 (k0_pay3 x4) (k0_pay8 x3) (k0_pay9 x1 x3) (k0_pay10 x2 x3) (ix2 p q) = max (Cert.Spec.mlpPre (x0 (ix2 p q)) (fun d => x1 (ix2 p d)) (fun d => x2 (ix2 q d)) x3 x4 2) 0 := by
  unfold k0_pay14
  exact MlpRead.relu_read _ p q _
    ((MlpRead.pre_read x0 (k0_pay3 x4) (k0_pay8 x3) (k0_pay9 x1 x3) (k0_pay10 x2 x3) 2 2 rfl _ _ _ _ _ _ _ _ _ _ p q).trans
      (k0_pre x0 x1 x2 x3 x4 p q 2))

theorem k0_plane3 :
    k0_pay17 (k0_pay15 x0 (k0_pay8 x3) (k0_pay9 x1 x3) (k0_pay10 x2 x3)) (k0_pay16 (k0_pay3 x4)) (ix2 p q) = max (Cert.Spec.mlpPre (x0 (ix2 p q)) (fun d => x1 (ix2 p d)) (fun d => x2 (ix2 q d)) x3 x4 3) 0 := by
  unfold k0_pay17 k0_pay15 k0_pay16
  exact MlpRead.relu_read _ p q _
    ((MlpRead.pre_read x0 (k0_pay3 x4) (k0_pay8 x3) (k0_pay9 x1 x3) (k0_pay10 x2 x3) 3 3 rfl _ _ _ _ _ _ _ _ _ _ p q).trans
      (k0_pre x0 x1 x2 x3 x4 p q 3))

theorem k0_plane4 :
    k0_pay18 x0 (k0_pay3 x4) (k0_pay8 x3) (k0_pay9 x1 x3) (k0_pay10 x2 x3) (ix2 p q) = max (Cert.Spec.mlpPre (x0 (ix2 p q)) (fun d => x1 (ix2 p d)) (fun d => x2 (ix2 q d)) x3 x4 4) 0 := by
  unfold k0_pay18
  exact MlpRead.relu_read _ p q _
    ((MlpRead.pre_read x0 (k0_pay3 x4) (k0_pay8 x3) (k0_pay9 x1 x3) (k0_pay10 x2 x3) 4 4 rfl _ _ _ _ _ _ _ _ _ _ p q).trans
      (k0_pre x0 x1 x2 x3 x4 p q 4))

theorem k0_plane5 :
    k0_pay19 x0 (k0_pay3 x4) (k0_pay8 x3) (k0_pay9 x1 x3) (k0_pay10 x2 x3) (ix2 p q) = max (Cert.Spec.mlpPre (x0 (ix2 p q)) (fun d => x1 (ix2 p d)) (fun d => x2 (ix2 q d)) x3 x4 5) 0 := by
  unfold k0_pay19
  exact MlpRead.relu_read _ p q _
    ((MlpRead.pre_read x0 (k0_pay3 x4) (k0_pay8 x3) (k0_pay9 x1 x3) (k0_pay10 x2 x3) 5 5 rfl _ _ _ _ _ _ _ _ _ _ p q).trans
      (k0_pre x0 x1 x2 x3 x4 p q 5))

theorem k0_plane6 :
    k0_pay22 (k0_pay3 x4) (k0_pay20 x0 (k0_pay8 x3) (k0_pay9 x1 x3)) (k0_pay21 (k0_pay10 x2 x3)) (ix2 p q) = max (Cert.Spec.mlpPre (x0 (ix2 p q)) (fun d => x1 (ix2 p d)) (fun d => x2 (ix2 q d)) x3 x4 6) 0 := by
  unfold k0_pay22 k0_pay20 k0_pay21
  exact MlpRead.relu_read _ p q _
    ((MlpRead.pre_read x0 (k0_pay3 x4) (k0_pay8 x3) (k0_pay9 x1 x3) (k0_pay10 x2 x3) 6 6 rfl _ _ _ _ _ _ _ _ _ _ p q).trans
      (k0_pre x0 x1 x2 x3 x4 p q 6))

theorem k0_plane7 :
    k0_pay23 x0 (k0_pay3 x4) (k0_pay8 x3) (k0_pay9 x1 x3) (k0_pay10 x2 x3) (ix2 p q) = max (Cert.Spec.mlpPre (x0 (ix2 p q)) (fun d => x1 (ix2 p d)) (fun d => x2 (ix2 q d)) x3 x4 7) 0 := by
  unfold k0_pay23
  exact MlpRead.relu_read _ p q _
    ((MlpRead.pre_read x0 (k0_pay3 x4) (k0_pay8 x3) (k0_pay9 x1 x3) (k0_pay10 x2 x3) 7 7 rfl _ _ _ _ _ _ _ _ _ _ p q).trans
      (k0_pre x0 x1 x2 x3 x4 p q 7))

end planes

/-! ## The stored tile at an entry -/

/-- The tile the body stores, at entry `(p, q)`, is the message MLP's value at the edge: the matrix entry, the tile row's
    and the column node's embeddings, and the parameters. -/
theorem stored0_apply (x0 : Vec Ideal S128x1024 .f32) (x1 : Vec Ideal S128x64 .f32) (x2 : Vec Ideal S1024x64 .f32) (x3 : Vec Ideal S8x129 .f32)
    (x4 : Vec Ideal S8 .f32) (x5 : Vec Ideal S8x8 .f32) (x6 : Vec Ideal S8 .f32) (x7 : Vec Ideal S1x8 .f32) (x8 : Vec Ideal S1 .f32)
    (p : Fin 128) (q : Fin 1024) :
    stored0 (F := Ideal) x0 x1 x2 x3 x4 x5 x6 x7 x8 (ix2 p q)
      = Cert.Spec.mlpVal (x0 (ix2 p q)) (fun d => x1 (ix2 p d)) (fun d => x2 (ix2 q d)) x3 x4 x5 x6 x7 x8 := by
  have z2 : ((![0, 0] : Fin 2 → Nat)) = fun _ => 0 := funext fun a => by
    match a with
    | ⟨0, _⟩ => rfl
    | ⟨1, _⟩ => rfl
  have z1 : ((![0] : Fin 1 → Nat)) = fun _ => 0 := funext fun a => by
    match a with
    | ⟨0, _⟩ => rfl
  have l0 : View.ld x0 r0_t = x0 := View.ld_unit_zero z2 _ x0
  have l1 : View.ld x1 r0_e = x1 := View.ld_unit_zero z2 _ x1
  have l2 : View.ld x2 r0_f = x2 := View.ld_unit_zero z2 _ x2
  have l3 : View.ld x3 r0_w1 = x3 := View.ld_unit_zero z2 _ x3
  have l4 : View.ld x4 r0_h = x4 := View.ld_unit_zero z1 _ x4
  have l5 : View.ld x5 r0_w2 = x5 := View.ld_unit_zero z2 _ x5
  have l6 : View.ld x6 r0_h = x6 := View.ld_unit_zero z1 _ x6
  have l7 : View.ld x7 r0_w3 = x7 := View.ld_unit_zero z2 _ x7
  have l8 : View.ld x8 r0_s = x8 := View.ld_unit_zero z1 _ x8
  unfold stored0
  simp only [l0, l1, l2, l3, l4, l5, l6, l7, l8]
  refine (mlpTail0_apply (k0_pay4 x5) (k0_pay5 x6) (k0_pay6 x7) (k0_pay7 x8)
    (k0_pay12 (k0_pay11 x0 x1 x2 x3 x4) (Scalar.ofBits .f32 0x00000000#32))
    (k0_pay13 x0 (k0_pay3 x4) (k0_pay8 x3) (k0_pay9 x1 x3) (k0_pay10 x2 x3))
    (k0_pay14 x0 (k0_pay3 x4) (k0_pay8 x3) (k0_pay9 x1 x3) (k0_pay10 x2 x3))
    (k0_pay17 (k0_pay15 x0 (k0_pay8 x3) (k0_pay9 x1 x3) (k0_pay10 x2 x3)) (k0_pay16 (k0_pay3 x4)))
    (k0_pay18 x0 (k0_pay3 x4) (k0_pay8 x3) (k0_pay9 x1 x3) (k0_pay10 x2 x3))
    (k0_pay19 x0 (k0_pay3 x4) (k0_pay8 x3) (k0_pay9 x1 x3) (k0_pay10 x2 x3))
    (k0_pay22 (k0_pay3 x4) (k0_pay20 x0 (k0_pay8 x3) (k0_pay9 x1 x3)) (k0_pay21 (k0_pay10 x2 x3)))
    (k0_pay23 x0 (k0_pay3 x4) (k0_pay8 x3) (k0_pay9 x1 x3) (k0_pay10 x2 x3)) p q).trans ?_
  rw [k0_pay4_eq, k0_pay5_eq, k0_pay6_eq, k0_pay7_eq, k0_plane0, k0_plane1, k0_plane2, k0_plane3, k0_plane4, k0_plane5,
    k0_plane6, k0_plane7]
  have hv : (![max (Cert.Spec.mlpPre (x0 (ix2 p q)) (fun d => x1 (ix2 p d)) (fun d => x2 (ix2 q d)) x3 x4 0) 0, max (Cert.Spec.mlpPre (x0 (ix2 p q)) (fun d => x1 (ix2 p d)) (fun d => x2 (ix2 q d)) x3 x4 1) 0, max (Cert.Spec.mlpPre (x0 (ix2 p q)) (fun d => x1 (ix2 p d)) (fun d => x2 (ix2 q d)) x3 x4 2) 0, max (Cert.Spec.mlpPre (x0 (ix2 p q)) (fun d => x1 (ix2 p d)) (fun d => x2 (ix2 q d)) x3 x4 3) 0, max (Cert.Spec.mlpPre (x0 (ix2 p q)) (fun d => x1 (ix2 p d)) (fun d => x2 (ix2 q d)) x3 x4 4) 0, max (Cert.Spec.mlpPre (x0 (ix2 p q)) (fun d => x1 (ix2 p d)) (fun d => x2 (ix2 q d)) x3 x4 5) 0,
      max (Cert.Spec.mlpPre (x0 (ix2 p q)) (fun d => x1 (ix2 p d)) (fun d => x2 (ix2 q d)) x3 x4 6) 0, max (Cert.Spec.mlpPre (x0 (ix2 p q)) (fun d => x1 (ix2 p d)) (fun d => x2 (ix2 q d)) x3 x4 7) 0] : Fin 8 → EReal) = fun h => max (Cert.Spec.mlpPre (x0 (ix2 p q)) (fun d => x1 (ix2 p d)) (fun d => x2 (ix2 q d)) x3 x4 h) 0 := by
    funext h
    fin_cases h <;> rfl
  rw [hv]
  rfl

end Cert.KernelIdeal.Hand

end
-- ==== Proof.KITail1.lean ====
/-
  The second half of the edge-wise message MLP's stored tile, over abstract first-layer planes: each of the eight
  second-layer planes is the maximum with zero of a left-nested chain — the eight first-layer planes times the entries
  of one row of W2, added in index order, plus that unit's entry of b2 —, and the output is the same kind of chain of
  the second-layer planes against W3's one row, plus b3's entry. Read at one entry (p, q) of the tile these are the
  specification's two sums, unit k of the second layer weighting plane h by W2[k, h].
-/
import proofs.«142047_j12206297055728_1_alg».proof.Proof.Gen.KernelIdeal.Skeleton
import proofs.«142047_j12206297055728_1_alg».proof.Proof.Spec
import proofs.«142047_j12206297055728_1_alg».proof.Proof.KIMlpRead
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

/-- The tile the body stores, from the second layer on, as a function of W2, b2, W3, b3 and the eight first-layer planes. -/
def mlpTail1 (v8 : FVec Ideal S8x8 .f32) (v10 : FVec Ideal S8 .f32) (v12 : FVec Ideal S1x8 .f32) (v14 : FVec Ideal S1 .f32)
    (v42 v62 v82 v102 v122 v142 v162 v182 : FVec Ideal S128x1024 .f32) : FVec Ideal S128x1024 .f32 :=
  let v211 := k1_pay24 v8 v42 v62 v82 v102 v122 v142; let v213 := k1_pay25 v8
  let v227 := k1_pay26 v8 v10 v162 v182 v211 v213; let v270 := k1_pay27 v8 v10 v42 v62 v82 v102 v122 v142 v162 v182; let v271 : FVec Ideal S128x1024 .f32 := k1_pay28 (F := Ideal)
  let v272 := k1_pay29 v270 v271; let v317 := k1_pay30 v8 v10 v42 v62 v82 v102 v122 v142 v162 v182; let v326 := k1_pay31 v8 v42 v62; let v330 := k1_pay32 v8 v82
  let v362 := k1_pay33 v8 v10 v102 v122 v142 v162 v182 v326 v330; let v386 := k1_pay34 v8 v42 v62 v82 v102 v122; let v389 := k1_pay35 v8
  let v407 := k1_pay36 v8 v10 v142 v162 v182 v386 v389; let v446 := k1_pay37 v8 v42 v62 v82 v102 v122 v142 v162 v182; let v448 := k1_pay38 v10
  let v452 := k1_pay39 v446 v448; let v497 := k1_pay40 v8 v10 v42 v62 v82 v102 v122 v142 v162 v182; let v506 := k1_pay41 v8 v42 v62
  let v542 := k1_pay42 v8 v10 v82 v102 v122 v142 v162 v182 v506; let v561 := k1_pay43 v12 v227 v272 v317 v362; let v565 := k1_pay44 v12 v407
  k1_pay1 v12 v14 v452 v497 v542 v561 v565

/-- A maximum with the zero splat, read at `(p, q)`: the larger of the plane's entry and 0. -/
theorem tail1_relu (a : FVec Ideal S128x1024 .f32) (p : Fin 128) (q : Fin 1024) (r : EReal) (h : a (ix2 p q) = r) :
    maximumf a (broadcast S128x1024 (Scalar.ofBits (F := Ideal) .f32 0x00000000#32)) (ix2 p q) = max r 0 := by
  rw [maximumf_apply, broadcast_apply, h]
  show max r (Ideal.ofBits .f32 0x00000000#32) = _
  rw [Ideal.ofBits_zero_f32]

/-- Second-layer plane 0 at `(p, q)`: relu of the planes against row 0 of W2, plus b2[0]. -/
theorem tail1_plane0 (v8 : FVec Ideal S8x8 .f32) (v10 : FVec Ideal S8 .f32)
    (v42 v62 v82 v102 v122 v142 v162 v182 : FVec Ideal S128x1024 .f32) (p : Fin 128) (q : Fin 1024) :
    (k1_pay26 v8 v10 v162 v182 (k1_pay24 v8 v42 v62 v82 v102 v122 v142) (k1_pay25 v8)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (0 : Fin 8) h)) + v10 (ix1 (0 : Fin 8))) 0 :=
  tail1_relu _ p q _ (MlpRead.mid_read v42 v62 v82 v102 v122 v142 v162 v182 v8 v10 0 (0 : Fin 8) rfl
    slices_S8x8_o0_0_S1x1 slices_S8x8_o0_1_S1x1 slices_S8x8_o0_2_S1x1 slices_S8x8_o0_3_S1x1 slices_S8x8_o0_4_S1x1 slices_S8x8_o0_5_S1x1 slices_S8x8_o0_6_S1x1 slices_S8x8_o0_7_S1x1
    inpos_S1x1_p0_0 slices_S8_o0_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 1 at `(p, q)`: relu of the planes against row 1 of W2, plus b2[1]. -/
theorem tail1_plane1 (v8 : FVec Ideal S8x8 .f32) (v10 : FVec Ideal S8 .f32)
    (v42 v62 v82 v102 v122 v142 v162 v182 : FVec Ideal S128x1024 .f32) (p : Fin 128) (q : Fin 1024) :
    (k1_pay29 (k1_pay27 v8 v10 v42 v62 v82 v102 v122 v142 v162 v182) (k1_pay28 (F := Ideal))) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (1 : Fin 8) h)) + v10 (ix1 (1 : Fin 8))) 0 :=
  tail1_relu _ p q _ (MlpRead.mid_read v42 v62 v82 v102 v122 v142 v162 v182 v8 v10 1 (1 : Fin 8) rfl
    slices_S8x8_o1_0_S1x1 slices_S8x8_o1_1_S1x1 slices_S8x8_o1_2_S1x1 slices_S8x8_o1_3_S1x1 slices_S8x8_o1_4_S1x1 slices_S8x8_o1_5_S1x1 slices_S8x8_o1_6_S1x1 slices_S8x8_o1_7_S1x1
    inpos_S1x1_p0_0 slices_S8_o1_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 2 at `(p, q)`: relu of the planes against row 2 of W2, plus b2[2]. -/
theorem tail1_plane2 (v8 : FVec Ideal S8x8 .f32) (v10 : FVec Ideal S8 .f32)
    (v42 v62 v82 v102 v122 v142 v162 v182 : FVec Ideal S128x1024 .f32) (p : Fin 128) (q : Fin 1024) :
    (k1_pay30 v8 v10 v42 v62 v82 v102 v122 v142 v162 v182) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (2 : Fin 8) h)) + v10 (ix1 (2 : Fin 8))) 0 :=
  tail1_relu _ p q _ (MlpRead.mid_read v42 v62 v82 v102 v122 v142 v162 v182 v8 v10 2 (2 : Fin 8) rfl
    slices_S8x8_o2_0_S1x1 slices_S8x8_o2_1_S1x1 slices_S8x8_o2_2_S1x1 slices_S8x8_o2_3_S1x1 slices_S8x8_o2_4_S1x1 slices_S8x8_o2_5_S1x1 slices_S8x8_o2_6_S1x1 slices_S8x8_o2_7_S1x1
    inpos_S1x1_p0_0 slices_S8_o2_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 3 at `(p, q)`: relu of the planes against row 3 of W2, plus b2[3]. -/
theorem tail1_plane3 (v8 : FVec Ideal S8x8 .f32) (v10 : FVec Ideal S8 .f32)
    (v42 v62 v82 v102 v122 v142 v162 v182 : FVec Ideal S128x1024 .f32) (p : Fin 128) (q : Fin 1024) :
    (k1_pay33 v8 v10 v102 v122 v142 v162 v182 (k1_pay31 v8 v42 v62) (k1_pay32 v8 v82)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (3 : Fin 8) h)) + v10 (ix1 (3 : Fin 8))) 0 :=
  tail1_relu _ p q _ (MlpRead.mid_read v42 v62 v82 v102 v122 v142 v162 v182 v8 v10 3 (3 : Fin 8) rfl
    slices_S8x8_o3_0_S1x1 slices_S8x8_o3_1_S1x1 slices_S8x8_o3_2_S1x1 slices_S8x8_o3_3_S1x1 slices_S8x8_o3_4_S1x1 slices_S8x8_o3_5_S1x1 slices_S8x8_o3_6_S1x1 slices_S8x8_o3_7_S1x1
    inpos_S1x1_p0_0 slices_S8_o3_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 4 at `(p, q)`: relu of the planes against row 4 of W2, plus b2[4]. -/
theorem tail1_plane4 (v8 : FVec Ideal S8x8 .f32) (v10 : FVec Ideal S8 .f32)
    (v42 v62 v82 v102 v122 v142 v162 v182 : FVec Ideal S128x1024 .f32) (p : Fin 128) (q : Fin 1024) :
    (k1_pay36 v8 v10 v142 v162 v182 (k1_pay34 v8 v42 v62 v82 v102 v122) (k1_pay35 v8)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (4 : Fin 8) h)) + v10 (ix1 (4 : Fin 8))) 0 :=
  tail1_relu _ p q _ (MlpRead.mid_read v42 v62 v82 v102 v122 v142 v162 v182 v8 v10 4 (4 : Fin 8) rfl
    slices_S8x8_o4_0_S1x1 slices_S8x8_o4_1_S1x1 slices_S8x8_o4_2_S1x1 slices_S8x8_o4_3_S1x1 slices_S8x8_o4_4_S1x1 slices_S8x8_o4_5_S1x1 slices_S8x8_o4_6_S1x1 slices_S8x8_o4_7_S1x1
    inpos_S1x1_p0_0 slices_S8_o4_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 5 at `(p, q)`: relu of the planes against row 5 of W2, plus b2[5]. -/
theorem tail1_plane5 (v8 : FVec Ideal S8x8 .f32) (v10 : FVec Ideal S8 .f32)
    (v42 v62 v82 v102 v122 v142 v162 v182 : FVec Ideal S128x1024 .f32) (p : Fin 128) (q : Fin 1024) :
    (k1_pay39 (k1_pay37 v8 v42 v62 v82 v102 v122 v142 v162 v182) (k1_pay38 v10)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (5 : Fin 8) h)) + v10 (ix1 (5 : Fin 8))) 0 :=
  tail1_relu _ p q _ (MlpRead.mid_read v42 v62 v82 v102 v122 v142 v162 v182 v8 v10 5 (5 : Fin 8) rfl
    slices_S8x8_o5_0_S1x1 slices_S8x8_o5_1_S1x1 slices_S8x8_o5_2_S1x1 slices_S8x8_o5_3_S1x1 slices_S8x8_o5_4_S1x1 slices_S8x8_o5_5_S1x1 slices_S8x8_o5_6_S1x1 slices_S8x8_o5_7_S1x1
    inpos_S1x1_p0_0 slices_S8_o5_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 6 at `(p, q)`: relu of the planes against row 6 of W2, plus b2[6]. -/
theorem tail1_plane6 (v8 : FVec Ideal S8x8 .f32) (v10 : FVec Ideal S8 .f32)
    (v42 v62 v82 v102 v122 v142 v162 v182 : FVec Ideal S128x1024 .f32) (p : Fin 128) (q : Fin 1024) :
    (k1_pay40 v8 v10 v42 v62 v82 v102 v122 v142 v162 v182) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (6 : Fin 8) h)) + v10 (ix1 (6 : Fin 8))) 0 :=
  tail1_relu _ p q _ (MlpRead.mid_read v42 v62 v82 v102 v122 v142 v162 v182 v8 v10 6 (6 : Fin 8) rfl
    slices_S8x8_o6_0_S1x1 slices_S8x8_o6_1_S1x1 slices_S8x8_o6_2_S1x1 slices_S8x8_o6_3_S1x1 slices_S8x8_o6_4_S1x1 slices_S8x8_o6_5_S1x1 slices_S8x8_o6_6_S1x1 slices_S8x8_o6_7_S1x1
    inpos_S1x1_p0_0 slices_S8_o6_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- Second-layer plane 7 at `(p, q)`: relu of the planes against row 7 of W2, plus b2[7]. -/
theorem tail1_plane7 (v8 : FVec Ideal S8x8 .f32) (v10 : FVec Ideal S8 .f32)
    (v42 v62 v82 v102 v122 v142 v162 v182 : FVec Ideal S128x1024 .f32) (p : Fin 128) (q : Fin 1024) :
    (k1_pay42 v8 v10 v82 v102 v122 v142 v162 v182 (k1_pay41 v8 v42 v62)) (ix2 p q)
      = max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 (7 : Fin 8) h)) + v10 (ix1 (7 : Fin 8))) 0 :=
  tail1_relu _ p q _ (MlpRead.mid_read v42 v62 v82 v102 v122 v142 v162 v182 v8 v10 7 (7 : Fin 8) rfl
    slices_S8x8_o7_0_S1x1 slices_S8x8_o7_1_S1x1 slices_S8x8_o7_2_S1x1 slices_S8x8_o7_3_S1x1 slices_S8x8_o7_4_S1x1 slices_S8x8_o7_5_S1x1 slices_S8x8_o7_6_S1x1 slices_S8x8_o7_7_S1x1
    inpos_S1x1_p0_0 slices_S8_o7_S1 inpos_S1_p0 p q (![v42 (ix2 p q), v62 (ix2 p q), v82 (ix2 p q), v102 (ix2 p q), v122 (ix2 p q), v142 (ix2 p q), v162 (ix2 p q), v182 (ix2 p q)] : Fin 8 → EReal) rfl rfl rfl rfl rfl rfl rfl rfl)

/-- The stored tile's tail at `(p, q)`: the second layer and the output sum of the specification. -/
theorem mlpTail1_apply (v8 : FVec Ideal S8x8 .f32) (v10 : FVec Ideal S8 .f32) (v12 : FVec Ideal S1x8 .f32) (v14 : FVec Ideal S1 .f32)
    (v42 v62 v82 v102 v122 v142 v162 v182 : FVec Ideal S128x1024 .f32) (p : Fin 128) (q : Fin 1024) :
    mlpTail1 v8 v10 v12 v14 v42 v62 v82 v102 v122 v142 v162 v182 (ix2 p q)
      = (∑ k : Fin 8, max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 k h)) + v10 (ix1 k)) 0 * v12 (ix2 (0 : Fin 1) k)) + v14 (ix1 (0 : Fin 1)) := by
  unfold mlpTail1
  exact MlpRead.out_read
    (k1_pay26 v8 v10 v162 v182 (k1_pay24 v8 v42 v62 v82 v102 v122 v142) (k1_pay25 v8))
    (k1_pay29 (k1_pay27 v8 v10 v42 v62 v82 v102 v122 v142 v162 v182) (k1_pay28 (F := Ideal)))
    (k1_pay30 v8 v10 v42 v62 v82 v102 v122 v142 v162 v182)
    (k1_pay33 v8 v10 v102 v122 v142 v162 v182 (k1_pay31 v8 v42 v62) (k1_pay32 v8 v82))
    (k1_pay36 v8 v10 v142 v162 v182 (k1_pay34 v8 v42 v62 v82 v102 v122) (k1_pay35 v8))
    (k1_pay39 (k1_pay37 v8 v42 v62 v82 v102 v122 v142 v162 v182) (k1_pay38 v10))
    (k1_pay40 v8 v10 v42 v62 v82 v102 v122 v142 v162 v182)
    (k1_pay42 v8 v10 v82 v102 v122 v142 v162 v182 (k1_pay41 v8 v42 v62))
    v12 v14 slices_S1x8_o0_0_S1x1 slices_S1x8_o0_1_S1x1 slices_S1x8_o0_2_S1x1 slices_S1x8_o0_3_S1x1 slices_S1x8_o0_4_S1x1 slices_S1x8_o0_5_S1x1 slices_S1x8_o0_6_S1x1 slices_S1x8_o0_7_S1x1
    inpos_S1x1_p0_0 inpos_S1_p0 p q
    (fun k : Fin 8 => max ((∑ h : Fin 8, (![v42 (ix2 p q), v62 (ix2 p q), v82 (ix2 p q), v102 (ix2 p q), v122 (ix2 p q), v142 (ix2 p q), v162 (ix2 p q), v182 (ix2 p q)] : Fin 8 → EReal) h * v8 (ix2 k h)) + v10 (ix1 k)) 0)
    (tail1_plane0 v8 v10 v42 v62 v82 v102 v122 v142 v162 v182 p q)
    (tail1_plane1 v8 v10 v42 v62 v82 v102 v122 v142 v162 v182 p q)
    (tail1_plane2 v8 v10 v42 v62 v82 v102 v122 v142 v162 v182 p q)
    (tail1_plane3 v8 v10 v42 v62 v82 v102 v122 v142 v162 v182 p q)
    (tail1_plane4 v8 v10 v42 v62 v82 v102 v122 v142 v162 v182 p q)
    (tail1_plane5 v8 v10 v42 v62 v82 v102 v122 v142 v162 v182 p q)
    (tail1_plane6 v8 v10 v42 v62 v82 v102 v122 v142 v162 v182 p q)
    (tail1_plane7 v8 v10 v42 v62 v82 v102 v122 v142 v162 v182 p q)

end Cert.KernelIdeal.Hand

end
-- ==== Proof.KITile1.lean ====
/-
  The tile the second message-MLP kernel's body stores, read at one entry (p, q): the specification's value of the MLP at that
  edge. The eight first-layer planes relu(tile·w_a[h] + row[:, h] + col[:, h] + b1[h]) are read at the entry as
  max (pre-activation of unit h) 0, with row = (tile rows' embeddings)·w_iᵀ and col = (all embeddings)·w_jᵀ read as sums
  over the embedding's 64 coordinates; the parameters W2, b2, W3, b3 reach the arithmetic through identity casts; the
  second layer and the output sum, read at the entry, are the specification's two sums over these planes.
-/
import proofs.«142047_j12206297055728_1_alg».proof.Proof.KIRegion1
import proofs.«142047_j12206297055728_1_alg».proof.Proof.Spec
import proofs.«142047_j12206297055728_1_alg».proof.Proof.KIMlpRead
import proofs.«142047_j12206297055728_1_alg».proof.Proof.KITail1
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## The parameters reach the arithmetic unchanged -/

/-- b1 as the arithmetic reads it is b1 (an identity cast); likewise W2, b2, W3, b3 below. -/
theorem k1_pay3_eq (v : Vec Ideal S8 .f32) : k1_pay3 v = v := by unfold k1_pay3; exact shapeCast_self _ _
theorem k1_pay4_eq (v : Vec Ideal S8x8 .f32) : k1_pay4 v = v := by unfold k1_pay4; exact shapeCast_self _ _
theorem k1_pay5_eq (v : Vec Ideal S8 .f32) : k1_pay5 v = v := by unfold k1_pay5; exact shapeCast_self _ _
theorem k1_pay6_eq (v : Vec Ideal S1x8 .f32) : k1_pay6 v = v := by unfold k1_pay6; exact shapeCast_self _ _
theorem k1_pay7_eq (v : Vec Ideal S1 .f32) : k1_pay7 v = v := by unfold k1_pay7; exact shapeCast_self _ _

/-! ## The eight first-layer planes at an entry -/

section planes
variable (x0 : Vec Ideal S128x1024 .f32) (x1 : Vec Ideal S128x64 .f32) (x2 : Vec Ideal S1024x64 .f32)
  (x3 : Vec Ideal S8x129 .f32) (x4 : Vec Ideal S8 .f32) (p : Fin 128) (q : Fin 1024)

/-- The first layer's chain of products and sums at hidden unit `k` is the specification's pre-activation:
    w_a[k] is W1[k, 0], row[p, k] = Σ_d e[p, d]·W1[k, 1 + d], col[q, k] = Σ_d e[q, d]·W1[k, 65 + d]. -/
theorem k1_pre (k : Fin 8) :
    x0 (ix2 p q) * k1_pay8 x3 (ix1 k) + k1_pay9 x1 x3 (ix2 p k) + k1_pay10 x2 x3 (ix2 q k) + k1_pay3 x4 (ix1 k)
      = Cert.Spec.mlpPre (x0 (ix2 p q)) (fun d => x1 (ix2 p d)) (fun d => x2 (ix2 q d)) x3 x4 k := by
  have e8 : k1_pay8 x3 (ix1 k) = x3 (ix2 k (0 : Fin 129)) := by
    unfold k1_pay8 k1_pay2; exact MlpRead.firstCol x3 _ _ _ k
  have e9 : k1_pay9 x1 x3 (ix2 p k) = ∑ d : Fin 64, x1 (ix2 p d) * x3 (ix2 k (Cert.Spec.colI d)) := by
    unfold k1_pay9 k1_pay2; exact MlpRead.rowProj x1 x3 _ _ _ p k
  have e10 : k1_pay10 x2 x3 (ix2 q k) = ∑ d : Fin 64, x2 (ix2 q d) * x3 (ix2 k (Cert.Spec.colJ d)) := by
    unfold k1_pay10 k1_pay2; exact MlpRead.colProj x2 x3 _ _ _ q k
  rw [e8, e9, e10, k1_pay3_eq]
  rfl

theorem k1_plane0 :
    k1_pay12 (k1_pay11 x0 x1 x2 x3 x4) (Scalar.ofBits .f32 0x00000000#32) (ix2 p q) = max (Cert.Spec.mlpPre (x0 (ix2 p q)) (fun d => x1 (ix2 p d)) (fun d => x2 (ix2 q d)) x3 x4 0) 0 := by
  unfold k1_pay12 k1_pay11
  exact MlpRead.relu_read _ p q _
    ((MlpRead.pre_read x0 (k1_pay3 x4) (k1_pay8 x3) (k1_pay9 x1 x3) (k1_pay10 x2 x3) 0 0 rfl _ _ _ _ _ _ _ _ _ _ p q).trans
      (k1_pre x0 x1 x2 x3 x4 p q 0))

theorem k1_plane1 :
    k1_pay13 x0 (k1_pay3 x4) (k1_pay8 x3) (k1_pay9 x1 x3) (k1_pay10 x2 x3) (ix2 p q) = max (Cert.Spec.mlpPre (x0 (ix2 p q)) (fun d => x1 (ix2 p d)) (fun d => x2 (ix2 q d)) x3 x4 1) 0 := by
  unfold k1_pay13
  exact MlpRead.relu_read _ p q _
    ((MlpRead.pre_read x0 (k1_pay3 x4) (k1_pay8 x3) (k1_pay9 x1 x3) (k1_pay10 x2 x3) 1 1 rfl _ _ _ _ _ _ _ _ _ _ p q).trans
      (k1_pre x0 x1 x2 x3 x4 p q 1))

theorem k1_plane2 :
    k1_pay14 x0 (k1_pay3 x4) (k1_pay8 x3) (k1_pay9 x1 x3) (k1_pay10 x2 x3) (ix2 p q) = max (Cert.Spec.mlpPre (x0 (ix2 p q)) (fun d => x1 (ix2 p d)) (fun d => x2 (ix2 q d)) x3 x4 2) 0 := by
  unfold k1_pay14
  exact MlpRead.relu_read _ p q _
    ((MlpRead.pre_read x0 (k1_pay3 x4) (k1_pay8 x3) (k1_pay9 x1 x3) (k1_pay10 x2 x3) 2 2 rfl _ _ _ _ _ _ _ _ _ _ p q).trans
      (k1_pre x0 x1 x2 x3 x4 p q 2))

theorem k1_plane3 :
    k1_pay17 (k1_pay15 x0 (k1_pay8 x3) (k1_pay9 x1 x3) (k1_pay10 x2 x3)) (k1_pay16 (k1_pay3 x4)) (ix2 p q) = max (Cert.Spec.mlpPre (x0 (ix2 p q)) (fun d => x1 (ix2 p d)) (fun d => x2 (ix2 q d)) x3 x4 3) 0 := by
  unfold k1_pay17 k1_pay15 k1_pay16
  exact MlpRead.relu_read _ p q _
    ((MlpRead.pre_read x0 (k1_pay3 x4) (k1_pay8 x3) (k1_pay9 x1 x3) (k1_pay10 x2 x3) 3 3 rfl _ _ _ _ _ _ _ _ _ _ p q).trans
      (k1_pre x0 x1 x2 x3 x4 p q 3))

theorem k1_plane4 :
    k1_pay18 x0 (k1_pay3 x4) (k1_pay8 x3) (k1_pay9 x1 x3) (k1_pay10 x2 x3) (ix2 p q) = max (Cert.Spec.mlpPre (x0 (ix2 p q)) (fun d => x1 (ix2 p d)) (fun d => x2 (ix2 q d)) x3 x4 4) 0 := by
  unfold k1_pay18
  exact MlpRead.relu_read _ p q _
    ((MlpRead.pre_read x0 (k1_pay3 x4) (k1_pay8 x3) (k1_pay9 x1 x3) (k1_pay10 x2 x3) 4 4 rfl _ _ _ _ _ _ _ _ _ _ p q).trans
      (k1_pre x0 x1 x2 x3 x4 p q 4))

theorem k1_plane5 :
    k1_pay19 x0 (k1_pay3 x4) (k1_pay8 x3) (k1_pay9 x1 x3) (k1_pay10 x2 x3) (ix2 p q) = max (Cert.Spec.mlpPre (x0 (ix2 p q)) (fun d => x1 (ix2 p d)) (fun d => x2 (ix2 q d)) x3 x4 5) 0 := by
  unfold k1_pay19
  exact MlpRead.relu_read _ p q _
    ((MlpRead.pre_read x0 (k1_pay3 x4) (k1_pay8 x3) (k1_pay9 x1 x3) (k1_pay10 x2 x3) 5 5 rfl _ _ _ _ _ _ _ _ _ _ p q).trans
      (k1_pre x0 x1 x2 x3 x4 p q 5))

theorem k1_plane6 :
    k1_pay22 (k1_pay3 x4) (k1_pay20 x0 (k1_pay8 x3) (k1_pay9 x1 x3)) (k1_pay21 (k1_pay10 x2 x3)) (ix2 p q) = max (Cert.Spec.mlpPre (x0 (ix2 p q)) (fun d => x1 (ix2 p d)) (fun d => x2 (ix2 q d)) x3 x4 6) 0 := by
  unfold k1_pay22 k1_pay20 k1_pay21
  exact MlpRead.relu_read _ p q _
    ((MlpRead.pre_read x0 (k1_pay3 x4) (k1_pay8 x3) (k1_pay9 x1 x3) (k1_pay10 x2 x3) 6 6 rfl _ _ _ _ _ _ _ _ _ _ p q).trans
      (k1_pre x0 x1 x2 x3 x4 p q 6))

theorem k1_plane7 :
    k1_pay23 x0 (k1_pay3 x4) (k1_pay8 x3) (k1_pay9 x1 x3) (k1_pay10 x2 x3) (ix2 p q) = max (Cert.Spec.mlpPre (x0 (ix2 p q)) (fun d => x1 (ix2 p d)) (fun d => x2 (ix2 q d)) x3 x4 7) 0 := by
  unfold k1_pay23
  exact MlpRead.relu_read _ p q _
    ((MlpRead.pre_read x0 (k1_pay3 x4) (k1_pay8 x3) (k1_pay9 x1 x3) (k1_pay10 x2 x3) 7 7 rfl _ _ _ _ _ _ _ _ _ _ p q).trans
      (k1_pre x0 x1 x2 x3 x4 p q 7))

end planes

/-! ## The stored tile at an entry -/

/-- The tile the body stores, at entry `(p, q)`, is the message MLP's value at the edge: the matrix entry, the tile row's
    and the column node's embeddings, and the parameters. -/
theorem stored1_apply (x0 : Vec Ideal S128x1024 .f32) (x1 : Vec Ideal S128x64 .f32) (x2 : Vec Ideal S1024x64 .f32) (x3 : Vec Ideal S8x129 .f32)
    (x4 : Vec Ideal S8 .f32) (x5 : Vec Ideal S8x8 .f32) (x6 : Vec Ideal S8 .f32) (x7 : Vec Ideal S1x8 .f32) (x8 : Vec Ideal S1 .f32)
    (p : Fin 128) (q : Fin 1024) :
    stored1 (F := Ideal) x0 x1 x2 x3 x4 x5 x6 x7 x8 (ix2 p q)
      = Cert.Spec.mlpVal (x0 (ix2 p q)) (fun d => x1 (ix2 p d)) (fun d => x2 (ix2 q d)) x3 x4 x5 x6 x7 x8 := by
  have z2 : ((![0, 0] : Fin 2 → Nat)) = fun _ => 0 := funext fun a => by
    match a with
    | ⟨0, _⟩ => rfl
    | ⟨1, _⟩ => rfl
  have z1 : ((![0] : Fin 1 → Nat)) = fun _ => 0 := funext fun a => by
    match a with
    | ⟨0, _⟩ => rfl
  have l0 : View.ld x0 r1_t = x0 := View.ld_unit_zero z2 _ x0
  have l1 : View.ld x1 r1_e = x1 := View.ld_unit_zero z2 _ x1
  have l2 : View.ld x2 r1_f = x2 := View.ld_unit_zero z2 _ x2
  have l3 : View.ld x3 r1_w1 = x3 := View.ld_unit_zero z2 _ x3
  have l4 : View.ld x4 r1_h = x4 := View.ld_unit_zero z1 _ x4
  have l5 : View.ld x5 r1_w2 = x5 := View.ld_unit_zero z2 _ x5
  have l6 : View.ld x6 r1_h = x6 := View.ld_unit_zero z1 _ x6
  have l7 : View.ld x7 r1_w3 = x7 := View.ld_unit_zero z2 _ x7
  have l8 : View.ld x8 r1_s = x8 := View.ld_unit_zero z1 _ x8
  unfold stored1
  simp only [l0, l1, l2, l3, l4, l5, l6, l7, l8]
  refine (mlpTail1_apply (k1_pay4 x5) (k1_pay5 x6) (k1_pay6 x7) (k1_pay7 x8)
    (k1_pay12 (k1_pay11 x0 x1 x2 x3 x4) (Scalar.ofBits .f32 0x00000000#32))
    (k1_pay13 x0 (k1_pay3 x4) (k1_pay8 x3) (k1_pay9 x1 x3) (k1_pay10 x2 x3))
    (k1_pay14 x0 (k1_pay3 x4) (k1_pay8 x3) (k1_pay9 x1 x3) (k1_pay10 x2 x3))
    (k1_pay17 (k1_pay15 x0 (k1_pay8 x3) (k1_pay9 x1 x3) (k1_pay10 x2 x3)) (k1_pay16 (k1_pay3 x4)))
    (k1_pay18 x0 (k1_pay3 x4) (k1_pay8 x3) (k1_pay9 x1 x3) (k1_pay10 x2 x3))
    (k1_pay19 x0 (k1_pay3 x4) (k1_pay8 x3) (k1_pay9 x1 x3) (k1_pay10 x2 x3))
    (k1_pay22 (k1_pay3 x4) (k1_pay20 x0 (k1_pay8 x3) (k1_pay9 x1 x3)) (k1_pay21 (k1_pay10 x2 x3)))
    (k1_pay23 x0 (k1_pay3 x4) (k1_pay8 x3) (k1_pay9 x1 x3) (k1_pay10 x2 x3)) p q).trans ?_
  rw [k1_pay4_eq, k1_pay5_eq, k1_pay6_eq, k1_pay7_eq, k1_plane0, k1_plane1, k1_plane2, k1_plane3, k1_plane4, k1_plane5,
    k1_plane6, k1_plane7]
  have hv : (![max (Cert.Spec.mlpPre (x0 (ix2 p q)) (fun d => x1 (ix2 p d)) (fun d => x2 (ix2 q d)) x3 x4 0) 0, max (Cert.Spec.mlpPre (x0 (ix2 p q)) (fun d => x1 (ix2 p d)) (fun d => x2 (ix2 q d)) x3 x4 1) 0, max (Cert.Spec.mlpPre (x0 (ix2 p q)) (fun d => x1 (ix2 p d)) (fun d => x2 (ix2 q d)) x3 x4 2) 0, max (Cert.Spec.mlpPre (x0 (ix2 p q)) (fun d => x1 (ix2 p d)) (fun d => x2 (ix2 q d)) x3 x4 3) 0, max (Cert.Spec.mlpPre (x0 (ix2 p q)) (fun d => x1 (ix2 p d)) (fun d => x2 (ix2 q d)) x3 x4 4) 0, max (Cert.Spec.mlpPre (x0 (ix2 p q)) (fun d => x1 (ix2 p d)) (fun d => x2 (ix2 q d)) x3 x4 5) 0,
      max (Cert.Spec.mlpPre (x0 (ix2 p q)) (fun d => x1 (ix2 p d)) (fun d => x2 (ix2 q d)) x3 x4 6) 0, max (Cert.Spec.mlpPre (x0 (ix2 p q)) (fun d => x1 (ix2 p d)) (fun d => x2 (ix2 q d)) x3 x4 7) 0] : Fin 8 → EReal) = fun h => max (Cert.Spec.mlpPre (x0 (ix2 p q)) (fun d => x1 (ix2 p d)) (fun d => x2 (ix2 q d)) x3 x4 h) 0 := by
    funext h
    fin_cases h <;> rfl
  rw [hv]
  rfl

end Cert.KernelIdeal.Hand

end
-- ==== Proof.RefMlp.lean ====
/-
  The reference's two message matrices read at an entry. Each is the edge-wise MLP of the specification: the first
  layer's pre-activation is the sum of four broadcast terms — the matrix entry times column 0 of W1, the row node's
  embedding against columns 1 … 64 of W1, the column node's embedding against columns 65 … 128, and the bias — the two
  hidden layers take the maximum with a zero constant, and the two mixing layers are contractions over the eight hidden
  units. Every step is a reading of one host operation at an index; the summands already stand in the specification's
  order, so no rearrangement of sums or products is needed. The second matrix is the first with the other half of the
  stacked parameters and the derivative matrix in place of the adjacency matrix.
-/
import proofs.«142047_j12206297055728_1_alg».proof.Proof.RefReadP
import proofs.«142047_j12206297055728_1_alg».proof.Proof.Spec
import Idealize.ShloMosaic.Lib.ValueIdx
import Idealize.ShloMosaic.PureOps.Ideal
import Idealize.ShloMosaic.PureOps.Ideal.Laws

noncomputable section

namespace Cert.ReferenceIdeal.RefValue

open Idealize.ShloMosaic Idealize.ShloMosaic.ValueIdx Cert.ReferenceIdeal Cert.ReferenceIdeal.ReadP

/-! ### The first message matrix -/

/-- The weight of the matrix entry: column 0 of W1, isolated by a slice and a reshape, read at hidden unit `h`. -/
theorem wA0 (x5 : (⟨S2x8x129, .f32⟩ : BufTy).Contents (Elt Ideal)) (h : Fin 8) :
    val_main_v13 (F := Ideal) x5 (ix1 h) = val_main_v1 (F := Ideal) x5 (ix2 h (0 : Fin 129)) := by
  rw [val_main_v13_apply, val_main_v12_apply]
  refine congrArg _ (funext fun a => Fin.ext ?_)
  match a with
  | ⟨0, _⟩ => show h.val / 1 = h.val; omega
  | ⟨1, _⟩ => rfl

/-- The row node's term: the embedding row `i` against the transposed slice of W1's columns 1 … 64. -/
theorem rowTerm0 (x4 : (⟨S1024x64, .f32⟩ : BufTy).Contents (Elt Ideal)) (x5 : (⟨S2x8x129, .f32⟩ : BufTy).Contents (Elt Ideal)) (i : Fin 1024) (h : Fin 8) :
    val_main_v17 (F := Ideal) x4 x5 (ix2 i h) = ∑ d : Fin 64, x4 (ix2 i d) * val_main_v1 (F := Ideal) x5 (ix2 h (Cert.Spec.colI d)) := by
  rw [val_main_v17_apply]
  refine Finset.sum_congr rfl fun d _ => ?_
  rw [val_main_v16_apply, val_main_v14_apply]
  have e1 : lidx_main_v17 (ix2 i h) d = ix2 i d := funext fun a => Fin.ext (by match a with | ⟨0, _⟩ => rfl | ⟨1, _⟩ => rfl)
  have e2 : idx_main_v14 (idx_main_v16 (ridx_main_v17 (ix2 i h) d)) = ix2 h (Cert.Spec.colI d) := funext fun a => Fin.ext (by match a with | ⟨0, _⟩ => rfl | ⟨1, _⟩ => rfl)
  rw [e1, e2]

/-- The column node's term: the embedding row `j` against the transposed slice of W1's columns 65 … 128. -/
theorem colTerm0 (x4 : (⟨S1024x64, .f32⟩ : BufTy).Contents (Elt Ideal)) (x5 : (⟨S2x8x129, .f32⟩ : BufTy).Contents (Elt Ideal)) (j : Fin 1024) (h : Fin 8) :
    val_main_v19 (F := Ideal) x4 x5 (ix2 j h) = ∑ d : Fin 64, x4 (ix2 j d) * val_main_v1 (F := Ideal) x5 (ix2 h (Cert.Spec.colJ d)) := by
  rw [val_main_v19_apply]
  refine Finset.sum_congr rfl fun d _ => ?_
  rw [val_main_v18_apply, val_main_v15_apply]
  have e1 : lidx_main_v19 (ix2 j h) d = ix2 j d := funext fun a => Fin.ext (by match a with | ⟨0, _⟩ => rfl | ⟨1, _⟩ => rfl)
  have e2 : idx_main_v15 (idx_main_v18 (ridx_main_v19 (ix2 j h) d)) = ix2 h (Cert.Spec.colJ d) := funext fun a => Fin.ext (by match a with | ⟨0, _⟩ => rfl | ⟨1, _⟩ => rfl)
  rw [e1, e2]

/-- The first layer before its relu, at edge (i, j) and hidden unit `h`: the four broadcast summands are the specification's. -/
theorem pre0 (x1 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (i j : Fin 1024) (h : Fin 8) :
    val_main_v33 (F := Ideal) x1 x4 x5 x6 (ix3 i j h) = Cert.Spec.mlpPre (x1 (ix2 i j)) (fun d => x4 (ix2 i d)) (fun d => x4 (ix2 j d)) (val_main_v1 (F := Ideal) x5) (val_main_v3 (F := Ideal) x6) h := by
  rw [val_main_v33_apply, val_main_v30_apply, val_main_v27_apply, val_main_v24_apply,
    val_main_v22_apply, val_main_v20_apply, val_main_v23_apply, val_main_v21_apply,
    val_main_v26_apply, val_main_v25_apply, val_main_v29_apply, val_main_v28_apply,
    val_main_v32_apply, val_main_v31_apply]
  have e20 : idx_main_v20 (idx_main_v22 (ix3 i j h)) = ix2 i j := funext fun a => Fin.ext (by match a with | ⟨0, _⟩ => rfl | ⟨1, _⟩ => rfl)
  have e21 : idx_main_v21 (idx_main_v23 (ix3 i j h)) = ix1 h := funext fun a => Fin.ext (by match a with | ⟨0, _⟩ => rfl)
  have e25 : idx_main_v25 (idx_main_v26 (ix3 i j h)) = ix2 i h := funext fun a => Fin.ext (by match a with | ⟨0, _⟩ => rfl | ⟨1, _⟩ => rfl)
  have e28 : idx_main_v28 (idx_main_v29 (ix3 i j h)) = ix2 j h := funext fun a => Fin.ext (by match a with | ⟨0, _⟩ => rfl | ⟨1, _⟩ => rfl)
  have e31 : idx_main_v31 (idx_main_v32 (ix3 i j h)) = ix1 h := funext fun a => Fin.ext (by match a with | ⟨0, _⟩ => rfl)
  rw [e20, e21, e25, e28, e31, wA0, rowTerm0, colTerm0]
  rfl

/-- The first layer after its relu: the maximum with the zero constant. -/
theorem hid0 (x1 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (i j : Fin 1024) (h : Fin 8) :
    val_main_v34 (F := Ideal) x1 x4 x5 x6 (ix3 i j h) = max (Cert.Spec.mlpPre (x1 (ix2 i j)) (fun d => x4 (ix2 i d)) (fun d => x4 (ix2 j d)) (val_main_v1 (F := Ideal) x5) (val_main_v3 (F := Ideal) x6) h) 0 := by
  rw [val_main_v34_apply, pre0, val_main_call0_v0_apply, val_main_call0_cst_apply]
  simp only [Ideal.maximumf_def, Ideal.ofBits_def, Ideal.ofBits_zero_f32]

/-- The second layer before its relu, at edge (i, j) and unit `k`. -/
theorem mid0 (x1 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (x7 : (⟨S2x8x8, .f32⟩ : BufTy).Contents (Elt Ideal)) (x8 : (⟨S2x8, .f32⟩ : BufTy).Contents (Elt Ideal)) (i j : Fin 1024) (k : Fin 8) :
    val_main_v38 (F := Ideal) x1 x4 x5 x6 x7 x8 (ix3 i j k) = Cert.Spec.mlpMid (x1 (ix2 i j)) (fun d => x4 (ix2 i d)) (fun d => x4 (ix2 j d)) (val_main_v1 (F := Ideal) x5) (val_main_v3 (F := Ideal) x6) (val_main_v5 (F := Ideal) x7) (val_main_v7 (F := Ideal) x8) k := by
  rw [val_main_v38_apply, val_main_v35_apply, val_main_v37_apply, val_main_v36_apply]
  have e36 : idx_main_v36 (idx_main_v37 (ix3 i j k)) = ix1 k := funext fun a => Fin.ext (by match a with | ⟨0, _⟩ => rfl)
  rw [e36]
  unfold Cert.Spec.mlpMid
  refine congrArg₂ (fun a b : EReal => a + b) (Finset.sum_congr rfl fun h _ => ?_) rfl
  have el : lidx_main_v35 (ix3 i j k) h = ix3 i j h := funext fun a => Fin.ext (by match a with | ⟨0, _⟩ => rfl | ⟨1, _⟩ => rfl | ⟨2, _⟩ => rfl)
  have er : ridx_main_v35 (ix3 i j k) h = ix2 k h := funext fun a => Fin.ext (by match a with | ⟨0, _⟩ => rfl | ⟨1, _⟩ => rfl)
  rw [el, er, hid0]

/-- The second layer after its relu. -/
theorem hid20 (x1 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (x7 : (⟨S2x8x8, .f32⟩ : BufTy).Contents (Elt Ideal)) (x8 : (⟨S2x8, .f32⟩ : BufTy).Contents (Elt Ideal)) (i j : Fin 1024) (k : Fin 8) :
    val_main_v39 (F := Ideal) x1 x4 x5 x6 x7 x8 (ix3 i j k) = max (Cert.Spec.mlpMid (x1 (ix2 i j)) (fun d => x4 (ix2 i d)) (fun d => x4 (ix2 j d)) (val_main_v1 (F := Ideal) x5) (val_main_v3 (F := Ideal) x6) (val_main_v5 (F := Ideal) x7) (val_main_v7 (F := Ideal) x8) k) 0 := by
  rw [val_main_v39_apply, mid0, val_main_call1_v0_apply, val_main_call1_cst_apply]
  simp only [Ideal.maximumf_def, Ideal.ofBits_def, Ideal.ofBits_zero_f32]

/-- The first message matrix of the reference at edge (i, j) is the specification's MLP value. -/
theorem ref_mlp0 (x1 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (x7 : (⟨S2x8x8, .f32⟩ : BufTy).Contents (Elt Ideal)) (x8 : (⟨S2x8, .f32⟩ : BufTy).Contents (Elt Ideal)) (x9 : (⟨S2x1x8, .f32⟩ : BufTy).Contents (Elt Ideal)) (x10 : (⟨S2x1, .f32⟩ : BufTy).Contents (Elt Ideal)) (i j : Fin 1024) :
    val_main_v44 (F := Ideal) x1 x4 x5 x6 x7 x8 x9 x10 (ix2 i j) = Cert.Spec.mlpVal (x1 (ix2 i j)) (fun d => x4 (ix2 i d)) (fun d => x4 (ix2 j d)) (val_main_v1 (F := Ideal) x5) (val_main_v3 (F := Ideal) x6) (val_main_v5 (F := Ideal) x7) (val_main_v7 (F := Ideal) x8) (val_main_v9 (F := Ideal) x9) (val_main_v11 (F := Ideal) x10) := by
  rw [val_main_v44_apply]
  have e44 : idx_main_v44 (ix2 i j) = ix3 i j (0 : Fin 1) := funext fun a => Fin.ext (by
    have hi : i.val < 1024 := i.isLt
    have hj : j.val < 1024 := j.isLt
    match a with
    | ⟨0, _⟩ => show (i.val * 1024 + j.val) / 1024 = i.val; omega
    | ⟨1, _⟩ => show (i.val * 1024 + j.val) / 1 % 1024 = j.val; omega
    | ⟨2, _⟩ => rfl)
  rw [e44, val_main_v43_apply, val_main_v40_apply, val_main_v42_apply, val_main_v41_apply]
  have e41 : idx_main_v41 (idx_main_v42 (ix3 i j (0 : Fin 1))) = ix1 (0 : Fin 1) := funext fun a => Fin.ext (by match a with | ⟨0, _⟩ => rfl)
  rw [e41]
  unfold Cert.Spec.mlpVal
  refine congrArg₂ (fun a b : EReal => a + b) (Finset.sum_congr rfl fun k _ => ?_) rfl
  have el : lidx_main_v40 (ix3 i j (0 : Fin 1)) k = ix3 i j k := funext fun a => Fin.ext (by match a with | ⟨0, _⟩ => rfl | ⟨1, _⟩ => rfl | ⟨2, _⟩ => rfl)
  have er : ridx_main_v40 (ix3 i j (0 : Fin 1)) k = ix2 (0 : Fin 1) k := funext fun a => Fin.ext (by match a with | ⟨0, _⟩ => rfl | ⟨1, _⟩ => rfl)
  rw [el, er, hid20]

/-! ### The second message matrix -/

/-- The weight of the matrix entry: column 0 of W1, isolated by a slice and a reshape, read at hidden unit `h`. -/
theorem wA1 (x5 : (⟨S2x8x129, .f32⟩ : BufTy).Contents (Elt Ideal)) (h : Fin 8) :
    val_main_v58 (F := Ideal) x5 (ix1 h) = val_main_v46 (F := Ideal) x5 (ix2 h (0 : Fin 129)) := by
  rw [val_main_v58_apply, val_main_v57_apply]
  refine congrArg _ (funext fun a => Fin.ext ?_)
  match a with
  | ⟨0, _⟩ => show h.val / 1 = h.val; omega
  | ⟨1, _⟩ => rfl

/-- The row node's term: the embedding row `i` against the transposed slice of W1's columns 1 … 64. -/
theorem rowTerm1 (x4 : (⟨S1024x64, .f32⟩ : BufTy).Contents (Elt Ideal)) (x5 : (⟨S2x8x129, .f32⟩ : BufTy).Contents (Elt Ideal)) (i : Fin 1024) (h : Fin 8) :
    val_main_v62 (F := Ideal) x4 x5 (ix2 i h) = ∑ d : Fin 64, x4 (ix2 i d) * val_main_v46 (F := Ideal) x5 (ix2 h (Cert.Spec.colI d)) := by
  rw [val_main_v62_apply]
  refine Finset.sum_congr rfl fun d _ => ?_
  rw [val_main_v61_apply, val_main_v59_apply]
  have e1 : lidx_main_v62 (ix2 i h) d = ix2 i d := funext fun a => Fin.ext (by match a with | ⟨0, _⟩ => rfl | ⟨1, _⟩ => rfl)
  have e2 : idx_main_v59 (idx_main_v61 (ridx_main_v62 (ix2 i h) d)) = ix2 h (Cert.Spec.colI d) := funext fun a => Fin.ext (by match a with | ⟨0, _⟩ => rfl | ⟨1, _⟩ => rfl)
  rw [e1, e2]

/-- The column node's term: the embedding row `j` against the transposed slice of W1's columns 65 … 128. -/
theorem colTerm1 (x4 : (⟨S1024x64, .f32⟩ : BufTy).Contents (Elt Ideal)) (x5 : (⟨S2x8x129, .f32⟩ : BufTy).Contents (Elt Ideal)) (j : Fin 1024) (h : Fin 8) :
    val_main_v64 (F := Ideal) x4 x5 (ix2 j h) = ∑ d : Fin 64, x4 (ix2 j d) * val_main_v46 (F := Ideal) x5 (ix2 h (Cert.Spec.colJ d)) := by
  rw [val_main_v64_apply]
  refine Finset.sum_congr rfl fun d _ => ?_
  rw [val_main_v63_apply, val_main_v60_apply]
  have e1 : lidx_main_v64 (ix2 j h) d = ix2 j d := funext fun a => Fin.ext (by match a with | ⟨0, _⟩ => rfl | ⟨1, _⟩ => rfl)
  have e2 : idx_main_v60 (idx_main_v63 (ridx_main_v64 (ix2 j h) d)) = ix2 h (Cert.Spec.colJ d) := funext fun a => Fin.ext (by match a with | ⟨0, _⟩ => rfl | ⟨1, _⟩ => rfl)
  rw [e1, e2]

/-- The first layer before its relu, at edge (i, j) and hidden unit `h`: the four broadcast summands are the specification's. -/
theorem pre1 (x2 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (i j : Fin 1024) (h : Fin 8) :
    val_main_v78 (F := Ideal) x2 x4 x5 x6 (ix3 i j h) = Cert.Spec.mlpPre (x2 (ix2 i j)) (fun d => x4 (ix2 i d)) (fun d => x4 (ix2 j d)) (val_main_v46 (F := Ideal) x5) (val_main_v48 (F := Ideal) x6) h := by
  rw [val_main_v78_apply, val_main_v75_apply, val_main_v72_apply, val_main_v69_apply,
    val_main_v67_apply, val_main_v65_apply, val_main_v68_apply, val_main_v66_apply,
    val_main_v71_apply, val_main_v70_apply, val_main_v74_apply, val_main_v73_apply,
    val_main_v77_apply, val_main_v76_apply]
  have e20 : idx_main_v65 (idx_main_v67 (ix3 i j h)) = ix2 i j := funext fun a => Fin.ext (by match a with | ⟨0, _⟩ => rfl | ⟨1, _⟩ => rfl)
  have e21 : idx_main_v66 (idx_main_v68 (ix3 i j h)) = ix1 h := funext fun a => Fin.ext (by match a with | ⟨0, _⟩ => rfl)
  have e25 : idx_main_v70 (idx_main_v71 (ix3 i j h)) = ix2 i h := funext fun a => Fin.ext (by match a with | ⟨0, _⟩ => rfl | ⟨1, _⟩ => rfl)
  have e28 : idx_main_v73 (idx_main_v74 (ix3 i j h)) = ix2 j h := funext fun a => Fin.ext (by match a with | ⟨0, _⟩ => rfl | ⟨1, _⟩ => rfl)
  have e31 : idx_main_v76 (idx_main_v77 (ix3 i j h)) = ix1 h := funext fun a => Fin.ext (by match a with | ⟨0, _⟩ => rfl)
  rw [e20, e21, e25, e28, e31, wA1, rowTerm1, colTerm1]
  rfl

/-- The first layer after its relu: the maximum with the zero constant. -/
theorem hid1 (x2 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (i j : Fin 1024) (h : Fin 8) :
    val_main_v79 (F := Ideal) x2 x4 x5 x6 (ix3 i j h) = max (Cert.Spec.mlpPre (x2 (ix2 i j)) (fun d => x4 (ix2 i d)) (fun d => x4 (ix2 j d)) (val_main_v46 (F := Ideal) x5) (val_main_v48 (F := Ideal) x6) h) 0 := by
  rw [val_main_v79_apply, pre1, val_main_call2_v0_apply, val_main_call2_cst_apply]
  simp only [Ideal.maximumf_def, Ideal.ofBits_def, Ideal.ofBits_zero_f32]

/-- The second layer before its relu, at edge (i, j) and unit `k`. -/
theorem mid1 (x2 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (x7 : (⟨S2x8x8, .f32⟩ : BufTy).Contents (Elt Ideal)) (x8 : (⟨S2x8, .f32⟩ : BufTy).Contents (Elt Ideal)) (i j : Fin 1024) (k : Fin 8) :
    val_main_v83 (F := Ideal) x2 x4 x5 x6 x7 x8 (ix3 i j k) = Cert.Spec.mlpMid (x2 (ix2 i j)) (fun d => x4 (ix2 i d)) (fun d => x4 (ix2 j d)) (val_main_v46 (F := Ideal) x5) (val_main_v48 (F := Ideal) x6) (val_main_v50 (F := Ideal) x7) (val_main_v52 (F := Ideal) x8) k := by
  rw [val_main_v83_apply, val_main_v80_apply, val_main_v82_apply, val_main_v81_apply]
  have e36 : idx_main_v81 (idx_main_v82 (ix3 i j k)) = ix1 k := funext fun a => Fin.ext (by match a with | ⟨0, _⟩ => rfl)
  rw [e36]
  unfold Cert.Spec.mlpMid
  refine congrArg₂ (fun a b : EReal => a + b) (Finset.sum_congr rfl fun h _ => ?_) rfl
  have el : lidx_main_v80 (ix3 i j k) h = ix3 i j h := funext fun a => Fin.ext (by match a with | ⟨0, _⟩ => rfl | ⟨1, _⟩ => rfl | ⟨2, _⟩ => rfl)
  have er : ridx_main_v80 (ix3 i j k) h = ix2 k h := funext fun a => Fin.ext (by match a with | ⟨0, _⟩ => rfl | ⟨1, _⟩ => rfl)
  rw [el, er, hid1]

/-- The second layer after its relu. -/
theorem hid21 (x2 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (x7 : (⟨S2x8x8, .f32⟩ : BufTy).Contents (Elt Ideal)) (x8 : (⟨S2x8, .f32⟩ : BufTy).Contents (Elt Ideal)) (i j : Fin 1024) (k : Fin 8) :
    val_main_v84 (F := Ideal) x2 x4 x5 x6 x7 x8 (ix3 i j k) = max (Cert.Spec.mlpMid (x2 (ix2 i j)) (fun d => x4 (ix2 i d)) (fun d => x4 (ix2 j d)) (val_main_v46 (F := Ideal) x5) (val_main_v48 (F := Ideal) x6) (val_main_v50 (F := Ideal) x7) (val_main_v52 (F := Ideal) x8) k) 0 := by
  rw [val_main_v84_apply, mid1, val_main_call3_v0_apply, val_main_call3_cst_apply]
  simp only [Ideal.maximumf_def, Ideal.ofBits_def, Ideal.ofBits_zero_f32]

/-- The second message matrix of the reference at edge (i, j) is the specification's MLP value. -/
theorem ref_mlp1 (x2 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (x7 : (⟨S2x8x8, .f32⟩ : BufTy).Contents (Elt Ideal)) (x8 : (⟨S2x8, .f32⟩ : BufTy).Contents (Elt Ideal)) (x9 : (⟨S2x1x8, .f32⟩ : BufTy).Contents (Elt Ideal)) (x10 : (⟨S2x1, .f32⟩ : BufTy).Contents (Elt Ideal)) (i j : Fin 1024) :
    val_main_v89 (F := Ideal) x2 x4 x5 x6 x7 x8 x9 x10 (ix2 i j) = Cert.Spec.mlpVal (x2 (ix2 i j)) (fun d => x4 (ix2 i d)) (fun d => x4 (ix2 j d)) (val_main_v46 (F := Ideal) x5) (val_main_v48 (F := Ideal) x6) (val_main_v50 (F := Ideal) x7) (val_main_v52 (F := Ideal) x8) (val_main_v54 (F := Ideal) x9) (val_main_v56 (F := Ideal) x10) := by
  rw [val_main_v89_apply]
  have e44 : idx_main_v89 (ix2 i j) = ix3 i j (0 : Fin 1) := funext fun a => Fin.ext (by
    have hi : i.val < 1024 := i.isLt
    have hj : j.val < 1024 := j.isLt
    match a with
    | ⟨0, _⟩ => show (i.val * 1024 + j.val) / 1024 = i.val; omega
    | ⟨1, _⟩ => show (i.val * 1024 + j.val) / 1 % 1024 = j.val; omega
    | ⟨2, _⟩ => rfl)
  rw [e44, val_main_v88_apply, val_main_v85_apply, val_main_v87_apply, val_main_v86_apply]
  have e41 : idx_main_v86 (idx_main_v87 (ix3 i j (0 : Fin 1))) = ix1 (0 : Fin 1) := funext fun a => Fin.ext (by match a with | ⟨0, _⟩ => rfl)
  rw [e41]
  unfold Cert.Spec.mlpVal
  refine congrArg₂ (fun a b : EReal => a + b) (Finset.sum_congr rfl fun k _ => ?_) rfl
  have el : lidx_main_v85 (ix3 i j (0 : Fin 1)) k = ix3 i j k := funext fun a => Fin.ext (by match a with | ⟨0, _⟩ => rfl | ⟨1, _⟩ => rfl | ⟨2, _⟩ => rfl)
  have er : ridx_main_v85 (ix3 i j (0 : Fin 1)) k = ix2 (0 : Fin 1) k := funext fun a => Fin.ext (by match a with | ⟨0, _⟩ => rfl | ⟨1, _⟩ => rfl)
  rw [el, er, hid21]

end Cert.ReferenceIdeal.RefValue

end
-- ==== Proof.RefTail.lean ====
/-
  The reference's tail — three graph layers over the two message matrices a, ad and the features x, then the column means of t_grad
  as row scales — is, as a whole array, the value the third pallas_call's body stores when its six blocks are a, ad, x, t_grad, the
  layer weights and the layer biases:
    x ← relu?( (a x) W₀ + (aᵀ x) W₁ + (ad x) W₂ + (adᵀ x) W₃ + x W₄ + b )   (three times, no relu the last time),
    out[i, j] = (Σ_r t_grad[r, i] / 1024) · x[i, j].
  Both programs compute this operation for operation; they differ only in how single operations are spelt, and each difference is
  bridged by one equality of whole arrays over the extended reals:
    · a product accumulated into a zero array against a product with no accumulator (0 + s = s);
    · a product contracting axis 0 of both operands against the ordinary product with the transposed left operand
      (both are Σ_k a[k, p] · x[k, q]);
    · a row cast to one row and repeated down the rows, and a column cast to one column and repeated along the columns, against two
      broadcasts in dimensions;
    · a maximum with a splat of the zero scalar against a maximum with a broadcast zero constant;
    · a sum over axis 0 from the neutral word against a reduce from a zero constant, and a division by a splat of 1024 against a
      division by a broadcast constant;
    · a cast to the same shape, and a load of a whole buffer, are identities; the weight and bias slices are the same functions.
  No distributivity or cancellation is used: only 0 + s = s and the re-indexing of one finite sum.
  The proof states one layer in each spelling (kerPre, refPre), proves them equal on variables, and then folds both programs into the
  same three stages, so that no step compares two large terms.
-/
import proofs.«142047_j12206297055728_1_alg».proof.Proof.RefReadP
import proofs.«142047_j12206297055728_1_alg».proof.Proof.KIRegion2
import Idealize.ShloMosaic.Lib.KernelVsHost
import Idealize.ShloMosaic.Lib.ValueLayout
import Idealize.ShloMosaic.Lib.IdealHost

set_option maxRecDepth 16384

noncomputable section

namespace Cert.ReferenceIdeal.RefValue

open Idealize.ShloMosaic Idealize.ShloMosaic.ValueIdx Idealize.ShloMosaic.TcCoe
open Cert.ReferenceIdeal.Gen Cert.ReferenceIdeal.ReadP

variable {F : FTy → Type} [FloatOps F]

namespace Tail

/-! ## One graph layer before its activation, in each program's spelling -/

/-- The kernel's layer: five products into zero accumulators, summed left to right, plus the bias row laid along the rows. -/
def kerPre (a ad : FVec F KernelIdeal.S1024x1024 .f32) (x : FVec F KernelIdeal.S1024x64 .f32) (W5 : FVec F KernelIdeal.S5x64x64 .f32) (b1 : FVec F KernelIdeal.S1x64 .f32) : FVec F KernelIdeal.S1024x64 .f32 :=
  addf (addf (addf (addf (addf
      (matmul KernelIdeal.dot_S1024x64_S64x64_S1024x64_1_0_0_1_n_n none (matmul KernelIdeal.dot_S1024x1024_S1024x64_S1024x64_1_0_0_1_n_n none a x (constant KernelIdeal.S1024x64 .f32 0x00000000#32)) (shapeCast KernelIdeal.S64x64 (extractStridedSlice KernelIdeal.S1x64x64 ![0, 0, 0] W5 KernelIdeal.Gen.slices_S5x64x64_o0_0_0_S1x64x64) KernelIdeal.Gen.shapeCasts_S1x64x64_S64x64) (constant KernelIdeal.S1024x64 .f32 0x00000000#32))
      (matmul KernelIdeal.dot_S1024x64_S64x64_S1024x64_1_0_0_1_n_n none (matmul KernelIdeal.dot_S1024x1024_S1024x64_S1024x64_0_0_1_1_n_n none a x (constant KernelIdeal.S1024x64 .f32 0x00000000#32)) (shapeCast KernelIdeal.S64x64 (extractStridedSlice KernelIdeal.S1x64x64 ![1, 0, 0] W5 KernelIdeal.Gen.slices_S5x64x64_o1_0_0_S1x64x64) KernelIdeal.Gen.shapeCasts_S1x64x64_S64x64) (constant KernelIdeal.S1024x64 .f32 0x00000000#32)))
      (matmul KernelIdeal.dot_S1024x64_S64x64_S1024x64_1_0_0_1_n_n none (matmul KernelIdeal.dot_S1024x1024_S1024x64_S1024x64_1_0_0_1_n_n none ad x (constant KernelIdeal.S1024x64 .f32 0x00000000#32)) (shapeCast KernelIdeal.S64x64 (extractStridedSlice KernelIdeal.S1x64x64 ![2, 0, 0] W5 KernelIdeal.Gen.slices_S5x64x64_o2_0_0_S1x64x64) KernelIdeal.Gen.shapeCasts_S1x64x64_S64x64) (constant KernelIdeal.S1024x64 .f32 0x00000000#32)))
      (matmul KernelIdeal.dot_S1024x64_S64x64_S1024x64_1_0_0_1_n_n none (matmul KernelIdeal.dot_S1024x1024_S1024x64_S1024x64_0_0_1_1_n_n none ad x (constant KernelIdeal.S1024x64 .f32 0x00000000#32)) (shapeCast KernelIdeal.S64x64 (extractStridedSlice KernelIdeal.S1x64x64 ![3, 0, 0] W5 KernelIdeal.Gen.slices_S5x64x64_o3_0_0_S1x64x64) KernelIdeal.Gen.shapeCasts_S1x64x64_S64x64) (constant KernelIdeal.S1024x64 .f32 0x00000000#32)))
      (matmul KernelIdeal.dot_S1024x64_S64x64_S1024x64_1_0_0_1_n_n none x (shapeCast KernelIdeal.S64x64 (extractStridedSlice KernelIdeal.S1x64x64 ![4, 0, 0] W5 KernelIdeal.Gen.slices_S5x64x64_o4_0_0_S1x64x64) KernelIdeal.Gen.shapeCasts_S1x64x64_S64x64) (constant KernelIdeal.S1024x64 .f32 0x00000000#32)))
    (broadcastTo KernelIdeal.S1024x64 b1 KernelIdeal.Gen.broadcasts_S1x64_S1024x64)

/-- The reference's layer: the same five products as host dot_generals (the transposed ones after an explicit transpose), plus the bias. -/
def refPre (a ad : FVec F S1024x1024 .f32) (x : FVec F S1024x64 .f32) (W5 : FVec F S5x64x64 .f32) (b : FVec F S64 .f32) : FVec F S1024x64 .f32 :=
  addf (addf (addf (addf (addf
      (Host.dotGeneral dot_S1024x64_S64x64_S1024x64_1_0_0_1_n_n none (Host.dotGeneral dot_S1024x1024_S1024x64_S1024x64_1_0_0_1_n_n none a x) (shapeCast S64x64 (extractStridedSlice S1x64x64 ![0, 0, 0] W5 slices_S5x64x64_S1x64x64_0_0_0) shapeCasts_S1x64x64_S64x64))
      (Host.dotGeneral dot_S1024x64_S64x64_S1024x64_1_0_0_1_n_n none (Host.dotGeneral dot_S1024x1024_S1024x64_S1024x64_1_0_0_1_n_n none (transpose S1024x1024 [1, 0] a transposes_S1024x1024_S1024x1024_1_0) x) (shapeCast S64x64 (extractStridedSlice S1x64x64 ![1, 0, 0] W5 slices_S5x64x64_S1x64x64_1_0_0) shapeCasts_S1x64x64_S64x64)))
      (Host.dotGeneral dot_S1024x64_S64x64_S1024x64_1_0_0_1_n_n none (Host.dotGeneral dot_S1024x1024_S1024x64_S1024x64_1_0_0_1_n_n none ad x) (shapeCast S64x64 (extractStridedSlice S1x64x64 ![2, 0, 0] W5 slices_S5x64x64_S1x64x64_2_0_0) shapeCasts_S1x64x64_S64x64)))
      (Host.dotGeneral dot_S1024x64_S64x64_S1024x64_1_0_0_1_n_n none (Host.dotGeneral dot_S1024x1024_S1024x64_S1024x64_1_0_0_1_n_n none (transpose S1024x1024 [1, 0] ad transposes_S1024x1024_S1024x1024_1_0) x) (shapeCast S64x64 (extractStridedSlice S1x64x64 ![3, 0, 0] W5 slices_S5x64x64_S1x64x64_3_0_0) shapeCasts_S1x64x64_S64x64)))
      (Host.dotGeneral dot_S1024x64_S64x64_S1024x64_1_0_0_1_n_n none x (shapeCast S64x64 (extractStridedSlice S1x64x64 ![4, 0, 0] W5 slices_S5x64x64_S1x64x64_4_0_0) shapeCasts_S1x64x64_S64x64)))
    (broadcastInDim S1024x64 ![0, 1] bcast_S1x64_S1024x64_0_1 (broadcastInDim S1x64 ![1] bcast_S64_S1x64_1 b))

/-! ## The bridges between the two spellings, as equalities of whole arrays over the extended reals -/

/-- The operand indices of the product that contracts axis 0 of both operands: at output (i₀, i₁) and contraction position k
    the left operand is read at (k, i₀) and the right one at (k, i₁). -/
theorem lhsT_0 (i : KernelIdeal.S1024x64.Idx) (k : KernelIdeal.dot_S1024x1024_S1024x64_S1024x64_0_0_1_1_n_n.contr.Idx) :
    (KernelIdeal.dot_S1024x1024_S1024x64_S1024x64_0_0_1_1_n_n.lhsIdx i k 0).val = (k ⟨0, by decide⟩).val :=
  KernelIdeal.dot_S1024x1024_S1024x64_S1024x64_0_0_1_1_n_n.lhsIdx_val_of_single rfl i k
theorem lhsT_1 (i : KernelIdeal.S1024x64.Idx) (k : KernelIdeal.dot_S1024x1024_S1024x64_S1024x64_0_0_1_1_n_n.contr.Idx) :
    (KernelIdeal.dot_S1024x1024_S1024x64_S1024x64_0_0_1_1_n_n.lhsIdx i k 1).val = (i 0).val := by
  unfold DotDims.lhsIdx
  rw [dif_neg (show ¬(1 : Fin KernelIdeal.S1024x1024.rank) ∈ KernelIdeal.dot_S1024x1024_S1024x64_S1024x64_0_0_1_1_n_n.lhsBatch by decide),
    dif_pos (show (1 : Fin KernelIdeal.S1024x1024.rank) ∈ KernelIdeal.dot_S1024x1024_S1024x64_S1024x64_0_0_1_1_n_n.lhsNonContracting by decide)]
  rfl
theorem rhsT_0 (i : KernelIdeal.S1024x64.Idx) (k : KernelIdeal.dot_S1024x1024_S1024x64_S1024x64_0_0_1_1_n_n.contr.Idx) :
    (KernelIdeal.dot_S1024x1024_S1024x64_S1024x64_0_0_1_1_n_n.rhsIdx i k 0).val = (k ⟨0, by decide⟩).val :=
  KernelIdeal.dot_S1024x1024_S1024x64_S1024x64_0_0_1_1_n_n.rhsIdx_val_of_single rfl i k
theorem rhsT_1 (i : KernelIdeal.S1024x64.Idx) (k : KernelIdeal.dot_S1024x1024_S1024x64_S1024x64_0_0_1_1_n_n.contr.Idx) :
    (KernelIdeal.dot_S1024x1024_S1024x64_S1024x64_0_0_1_1_n_n.rhsIdx i k 1).val = (i 1).val := by
  unfold DotDims.rhsIdx
  rw [dif_neg (show ¬(1 : Fin KernelIdeal.S1024x64.rank) ∈ KernelIdeal.dot_S1024x1024_S1024x64_S1024x64_0_0_1_1_n_n.rhsBatch by decide),
    dif_pos (show (1 : Fin KernelIdeal.S1024x64.rank) ∈ KernelIdeal.dot_S1024x1024_S1024x64_S1024x64_0_0_1_1_n_n.rhsNonContracting by decide)]
  rfl

/-- Contracting axis 0 of the left operand with axis 0 of the right one is the ordinary product with the transposed left operand:
    at (p, q) both are the sum over k of a[k, p] · x[k, q]. -/
theorem matmulT_eq (a : FVec Ideal KernelIdeal.S1024x1024 .f32) (x : FVec Ideal KernelIdeal.S1024x64 .f32) :
    matmul KernelIdeal.dot_S1024x1024_S1024x64_S1024x64_0_0_1_1_n_n none a x (constant KernelIdeal.S1024x64 .f32 0x00000000#32)
      = Host.dotGeneral dot_S1024x1024_S1024x64_S1024x64_1_0_0_1_n_n none (transpose S1024x1024 [1, 0] a transposes_S1024x1024_S1024x1024_1_0) x := by
  funext j
  obtain ⟨p, q, rfl⟩ : ∃ (p : Fin 1024) (q : Fin 64), j = ix2 p q := ⟨j 0, j 1, eq_ix2 j⟩
  show FloatOps.matmul KernelIdeal.dot_S1024x1024_S1024x64_S1024x64_0_0_1_1_n_n none a x (constant KernelIdeal.S1024x64 .f32 0x00000000#32) (ix2 p q)
    = FloatOps.dotGeneral dot_S1024x1024_S1024x64_S1024x64_1_0_0_1_n_n none _ (transpose S1024x1024 [1, 0] a transposes_S1024x1024_S1024x1024_1_0) x (ix2 p q)
  rw [Ideal.matmul_constant_zero_apply, Ideal.dotGeneral_apply,
    ← Equiv.sum_comp (contrEquiv1 KernelIdeal.dot_S1024x1024_S1024x64_S1024x64_0_0_1_1_n_n 1024 rfl rfl).symm,
    ← Equiv.sum_comp (contrEquiv1 dot_S1024x1024_S1024x64_S1024x64_1_0_0_1_n_n 1024 rfl rfl).symm]
  refine Finset.sum_congr rfl fun k _ => ?_
  have hk := contrEquiv1_symm_val KernelIdeal.dot_S1024x1024_S1024x64_S1024x64_0_0_1_1_n_n 1024 rfl rfl k
  have hk' := contrEquiv1_symm_val dot_S1024x1024_S1024x64_S1024x64_1_0_0_1_n_n 1024 rfl rfl k
  have el : KernelIdeal.dot_S1024x1024_S1024x64_S1024x64_0_0_1_1_n_n.lhsIdx (ix2 p q) ((contrEquiv1 KernelIdeal.dot_S1024x1024_S1024x64_S1024x64_0_0_1_1_n_n 1024 rfl rfl).symm k) = ix2 k p :=
    funext fun c => Fin.ext (by
      match c with
      | ⟨0, _⟩ => exact (lhsT_0 _ _).trans hk
      | ⟨1, _⟩ => exact lhsT_1 _ _)
  have er : KernelIdeal.dot_S1024x1024_S1024x64_S1024x64_0_0_1_1_n_n.rhsIdx (ix2 p q) ((contrEquiv1 KernelIdeal.dot_S1024x1024_S1024x64_S1024x64_0_0_1_1_n_n 1024 rfl rfl).symm k) = ix2 k q :=
    funext fun c => Fin.ext (by
      match c with
      | ⟨0, _⟩ => exact (rhsT_0 _ _).trans hk
      | ⟨1, _⟩ => exact rhsT_1 _ _)
  have el' : dot_S1024x1024_S1024x64_S1024x64_1_0_0_1_n_n.lhsIdx (ix2 p q) ((contrEquiv1 dot_S1024x1024_S1024x64_S1024x64_1_0_0_1_n_n 1024 rfl rfl).symm k) = ix2 p k :=
    funext fun c => Fin.ext (by
      match c with
      | ⟨0, _⟩ => exact lhs_main_v94_0 _ _
      | ⟨1, _⟩ => exact (lhs_main_v94_1 _ _).trans hk')
  have er' : dot_S1024x1024_S1024x64_S1024x64_1_0_0_1_n_n.rhsIdx (ix2 p q) ((contrEquiv1 dot_S1024x1024_S1024x64_S1024x64_1_0_0_1_n_n 1024 rfl rfl).symm k) = ix2 k q :=
    funext fun c => Fin.ext (by
      match c with
      | ⟨0, _⟩ => exact (rhs_main_v94_0 _ _).trans hk'
      | ⟨1, _⟩ => exact rhs_main_v94_1 _ _)
  rw [el, er, el', er']
  exact congrArg (· * x (ix2 k q)) (transpose_ix2_apply a transposes_S1024x1024_S1024x1024_1_0 p k).symm

/-- A row of 64 entries laid along each of the 1024 rows: the kernel's one-row cast then broadcast is the reference's two
    broadcasts in dimensions. -/
theorem biasRows_eq {α : Type} (b : KernelIdeal.S64.Idx → α) :
    broadcastTo KernelIdeal.S1024x64 (shapeCast KernelIdeal.S1x64 b KernelIdeal.Gen.shapeCasts_S64_S1x64) KernelIdeal.Gen.broadcasts_S1x64_S1024x64
      = broadcastInDim S1024x64 ![0, 1] bcast_S1x64_S1024x64_0_1 (broadcastInDim S1x64 ![1] bcast_S64_S1x64_1 b) := by
  funext j
  obtain ⟨p, q, rfl⟩ : ∃ (p : Fin 1024) (q : Fin 64), j = ix2 p q := ⟨j 0, j 1, eq_ix2 j⟩
  refine (broadcastTo_1b_ab_apply _ _ p q).trans ?_
  refine (shapeCast_a_1a_apply b _ (0 : Fin 1) q).trans ?_
  refine Eq.symm ((broadcastInDim_oneRow_apply bcast_S1x64_S1024x64_0_1 _ p q).trans ?_)
  exact broadcastInDim_apply ![1] bcast_S64_S1x64_1 b (ix2 (0 : Fin 1) q) (ix1 q) (fun c => match c with
    | ⟨0, _⟩ => rfl)

/-- A column of 1024 entries laid along each of the 64 columns: the kernel's one-column cast then broadcast is the reference's
    two broadcasts in dimensions. -/
theorem scaleCols_eq {α : Type} (v : KernelIdeal.S1024.Idx → α) :
    broadcastTo KernelIdeal.S1024x64 (shapeCast KernelIdeal.S1024x1 v KernelIdeal.Gen.shapeCasts_S1024_S1024x1) KernelIdeal.Gen.broadcasts_S1024x1_S1024x64
      = broadcastInDim S1024x64 ![0, 1] bcast_S1024x1_S1024x64_0_1 (broadcastInDim S1024x1 ![0] bcast_S1024_S1024x1_0 v) := by
  funext j
  obtain ⟨p, q, rfl⟩ : ∃ (p : Fin 1024) (q : Fin 64), j = ix2 p q := ⟨j 0, j 1, eq_ix2 j⟩
  refine (broadcastTo_apply _ KernelIdeal.Gen.broadcasts_S1024x1_S1024x64 (ix2 p q) (ix2 p (0 : Fin 1)) (fun c => match c with
    | ⟨0, _⟩ => rfl
    | ⟨1, _⟩ => rfl)).trans ?_
  refine (shapeCast_apply v KernelIdeal.Gen.shapeCasts_S1024_S1024x1 (ix2 p (0 : Fin 1)) (ix1 p) (by
    rw [Shape.rowMajor_val_two, Shape.rowMajor_val_one]; show p.val = p.val * 1 + 0; omega)).trans ?_
  refine Eq.symm ((broadcastInDim_apply ![0, 1] bcast_S1024x1_S1024x64_0_1 _ (ix2 p q) (ix2 p (0 : Fin 1)) (fun c => match c with
    | ⟨0, _⟩ => rfl
    | ⟨1, _⟩ => rfl)).trans ?_)
  exact broadcastInDim_apply ![0] bcast_S1024_S1024x1_0 v (ix2 p (0 : Fin 1)) (ix1 p) (fun c => match c with
    | ⟨0, _⟩ => rfl)

/-- One layer: the kernel's spelling is the reference's. -/
theorem kerPre_eq (a ad : FVec Ideal KernelIdeal.S1024x1024 .f32) (x : FVec Ideal KernelIdeal.S1024x64 .f32) (W5 : FVec Ideal KernelIdeal.S5x64x64 .f32) (b : FVec Ideal KernelIdeal.S64 .f32) :
    kerPre (F := Ideal) a ad x W5 (shapeCast KernelIdeal.S1x64 b KernelIdeal.Gen.shapeCasts_S64_S1x64) = refPre (F := Ideal) a ad x W5 b := by
  unfold kerPre refPre
  rw [matmulT_eq a x, matmulT_eq ad x, biasRows_eq b]
  simp only [matmul_zero_eq_dotGeneral]
  rfl

/-- The zero array a layer's activation takes the maximum with: the kernel's splat of the zero scalar is the reference's
    broadcast zero constant (after the first layer, and after the second). -/
theorem reluZero4_eq : broadcast KernelIdeal.S1024x64 (Scalar.ofBits (F := F) .f32 0x00000000#32) = val_main_call4_v0 (F := F) := by
  unfold val_main_call4_v0 val_main_call4_cst
  exact (broadcastInDim_constant _ _ _).symm
theorem reluZero5_eq : broadcast KernelIdeal.S1024x64 (Scalar.ofBits (F := F) .f32 0x00000000#32) = val_main_call5_v0 (F := F) := by
  unfold val_main_call5_v0 val_main_call5_cst
  exact (broadcastInDim_constant _ _ _).symm

/-! ## The row scales: column means of t_grad -/

/-- The kernel's row scales: the sum of t_grad over axis 0 from the zero word, divided by a splat of 1024, as a column laid along
    the 64 columns. -/
def kerScale (t : FVec F KernelIdeal.S1024x1024 .f32) : FVec F KernelIdeal.S1024x64 .f32 :=
  broadcastTo KernelIdeal.S1024x64 (shapeCast KernelIdeal.S1024x1 (divf (multiReduction .add [0] KernelIdeal.S1024 t 0x00000000#32 KernelIdeal.Gen.reduces_S1024x1024_S1024 (.inl rfl) rfl) (broadcast KernelIdeal.S1024 (Scalar.ofBits .f32 0x44800000#32))) KernelIdeal.Gen.shapeCasts_S1024_S1024x1) KernelIdeal.Gen.broadcasts_S1024x1_S1024x64

/-- They are the reference's: its reduce from a zero constant, its division by a broadcast constant, its two broadcasts. -/
theorem kerScale_eq (t : FVec Ideal KernelIdeal.S1024x1024 .f32) : kerScale (F := Ideal) t = val_main_v192 (F := Ideal) t := by
  have hsum : multiReduction (F := Ideal) .add [0] KernelIdeal.S1024 t 0x00000000#32 KernelIdeal.Gen.reduces_S1024x1024_S1024 (.inl rfl) rfl
      = Host.reduceAdd (F := Ideal) t (constant (F := Ideal) S_ .f32 0x00000000#32) reducesTo_S1024x1024_S1024_d0 h_S_ :=
    multiReduction_add_eq_hostReduceAdd t 0x00000000#32 KernelIdeal.Gen.reduces_S1024x1024_S1024 (.inl rfl) rfl (constant (F := Ideal) S_ .f32 0x00000000#32)
      reducesTo_S1024x1024_S1024_d0 h_S_ Ideal.ofBits_zero_f32
  unfold kerScale val_main_v192 val_main_v191 val_main_v190 val_main_v189 val_main_v188 val_main_cst val_main_cst_0
  rw [scaleCols_eq, hsum, broadcastInDim_constant]
  rfl

/-! ## The three layers and the scaling, stage by stage, in each program's spelling -/

/-- The kernel's features after the first layer. -/
def kerX1 (v0 v2 : FVec F KernelIdeal.S1024x1024 .f32) (v4 : FVec F KernelIdeal.S1024x64 .f32) (v6 : FVec F KernelIdeal.S3x5x64x64 .f32) (v7 : FVec F KernelIdeal.S3x64 .f32) : FVec F KernelIdeal.S1024x64 .f32 :=
  (maximumf (kerPre (shapeCast KernelIdeal.S1024x1024 v0 KernelIdeal.Gen.shapeCasts_S1024x1024_S1024x1024) (shapeCast KernelIdeal.S1024x1024 v2 KernelIdeal.Gen.shapeCasts_S1024x1024_S1024x1024) v4 (shapeCast KernelIdeal.S5x64x64 (extractStridedSlice KernelIdeal.S1x5x64x64 ![0, 0, 0, 0] v6 KernelIdeal.Gen.slices_S3x5x64x64_o0_0_0_0_S1x5x64x64) KernelIdeal.Gen.shapeCasts_S1x5x64x64_S5x64x64) (shapeCast KernelIdeal.S1x64 (shapeCast KernelIdeal.S64 (extractStridedSlice KernelIdeal.S1x64 ![0, 0] v7 KernelIdeal.Gen.slices_S3x64_o0_0_S1x64) KernelIdeal.Gen.shapeCasts_S1x64_S64) KernelIdeal.Gen.shapeCasts_S64_S1x64)) (broadcast KernelIdeal.S1024x64 (Scalar.ofBits .f32 0x00000000#32)))
/-- The kernel's features after the second layer. -/
def kerX2 (v0 v2 : FVec F KernelIdeal.S1024x1024 .f32) (v4 : FVec F KernelIdeal.S1024x64 .f32) (v6 : FVec F KernelIdeal.S3x5x64x64 .f32) (v7 : FVec F KernelIdeal.S3x64 .f32) : FVec F KernelIdeal.S1024x64 .f32 :=
  (maximumf (kerPre (shapeCast KernelIdeal.S1024x1024 v0 KernelIdeal.Gen.shapeCasts_S1024x1024_S1024x1024) (shapeCast KernelIdeal.S1024x1024 v2 KernelIdeal.Gen.shapeCasts_S1024x1024_S1024x1024) (kerX1 v0 v2 v4 v6 v7) (shapeCast KernelIdeal.S5x64x64 (extractStridedSlice KernelIdeal.S1x5x64x64 ![1, 0, 0, 0] v6 KernelIdeal.Gen.slices_S3x5x64x64_o1_0_0_0_S1x5x64x64) KernelIdeal.Gen.shapeCasts_S1x5x64x64_S5x64x64) (shapeCast KernelIdeal.S1x64 (shapeCast KernelIdeal.S64 (extractStridedSlice KernelIdeal.S1x64 ![1, 0] v7 KernelIdeal.Gen.slices_S3x64_o1_0_S1x64) KernelIdeal.Gen.shapeCasts_S1x64_S64) KernelIdeal.Gen.shapeCasts_S64_S1x64)) (broadcast KernelIdeal.S1024x64 (Scalar.ofBits .f32 0x00000000#32)))
/-- What the kernel stores: the third layer, scaled row by row. -/
def kerTail (v0 v2 : FVec F KernelIdeal.S1024x1024 .f32) (v4 : FVec F KernelIdeal.S1024x64 .f32) (v5 : FVec F KernelIdeal.S1024x1024 .f32) (v6 : FVec F KernelIdeal.S3x5x64x64 .f32) (v7 : FVec F KernelIdeal.S3x64 .f32) : FVec F KernelIdeal.S1024x64 .f32 :=
  mulf (kerScale v5) (kerPre (shapeCast KernelIdeal.S1024x1024 v0 KernelIdeal.Gen.shapeCasts_S1024x1024_S1024x1024) (shapeCast KernelIdeal.S1024x1024 v2 KernelIdeal.Gen.shapeCasts_S1024x1024_S1024x1024) (kerX2 v0 v2 v4 v6 v7) (shapeCast KernelIdeal.S5x64x64 (extractStridedSlice KernelIdeal.S1x5x64x64 ![2, 0, 0, 0] v6 KernelIdeal.Gen.slices_S3x5x64x64_o2_0_0_0_S1x5x64x64) KernelIdeal.Gen.shapeCasts_S1x5x64x64_S5x64x64) (shapeCast KernelIdeal.S1x64 (shapeCast KernelIdeal.S64 (extractStridedSlice KernelIdeal.S1x64 ![2, 0] v7 KernelIdeal.Gen.slices_S3x64_o2_0_S1x64) KernelIdeal.Gen.shapeCasts_S1x64_S64) KernelIdeal.Gen.shapeCasts_S64_S1x64))

/-- The reference's features after the first layer. -/
def refX1 (a ad : FVec F S1024x1024 .f32) (x : FVec F S1024x64 .f32) (W : FVec F S3x5x64x64 .f32) (b : FVec F S3x64 .f32) : FVec F S1024x64 .f32 :=
  maximumf (refPre a ad x (val_main_v91 W) (val_main_v93 b)) (val_main_call4_v0 (F := F))
/-- The reference's features after the second layer. -/
def refX2 (a ad : FVec F S1024x1024 .f32) (x : FVec F S1024x64 .f32) (W : FVec F S3x5x64x64 .f32) (b : FVec F S3x64 .f32) : FVec F S1024x64 .f32 :=
  maximumf (refPre a ad (refX1 a ad x W b) (val_main_v124 W) (val_main_v126 b)) (val_main_call5_v0 (F := F))
/-- The reference's result: the third layer, scaled row by row. -/
def refTail (a ad : FVec F S1024x1024 .f32) (x : FVec F S1024x64 .f32) (t : FVec F S1024x1024 .f32) (W : FVec F S3x5x64x64 .f32) (b : FVec F S3x64 .f32) : FVec F S1024x64 .f32 :=
  mulf (val_main_v192 t) (refPre a ad (refX2 a ad x W b) (val_main_v157 W) (val_main_v159 b))

/-- The stored value is the kernel's staged form of the loaded blocks: by unfolding the payloads. -/
theorem stored2_eq (x0 x1 : Vec F KernelIdeal.S1024x1024 .f32) (x2 : Vec F KernelIdeal.S1024x64 .f32) (x3 : Vec F KernelIdeal.S1024x1024 .f32) (x4 : Vec F KernelIdeal.S3x5x64x64 .f32) (x5 : Vec F KernelIdeal.S3x64 .f32) :
    Cert.KernelIdeal.Hand.stored2 (F := F) x0 x1 x2 x3 x4 x5
      = kerTail (View.ld x0 Cert.KernelIdeal.Hand.r2_nn) (View.ld x1 Cert.KernelIdeal.Hand.r2_nn) (View.ld x2 Cert.KernelIdeal.Hand.r2_nd)
          (View.ld x3 Cert.KernelIdeal.Hand.r2_nn) (View.ld x4 Cert.KernelIdeal.Hand.r2_w) (View.ld x5 Cert.KernelIdeal.Hand.r2_b) := rfl

/-- The reference's last stage is its staged form of the two message matrices: by unfolding the stages. -/
theorem ref_eq (x0 : (⟨S1024x64, .f32⟩ : BufTy).Contents (Elt F)) (x1 x2 x3 : (⟨S1024x1024, .f32⟩ : BufTy).Contents (Elt F)) (x4 : (⟨S1024x64, .f32⟩ : BufTy).Contents (Elt F)) (x5 : (⟨S2x8x129, .f32⟩ : BufTy).Contents (Elt F)) (x6 : (⟨S2x8, .f32⟩ : BufTy).Contents (Elt F)) (x7 : (⟨S2x8x8, .f32⟩ : BufTy).Contents (Elt F)) (x8 : (⟨S2x8, .f32⟩ : BufTy).Contents (Elt F)) (x9 : (⟨S2x1x8, .f32⟩ : BufTy).Contents (Elt F)) (x10 : (⟨S2x1, .f32⟩ : BufTy).Contents (Elt F)) (x11 : (⟨S3x5x64x64, .f32⟩ : BufTy).Contents (Elt F)) (x12 : (⟨S3x64, .f32⟩ : BufTy).Contents (Elt F)) :
    val_main_v193 (F := F) x0 x1 x2 x3 x4 x5 x6 x7 x8 x9 x10 x11 x12
      = refTail (val_main_v44 (F := F) x1 x4 x5 x6 x7 x8 x9 x10) (val_main_v89 (F := F) x2 x4 x5 x6 x7 x8 x9 x10) x0 x3 x11 x12 := rfl

/-! ## The two staged forms agree over the extended reals -/

theorem x1_eq (a ad : FVec Ideal KernelIdeal.S1024x1024 .f32) (x : FVec Ideal KernelIdeal.S1024x64 .f32) (W : FVec Ideal KernelIdeal.S3x5x64x64 .f32) (b : FVec Ideal KernelIdeal.S3x64 .f32) : kerX1 (F := Ideal) a ad x W b = refX1 (F := Ideal) a ad x W b := by
  unfold kerX1 refX1
  rw [shapeCast_self a KernelIdeal.Gen.shapeCasts_S1024x1024_S1024x1024, shapeCast_self ad KernelIdeal.Gen.shapeCasts_S1024x1024_S1024x1024, kerPre_eq, reluZero4_eq]
  rfl

theorem x2_eq (a ad : FVec Ideal KernelIdeal.S1024x1024 .f32) (x : FVec Ideal KernelIdeal.S1024x64 .f32) (W : FVec Ideal KernelIdeal.S3x5x64x64 .f32) (b : FVec Ideal KernelIdeal.S3x64 .f32) : kerX2 (F := Ideal) a ad x W b = refX2 (F := Ideal) a ad x W b := by
  unfold kerX2 refX2
  rw [x1_eq, shapeCast_self a KernelIdeal.Gen.shapeCasts_S1024x1024_S1024x1024, shapeCast_self ad KernelIdeal.Gen.shapeCasts_S1024x1024_S1024x1024, kerPre_eq, reluZero5_eq]
  rfl

theorem tail_eq (a ad : FVec Ideal KernelIdeal.S1024x1024 .f32) (x : FVec Ideal KernelIdeal.S1024x64 .f32) (t : FVec Ideal KernelIdeal.S1024x1024 .f32) (W : FVec Ideal KernelIdeal.S3x5x64x64 .f32) (b : FVec Ideal KernelIdeal.S3x64 .f32) :
    kerTail (F := Ideal) a ad x t W b = refTail (F := Ideal) a ad x t W b := by
  unfold kerTail refTail
  rw [x2_eq, shapeCast_self a KernelIdeal.Gen.shapeCasts_S1024x1024_S1024x1024, shapeCast_self ad KernelIdeal.Gen.shapeCasts_S1024x1024_S1024x1024, kerPre_eq, kerScale_eq]
  rfl

/-- Every offset of a whole-buffer rectangle is zero. -/
theorem off2_zero : (![0, 0] : Fin 2 → Nat) = fun _ => 0 := funext fun c => by fin_cases c <;> rfl
theorem off4_zero : (![0, 0, 0, 0] : Fin 4 → Nat) = fun _ => 0 := funext fun c => by fin_cases c <;> rfl

end Tail

open Tail

/-- The reference's three graph layers and final scaling, from its two message matrices, are what the third kernel stores when its
    six blocks are those matrices, the features, t_grad, the layer weights and the layer biases. -/
theorem ref_tail (x0 : (⟨S1024x64, .f32⟩ : BufTy).Contents (Elt Ideal)) (x1 x2 x3 : (⟨S1024x1024, .f32⟩ : BufTy).Contents (Elt Ideal)) (x4 : (⟨S1024x64, .f32⟩ : BufTy).Contents (Elt Ideal)) (x5 : (⟨S2x8x129, .f32⟩ : BufTy).Contents (Elt Ideal)) (x6 : (⟨S2x8, .f32⟩ : BufTy).Contents (Elt Ideal)) (x7 : (⟨S2x8x8, .f32⟩ : BufTy).Contents (Elt Ideal)) (x8 : (⟨S2x8, .f32⟩ : BufTy).Contents (Elt Ideal)) (x9 : (⟨S2x1x8, .f32⟩ : BufTy).Contents (Elt Ideal)) (x10 : (⟨S2x1, .f32⟩ : BufTy).Contents (Elt Ideal)) (x11 : (⟨S3x5x64x64, .f32⟩ : BufTy).Contents (Elt Ideal)) (x12 : (⟨S3x64, .f32⟩ : BufTy).Contents (Elt Ideal)) :
    Cert.ReferenceIdeal.ReadP.val_main_v193 (F := Ideal) x0 x1 x2 x3 x4 x5 x6 x7 x8 x9 x10 x11 x12
      = Cert.KernelIdeal.Hand.stored2 (F := Ideal)
          (Cert.ReferenceIdeal.ReadP.val_main_v44 (F := Ideal) x1 x4 x5 x6 x7 x8 x9 x10)
          (Cert.ReferenceIdeal.ReadP.val_main_v89 (F := Ideal) x2 x4 x5 x6 x7 x8 x9 x10) x0 x3 x11 x12 := by
  rw [ref_eq, stored2_eq]
  generalize val_main_v44 (F := Ideal) x1 x4 x5 x6 x7 x8 x9 x10 = a
  generalize val_main_v89 (F := Ideal) x2 x4 x5 x6 x7 x8 x9 x10 = ad
  rw [View.ld_unit_zero off2_zero KernelIdeal.Gen.inb_S1024x1024_S1024x1024_0_0 a, View.ld_unit_zero off2_zero KernelIdeal.Gen.inb_S1024x1024_S1024x1024_0_0 ad,
    View.ld_unit_zero off2_zero KernelIdeal.Gen.inb_S1024x64_S1024x64_0_0 x0, View.ld_unit_zero off2_zero KernelIdeal.Gen.inb_S1024x1024_S1024x1024_0_0 x3,
    View.ld_unit_zero off4_zero KernelIdeal.Gen.inb_S3x5x64x64_S3x5x64x64_0_0_0_0 x11, View.ld_unit_zero off2_zero KernelIdeal.Gen.inb_S3x64_S3x64_0_0 x12]
  exact (tail_eq a ad x0 x3 x11 x12).symm

end Cert.ReferenceIdeal.RefValue

end
-- ==== Proof.KIValue.lean ====
/-
  The idealized kernel program's result is the reference's result term of the same arguments. The result array ends at
  the third pallas_call's written-back output, which is the stored value of that call's six arrays; two of them are the
  first two calls' outputs, which are, entry by entry, the message MLP of the adjacency matrix (resp. its derivative),
  the embeddings and the MLP's parameters — and so are the reference's two message matrices; the parameters themselves
  are cut out of the stacked arrays by the same host operations in both programs; the other four arrays are arguments,
  which no segment writes. The reference's layers and final scaling are that stored value of its two message matrices.
-/
import proofs.«142047_j12206297055728_1_alg».proof.Proof.KIParams
import proofs.«142047_j12206297055728_1_alg».proof.Proof.KIArrays
import proofs.«142047_j12206297055728_1_alg».proof.Proof.KITile0
import proofs.«142047_j12206297055728_1_alg».proof.Proof.KITile1
import proofs.«142047_j12206297055728_1_alg».proof.Proof.RefMlp
import proofs.«142047_j12206297055728_1_alg».proof.Proof.RefTail
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen
open Cert.ReferenceIdeal.ReadP (val_main_v1 val_main_v3 val_main_v5 val_main_v7 val_main_v9 val_main_v11 val_main_v46 val_main_v48 val_main_v50 val_main_v52 val_main_v54 val_main_v56 val_main_v44 val_main_v89 val_main_v193)

variable (m : (ℓ : Loc nD τ sig) → Buf (Elt Ideal) ℓ) (ρ : Dev nD → PrngReg)

/-! ## The two message matrices -/

/-- The first pallas_call's output array is the reference's first message matrix of the same arguments. -/
theorem msg0_eq (c : Dev nD) :
    ((dat0 (F := Ideal) (E1 m ρ) c).arrAt 9 cfg0.N : S1024x1024.Idx → EReal)
      = val_main_v44 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext ij
  obtain ⟨i, j, rfl⟩ : ∃ (i : Fin 1024) (j : Fin 1024), ij = ix2 i j := ⟨ij 0, ij 1, eq_ix2 ij⟩
  rw [arr0_apply (E1 m ρ) c stored0_apply i j, Cert.ReferenceIdeal.RefValue.ref_mlp0,
    E1_v1, E1_v3, E1_v5, E1_v7, E1_v9, E1_v11]
  rw [show E1 m ρ c main_arg1 = (m ((c.tc : Thread nD τ).loc main_arg1)) from W1_kept m ρ c main_arg1 (by decide),
    show E1 m ρ c main_arg4 = (m ((c.tc : Thread nD τ).loc main_arg4)) from W1_kept m ρ c main_arg4 (by decide)]

/-- The second pallas_call's output array is the reference's second message matrix. -/
theorem msg1_eq (c : Dev nD) :
    ((dat1 (F := Ideal) (E3 m ρ) c).arrAt 9 cfg1.N : S1024x1024.Idx → EReal)
      = val_main_v89 (F := Ideal) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext ij
  obtain ⟨i, j, rfl⟩ : ∃ (i : Fin 1024) (j : Fin 1024), ij = ix2 i j := ⟨ij 0, ij 1, eq_ix2 ij⟩
  rw [arr1_apply (E3 m ρ) c stored1_apply i j, Cert.ReferenceIdeal.RefValue.ref_mlp1,
    E3_v14, E3_v16, E3_v18, E3_v20, E3_v22, E3_v24]
  rw [show E3 m ρ c main_arg2 = (m ((c.tc : Thread nD τ).loc main_arg2)) from W3_kept m ρ c main_arg2 (by decide) (by decide) (by decide),
    show E3 m ρ c main_arg4 = (m ((c.tc : Thread nD τ).loc main_arg4)) from W3_kept m ρ c main_arg4 (by decide) (by decide) (by decide)]

/-! ## The result -/

/-- The third pallas_call's written-back output is the reference's result term of the arguments. -/
theorem result_eq (c : Dev nD) :
    (dat2 (F := Ideal) (E4 m ρ) c).arrAt 6 cfg2.N
      = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [arr2_eq (E4 m ρ) c, Cert.ReferenceIdeal.RefValue.ref_tail]
  have e12 : E4 m ρ c main_v12 = val_main_v44 (F := Ideal) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    (W4_of_ne m ρ c main_v12 (by decide)).trans ((StableHlo.after_of_writes_sub hostOps1 _ hostOps1_writes (by decide)).trans
      ((W2_out m ρ c).trans (msg0_eq m ρ c)))
  have e25 : E4 m ρ c main_v25 = val_main_v89 (F := Ideal) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    (W4_out m ρ c).trans (msg1_eq m ρ c)
  rw [e12, e25,
    show E4 m ρ c main_arg0 = (m ((c.tc : Thread nD τ).loc main_arg0)) from W4_kept m ρ c main_arg0 (by decide) (by decide) (by decide) (by decide),
    show E4 m ρ c main_arg3 = (m ((c.tc : Thread nD τ).loc main_arg3)) from W4_kept m ρ c main_arg3 (by decide) (by decide) (by decide) (by decide),
    show E4 m ρ c main_arg11 = (m ((c.tc : Thread nD τ).loc main_arg11)) from W4_kept m ρ c main_arg11 (by decide) (by decide) (by decide) (by decide),
    show E4 m ρ c main_arg12 = (m ((c.tc : Thread nD τ).loc main_arg12)) from W4_kept m ρ c main_arg12 (by decide) (by decide) (by decide) (by decide)]

end Cert.KernelIdeal.Hand

end
-- ==== Proof.lean ====
/-
  The certificate of a graph vector field: an edge-wise message MLP applied to an adjacency matrix and to its derivative
  (two Pallas kernels over eight 128-row tiles each), then three graph layers and a final scaling by the column means of
  a third matrix (one kernel, everything resident), against the same computation in plain jnp.

  Over the extended reals the two programs compute one function. Each message matrix has, at edge (i, j), the value
    Σ_k max(Σ_h max(A[i,j]·W1[h,0] + Σ_d e[i,d]·W1[h,1+d] + Σ_d e[j,d]·W1[h,65+d] + b1[h], 0)·W2[k,h] + b2[k], 0)·W3[0,k] + b3[0]
  in both: the kernel forms it plane by plane on a tile (eight planes per layer, sums as chains of additions), the
  reference on [N,N,8] tensors with contractions over the hidden axis; the tiles are restrictions of one whole-array
  function and cover the matrix. The layers
    x ← max?((a x) W₀ + (aᵀ x) W₁ + (ad x) W₂ + (adᵀ x) W₃ + x W₄ + b, 0),   out[i,j] = (Σ_r t[r,i] / 1024)·x[i,j]
  are the same operations in both programs, a product with a transposed matrix spelt in the kernel as a contraction over
  the first axis, a broadcast as a reshape and a vector broadcast, a sum over an axis as a lane reduction. Only
  commutativity and associativity of + and · are used, so the inputs' finiteness is never needed.

  The frames: @main is host operations, the first kernel, host operations, the second kernel, the third; each kernel's
  body is run symbolically on its staging buffers, the pipeline's fetches and write-backs are the library's, and idx_emb,
  which the first two kernels read through two windows, is held at two half shares. No segment writes an argument.
-/
import proofs.«142047_j12206297055728_1_alg».proof.Defs
import proofs.«142047_j12206297055728_1_alg».proof.Proof.Gen.Kernel
import proofs.«142047_j12206297055728_1_alg».proof.Proof.Gen.KernelIdeal
import proofs.«142047_j12206297055728_1_alg».proof.Proof.Gen.ReferenceIdeal
import proofs.«142047_j12206297055728_1_alg».proof.Proof.Gen.Pre_finite_inputs
import proofs.«142047_j12206297055728_1_alg».proof.Proof.KRun
import proofs.«142047_j12206297055728_1_alg».proof.Proof.KIValue
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both programs end with the same result array: the kernel program's is the
    third kernel's written-back output, which is the reference's result term of the kernel's arguments; the reference's
    is that term of its own arguments, which are the same. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.dat2 (F := Ideal) (Cert.KernelIdeal.Hand.E4 m ρ) c).arrAt 6 Cert.KernelIdeal.cfg2.N,
    Cert.KernelIdeal.Hand.result_run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v193_eq, h0, h1, h2, h3, h4, h5, h6, h7, h8, h9, h10, h11, h12]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
